-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x3200000 : Shape := ⟨2, ![2, 3200000]⟩
abbrev S3200000 : Shape := ⟨1, ![3200000]⟩
abbrev S6x20 : Shape := ⟨2, ![6, 20]⟩
abbrev S20 : Shape := ⟨1, ![20]⟩
abbrev S20x15 : Shape := ⟨2, ![20, 15]⟩
abbrev S15 : Shape := ⟨1, ![15]⟩
abbrev S15x10 : Shape := ⟨2, ![15, 10]⟩
abbrev S10 : Shape := ⟨1, ![10]⟩
abbrev S10x5 : Shape := ⟨2, ![10, 5]⟩
abbrev S5 : Shape := ⟨1, ![5]⟩
abbrev S5x2 : Shape := ⟨2, ![5, 2]⟩
abbrev S2 : Shape := ⟨1, ![2]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S6x20 : S_.BroadcastsInDim S6x20 (![] : Fin 0 → Fin S6x20.rank)
  reducesTo_S6x20_S_d0_1 : S6x20.ReducesTo [0, 1] S_
  bcast_S_S20 : S_.BroadcastsInDim S20 (![] : Fin 0 → Fin S20.rank)
  reducesTo_S20_S_d0 : S20.ReducesTo [0] S_
  bcast_S_S20x15 : S_.BroadcastsInDim S20x15 (![] : Fin 0 → Fin S20x15.rank)
  reducesTo_S20x15_S_d0_1 : S20x15.ReducesTo [0, 1] S_
  bcast_S_S15 : S_.BroadcastsInDim S15 (![] : Fin 0 → Fin S15.rank)
  reducesTo_S15_S_d0 : S15.ReducesTo [0] S_
  bcast_S_S15x10 : S_.BroadcastsInDim S15x10 (![] : Fin 0 → Fin S15x10.rank)
  reducesTo_S15x10_S_d0_1 : S15x10.ReducesTo [0, 1] S_
  bcast_S_S10 : S_.BroadcastsInDim S10 (![] : Fin 0 → Fin S10.rank)
  reducesTo_S10_S_d0 : S10.ReducesTo [0] S_
  bcast_S_S10x5 : S_.BroadcastsInDim S10x5 (![] : Fin 0 → Fin S10x5.rank)
  reducesTo_S10x5_S_d0_1 : S10x5.ReducesTo [0, 1] S_
  bcast_S_S5 : S_.BroadcastsInDim S5 (![] : Fin 0 → Fin S5.rank)
  reducesTo_S5_S_d0 : S5.ReducesTo [0] S_
  bcast_S_S5x2 : S_.BroadcastsInDim S5x2 (![] : Fin 0 → Fin S5x2.rank)
  reducesTo_S5x2_S_d0_1 : S5x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S5x2 .f32) (main_arg16 : FVec F S2 .f32) (main_arg17 : FVec F S5x2 .f32) (main_v63 : IVec S_ 1) (main_v67 : IVec S_ 1) : IVec S_ 1 :=
  let main_v68 : IVec S_ 1 := andi main_v63 main_v67
  let main_v69 : FVec F S5x2 .f32 := Host.absf main_arg15
  let main_cst_26 : FVec F S_ .f32 := constant S_ .f32 0x7F800000#32
  let main_v70 : FVec F S5x2 .f32 := broadcastInDim S5x2 ![] bcast_S_S5x2 main_cst_26
  let main_v71 : IVec S5x2 1 := cmpf .olt main_v69 main_v70
  let main_c_27 : IVec S_ 1 := constantI S_ 1 1#1
  let main_v72 : IVec S_ 1 := (fun x v => Host.reduce IntOp.andi x v reducesTo_S5x2_S_d0_1 h_S_) main_v71 main_c_27
  let main_v73 : IVec S_ 1 := andi main_v68 main_v72
  let main_v74 : FVec F S2 .f32 := Host.absf main_arg16
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  let main_v79 : FVec F S5x2 .f32 := Host.absf main_arg17
  let main_cst_30 : FVec F S_ .f32 := constant S_ .f32 0x7F800000#32
  let main_v80 : FVec F S5x2 .f32 := broadcastInDim S5x2 ![] bcast_S_S5x2 main_cst_30
  let main_v81 : IVec S5x2 1 := cmpf .olt main_v79 main_v80
  let main_c_31 : IVec S_ 1 := constantI S_ 1 1#1
  let main_v82 : IVec S_ 1 := (fun x v => Host.reduce IntOp.andi x v reducesTo_S5x2_S_d0_1 h_S_) main_v81 main_c_31
  let main_v83 : IVec S_ 1 := andi main_v78 main_v82
  main_v83

def fn_part3 {F : FTy → Type} [FloatOps F] (main_arg12 : FVec F S10x5 .f32) (main_arg13 : FVec F S5 .f32) (main_arg14 : FVec F S10x5 .f32) (main_arg15 : FVec F S5x2 .f32) (main_arg16 : FVec F S2 .f32) (main_arg17 : FVec F S5x2 .f32) (main_v48 : IVec S_ 1) (main_v49 : FVec F S15x10 .f32) (main_v50 : FVec F S15x10 .f32) : IVec S_ 1 :=
  let main_v51 : IVec S15x10 1 := cmpf .olt main_v49 main_v50
  let main_c_19 : IVec S_ 1 := constantI S_ 1 1#1
  let main_v52 : IVec S_ 1 := (fun x v => Host.reduce IntOp.andi x v reducesTo_S15x10_S_d0_1 h_S_) main_v51 main_c_19
  let main_v53 : IVec S_ 1 := andi main_v48 main_v52
  let main_v54 : FVec F S10x5 .f32 := Host.absf main_arg12
  let main_cst_20 : FVec F S_ .f32 := constant S_ .f32 0x7F800000#32
  let main_v55 : FVec F S10x5 .f32 := broadcastInDim S10x5 ![] bcast_S_S10x5 main_cst_20
  let main_v56 : IVec S10x5 1 := cmpf .olt main_v54 main_v55
  let main_c_21 : IVec S_ 1 := constantI S_ 1 1#1
  let main_v57 : IVec S_ 1 := (fun x v => Host.reduce IntOp.andi x v reducesTo_S10x5_S_d0_1 h_S_) main_v56 main_c_21
  let main_v58 : IVec S_ 1 := andi main_v53 main_v57
  let main_v59 : FVec F S5 .f32 := Host.absf main_arg13
  let main_cst_22 : FVec F S_ .f32 := constant S_ .f32 0x7F800000#32
  let main_v60 : FVec F S5 .f32 := broadcastInDim S5 ![] bcast_S_S5 main_cst_22
  let main_v61 : IVec S5 1 := cmpf .olt main_v59 main_v60
  let main_c_23 : IVec S_ 1 := constantI S_ 1 1#1
  let main_v62 : IVec S_ 1 := (fun x v => Host.reduce IntOp.andi x v reducesTo_S5_S_d0 h_S_) main_v61 main_c_23
  let main_v63 : IVec S_ 1 := andi main_v58 main_v62
  let main_v64 : FVec F S10x5 .f32 := Host.absf main_arg14
  let main_cst_24 : FVec F S_ .f32 := constant S_ .f32 0x7F800000#32
  let main_v65 : FVec F S10x5 .f32 := broadcastInDim S10x5 ![] bcast_S_S10x5 main_cst_24
  let main_v66 : IVec S10x5 1 := cmpf .olt main_v64 main_v65
  let main_c_25 : IVec S_ 1 := constantI S_ 1 1#1
  let main_v67 : IVec S_ 1 := (fun x v => Host.reduce IntOp.andi x v reducesTo_S10x5_S_d0_1 h_S_) main_v66 main_c_25
  fn_part4 (F := F) main_arg15 main_arg16 main_arg17 main_v63 main_v67

def fn_part2 {F : FTy → Type} [FloatOps F] (main_arg8 : FVec F S20x15 .f32) (main_arg9 : FVec F S15x10 .f32) (main_arg10 : FVec F S10 .f32) (main_arg11 : FVec F S15x10 .f32) (main_arg12 : FVec F S10x5 .f32) (main_arg13 : FVec F S5 .f32) (main_arg14 : FVec F S10x5 .f32) (main_arg15 : FVec F S5x2 .f32) (main_arg16 : FVec F S2 .f32) (main_arg17 : FVec F S5x2 .f32) (main_v33 : IVec S_ 1) : IVec S_ 1 :=
  let main_v34 : FVec F S20x15 .f32 := Host.absf main_arg8
  let main_cst_12 : FVec F S_ .f32 := constant S_ .f32 0x7F800000#32
  let main_v35 : FVec F S20x15 .f32 := broadcastInDim S20x15 ![] bcast_S_S20x15 main_cst_12
  let main_v36 : IVec S20x15 1 := cmpf .olt main_v34 main_v35
  let main_c_13 : IVec S_ 1 := constantI S_ 1 1#1
  let main_v37 : IVec S_ 1 := (fun x v => Host.reduce IntOp.andi x v reducesTo_S20x15_S_d0_1 h_S_) main_v36 main_c_13
  let main_v38 : IVec S_ 1 := andi main_v33 main_v37
  let main_v39 : FVec F S15x10 .f32 := Host.absf main_arg9
  let main_cst_14 : FVec F S_ .f32 := constant S_ .f32 0x7F800000#32
  let main_v40 : FVec F S15x10 .f32 := broadcastInDim S15x10 ![] bcast_S_S15x10 main_cst_14
  let main_v41 : IVec S15x10 1 := cmpf .olt main_v39 main_v40
  let main_c_15 : IVec S_ 1 := constantI S_ 1 1#1
  let main_v42 : IVec S_ 1 := (fun x v => Host.reduce IntOp.andi x v reducesTo_S15x10_S_d0_1 h_S_) main_v41 main_c_15
  let main_v43 : IVec S_ 1 := andi main_v38 main_v42
  let main_v44 : FVec F S10 .f32 := Host.absf main_arg10
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_v49 : FVec F S15x10 .f32 := Host.absf main_arg11
  let main_cst_18 : FVec F S_ .f32 := constant S_ .f32 0x7F800000#32
  let main_v50 : FVec F S15x10 .f32 := broadcastInDim S15x10 ![] bcast_S_S15x10 main_cst_18
  fn_part3 (F := F) main_arg12 main_arg13 main_arg14 main_arg15 main_arg16 main_arg17 main_v48 main_v49 main_v50

def fn_part1 {F : FTy → Type} [FloatOps F] (main_arg5 : FVec F S6x20 .f32) (main_arg6 : FVec F S20x15 .f32) (main_arg7 : FVec F S15 .f32) (main_arg8 : FVec F S20x15 .f32) (main_arg9 : FVec F S15x10 .f32) (main_arg10 : FVec F S10 .f32) (main_arg11 : FVec F S15x10 .f32) (main_arg12 : FVec F S10x5 .f32) (main_arg13 : FVec F S5 .f32) (main_arg14 : FVec F S10x5 .f32) (main_arg15 : FVec F S5x2 .f32) (main_arg16 : FVec F S2 .f32) (main_arg17 : FVec F S5x2 .f32) (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  let main_v19 : FVec F S6x20 .f32 := Host.absf main_arg5
  let main_cst_6 : FVec F S_ .f32 := constant S_ .f32 0x7F800000#32
  let main_v20 : FVec F S6x20 .f32 := broadcastInDim S6x20 ![] bcast_S_S6x20 main_cst_6
  let main_v21 : IVec S6x20 1 := cmpf .olt main_v19 main_v20
  let main_c_7 : IVec S_ 1 := constantI S_ 1 1#1
  let main_v22 : IVec S_ 1 := (fun x v => Host.reduce IntOp.andi x v reducesTo_S6x20_S_d0_1 h_S_) main_v21 main_c_7
  let main_v23 : IVec S_ 1 := andi main_v18 main_v22
  let main_v24 : FVec F S20x15 .f32 := Host.absf main_arg6
  let main_cst_8 : FVec F S_ .f32 := constant S_ .f32 0x7F800000#32
  let main_v25 : FVec F S20x15 .f32 := broadcastInDim S20x15 ![] bcast_S_S20x15 main_cst_8
  let main_v26 : IVec S20x15 1 := cmpf .olt main_v24 main_v25
  let main_c_9 : IVec S_ 1 := constantI S_ 1 1#1
  let main_v27 : IVec S_ 1 := (fun x v => Host.reduce IntOp.andi x v reducesTo_S20x15_S_d0_1 h_S_) main_v26 main_c_9
  let main_v28 : IVec S_ 1 := andi main_v23 main_v27
  let main_v29 : FVec F S15 .f32 := Host.absf main_arg7
  let main_cst_10 : FVec F S_ .f32 := constant S_ .f32 0x7F800000#32
  let main_v30 : FVec F S15 .f32 := broadcastInDim S15 ![] bcast_S_S15 main_cst_10
  let main_v31 : IVec S15 1 := cmpf .olt main_v29 main_v30
  let main_c_11 : IVec S_ 1 := constantI S_ 1 1#1
  let main_v32 : IVec S_ 1 := (fun x v => Host.reduce IntOp.andi x v reducesTo_S15_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x6 .f32) (main_arg1 : IVec S2x3200000 32) (main_arg2 : FVec F S3200000 .f32) (main_arg3 : FVec F S6x20 .f32) (main_arg4 : FVec F S20 .f32) (main_arg5 : FVec F S6x20 .f32) (main_arg6 : FVec F S20x15 .f32) (main_arg7 : FVec F S15 .f32) (main_arg8 : FVec F S20x15 .f32) (main_arg9 : FVec F S15x10 .f32) (main_arg10 : FVec F S10 .f32) (main_arg11 : FVec F S15x10 .f32) (main_arg12 : FVec F S10x5 .f32) (main_arg13 : FVec F S5 .f32) (main_arg14 : FVec F S10x5 .f32) (main_arg15 : FVec F S5x2 .f32) (main_arg16 : FVec F S2 .f32) (main_arg17 : FVec F S5x2 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S6x20 .f32 := Host.absf main_arg3
  let main_cst_2 : FVec F S_ .f32 := constant S_ .f32 0x7F800000#32
  let main_v10 : FVec F S6x20 .f32 := broadcastInDim S6x20 ![] bcast_S_S6x20 main_cst_2
  let main_v11 : IVec S6x20 1 := cmpf .olt main_v9 main_v10
  let main_c_3 : IVec S_ 1 := constantI S_ 1 1#1
  let main_v12 : IVec S_ 1 := (fun x v => Host.reduce IntOp.andi x v reducesTo_S6x20_S_d0_1 h_S_) main_v11 main_c_3
  let main_v13 : IVec S_ 1 := andi main_v8 main_v12
  let main_v14 : FVec F S20 .f32 := Host.absf main_arg4
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x6 : Shape := ⟨2, ![100000, 6]⟩
abbrev S2x3200000 : Shape := ⟨2, ![2, 3200000]⟩
abbrev S3200000 : Shape := ⟨1, ![3200000]⟩
abbrev S6x20 : Shape := ⟨2, ![6, 20]⟩
abbrev S20 : Shape := ⟨1, ![20]⟩
abbrev S20x15 : Shape := ⟨2, ![20, 15]⟩
abbrev S15 : Shape := ⟨1, ![15]⟩
abbrev S15x10 : Shape := ⟨2, ![15, 10]⟩
abbrev S10 : Shape := ⟨1, ![10]⟩
abbrev S10x5 : Shape := ⟨2, ![10, 5]⟩
abbrev S5 : Shape := ⟨1, ![5]⟩
abbrev S5x2 : Shape := ⟨2, ![5, 2]⟩
abbrev S2 : Shape := ⟨1, ![2]⟩
abbrev S1x3200000 : Shape := ⟨2, ![1, 3200000]⟩
abbrev S_ : Shape := ⟨0, ![]⟩
abbrev S3200000x1 : Shape := ⟨2, ![3200000, 1]⟩
abbrev S3200000x6 : Shape := ⟨2, ![3200000, 6]⟩
abbrev S1x20 : Shape := ⟨2, ![1, 20]⟩
abbrev S100000x20 : Shape := ⟨2, ![100000, 20]⟩
abbrev S10000x6 : Shape := ⟨2, ![10000, 6]⟩
abbrev S10000x20 : Shape := ⟨2, ![10000, 20]⟩
abbrev S3200000x20 : Shape := ⟨2, ![3200000, 20]⟩
abbrev S1x15 : Shape := ⟨2, ![1, 15]⟩
abbrev S100000x15 : Shape := ⟨2, ![100000, 15]⟩
abbrev S10000x15 : Shape := ⟨2, ![10000, 15]⟩
abbrev S3200000x15 : Shape := ⟨2, ![3200000, 15]⟩
abbrev S1x10 : Shape := ⟨2, ![1, 10]⟩
abbrev S100000x10 : Shape := ⟨2, ![100000, 10]⟩
abbrev S10000x10 : Shape := ⟨2, ![10000, 10]⟩
abbrev S3200000x10 : Shape := ⟨2, ![3200000, 10]⟩
abbrev S1x5 : Shape := ⟨2, ![1, 5]⟩
abbrev S100000x5 : Shape := ⟨2, ![100000, 5]⟩
abbrev S10000x5 : Shape := ⟨2, ![10000, 5]⟩
abbrev S3200000x5 : Shape := ⟨2, ![3200000, 5]⟩
abbrev S1x2 : Shape := ⟨2, ![1, 2]⟩
abbrev S100000x2 : Shape := ⟨2, ![100000, 2]⟩
abbrev S10000x2 : Shape := ⟨2, ![10000, 2]⟩
abbrev S10000 : Shape := ⟨1, ![10000]⟩
abbrev S10000x1 : Shape := ⟨2, ![10000, 1]⟩

abbrev nBuf : Space → Nat
  | .hbm => 112
  | .vmem => 45
  | .smem => 0
  | _ => 0

abbrev bufTy : (tb : Table) → Fin (tcTables nBuf tb) → BufTy
  | .hbm, ⟨0, _⟩ => ⟨S100000x6, .f32⟩
  | .hbm, ⟨1, _⟩ => ⟨S2x3200000, .i32⟩
  | .hbm, ⟨2, _⟩ => ⟨S3200000, .f32⟩
  | .hbm, ⟨3, _⟩ => ⟨S6x20, .f32⟩
  | .hbm, ⟨4, _⟩ => ⟨S20, .f32⟩
  | .hbm, ⟨5, _⟩ => ⟨S6x20, .f32⟩
  | .hbm, ⟨6, _⟩ => ⟨S20x15, .f32⟩
  | .hbm, ⟨7, _⟩ => ⟨S15, .f32⟩
  | .hbm, ⟨8, _⟩ => ⟨S20x15, .f32⟩
  | .hbm, ⟨9, _⟩ => ⟨S15x10, .f32⟩
  | .hbm, ⟨10, _⟩ => ⟨S10, .f32⟩
  | .hbm, ⟨11, _⟩ => ⟨S15x10, .f32⟩
  | .hbm, ⟨12, _⟩ => ⟨S10x5, .f32⟩
  | .hbm, ⟨13, _⟩ => ⟨S5, .f32⟩
  | .hbm, ⟨14, _⟩ => ⟨S10x5, .f32⟩
  | .hbm, ⟨15, _⟩ => ⟨S5x2, .f32⟩
  | .hbm, ⟨16, _⟩ => ⟨S2, .f32⟩
  | .hbm, ⟨17, _⟩ => ⟨S5x2, .f32⟩
  | .hbm, ⟨18, _⟩ => ⟨S1x3200000, .i32⟩
  | .hbm, ⟨19, _⟩ => ⟨S3200000, .i32⟩
  | .hbm, ⟨20, _⟩ => ⟨S1x3200000, .i32⟩
  | .hbm, ⟨21, _⟩ => ⟨S3200000, .i32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000x6, .f32⟩
  | .hbm, ⟨31, _⟩ => ⟨S3200000x1, .f32⟩
  | .hbm, ⟨32, _⟩ => ⟨S3200000x6, .f32⟩
  | .hbm, ⟨33, _⟩ => ⟨S3200000x6, .f32⟩
  | .hbm, ⟨34, _⟩ => ⟨S_, .f32⟩
  | .hbm, ⟨35, _⟩ => ⟨S100000x6, .f32⟩
  | .hbm, ⟨36, _⟩ => ⟨S3200000x1, .i32⟩
  | .hbm, ⟨37, _⟩ => ⟨S100000x6, .f32⟩
  | .hbm, ⟨38, _⟩ => ⟨S1x20, .f32⟩
  | .hbm, ⟨39, _⟩ => ⟨S100000x20, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x20, .f32⟩
  | .hbm, ⟨49, _⟩ => ⟨S3200000x1, .f32⟩
  | .hbm, ⟨50, _⟩ => ⟨S3200000x20, .f32⟩
  | .hbm, ⟨51, _⟩ => ⟨S3200000x20, .f32⟩
  | .hbm, ⟨52, _⟩ => ⟨S_, .f32⟩
  | .hbm, ⟨53, _⟩ => ⟨S100000x20, .f32⟩
  | .hbm, ⟨54, _⟩ => ⟨S3200000x1, .i32⟩
  | .hbm, ⟨55, _⟩ => ⟨S100000x20, .f32⟩
  | .hbm, ⟨56, _⟩ => ⟨S1x15, .f32⟩
  | .hbm, ⟨57, _⟩ => ⟨S100000x15, .f32⟩
  | .hbm, ⟨58, _⟩ => ⟨S_, .i32⟩
  | .hbm, ⟨59, _⟩ => ⟨S3200000, .i32⟩
  | .hbm, ⟨60, _⟩ => ⟨S3200000, .i1⟩
  | .hbm, ⟨61, _⟩ => ⟨S_, .i32⟩
  | .hbm, ⟨62, _⟩ => ⟨S3200000, .i32⟩
  | .hbm, ⟨63, _⟩ => ⟨S3200000, .i32⟩
  | .hbm, ⟨64, _⟩ => ⟨S3200000, .i32⟩
  | .hbm, ⟨65, _⟩ => ⟨S3200000x1, .i32⟩
  | .hbm, ⟨66, _⟩ => ⟨S3200000x15, .f32⟩
  | .hbm, ⟨67, _⟩ => ⟨S3200000x1, .f32⟩
  | .hbm, ⟨68, _⟩ => ⟨S3200000x15, .f32⟩
  | .hbm, ⟨69, _⟩ => ⟨S3200000x15, .f32⟩
  | .hbm, ⟨70, _⟩ => ⟨S_, .f32⟩
  | .hbm, ⟨71, _⟩ => ⟨S100000x15, .f32⟩
  | .hbm, ⟨72, _⟩ => ⟨S3200000x1, .i32⟩
  | .hbm, ⟨73, _⟩ => ⟨S100000x15, .f32⟩
  | .hbm, ⟨74, _⟩ => ⟨S1x10, .f32⟩
  | .hbm, ⟨75, _⟩ => ⟨S100000x10, .f32⟩
  | .hbm, ⟨76, _⟩ => ⟨S_, .i32⟩
  | .hbm, ⟨77, _⟩ => ⟨S3200000, .i32⟩
  | .hbm, ⟨78, _⟩ => ⟨S3200000, .i1⟩
  | .hbm, ⟨79, _⟩ => ⟨S_, .i32⟩
  | .hbm, ⟨80, _⟩ => ⟨S3200000, .i32⟩
  | .hbm, ⟨81, _⟩ => ⟨S3200000, .i32⟩
  | .hbm, ⟨82, _⟩ => ⟨S3200000, .i32⟩
  | .hbm, ⟨83, _⟩ => ⟨S3200000x1, .i32⟩
  | .hbm, ⟨84, _⟩ => ⟨S3200000x10, .f32⟩
  | .hbm, ⟨85, _⟩ => ⟨S3200000x1, .f32⟩
  | .hbm, ⟨86, _⟩ => ⟨S3200000x10, .f32⟩
  | .hbm, ⟨87, _⟩ => ⟨S3200000x10, .f32⟩
  | .hbm, ⟨88, _⟩ => ⟨S_, .f32⟩
  | .hbm, ⟨89, _⟩ => ⟨S100000x10, .f32⟩
  | .hbm, ⟨90, _⟩ => ⟨S3200000x1, .i32⟩
  | .hbm, ⟨91, _⟩ => ⟨S100000x10, .f32⟩
  | .hbm, ⟨92, _⟩ => ⟨S1x5, .f32⟩
  | .hbm, ⟨93, _⟩ => ⟨S100000x5, .f32⟩
  | .hbm, ⟨94, _⟩ => ⟨S_, .i32⟩
  | .hbm, ⟨95, _⟩ => ⟨S3200000, .i32⟩
  | .hbm, ⟨96, _⟩ => ⟨S3200000, .i1⟩
  | .hbm, ⟨97, _⟩ => ⟨S_, .i32⟩
  | .hbm, ⟨98, _⟩ => ⟨S3200000, .i32⟩
  | .hbm, ⟨99, _⟩ => ⟨S3200000, .i32⟩
  | .hbm, ⟨100, _⟩ => ⟨S3200000, .i32⟩
  | .hbm, ⟨101, _⟩ => ⟨S3200000x1, .i32⟩
  | .hbm, ⟨102, _⟩ => ⟨S3200000x5, .f32⟩
  | .hbm, ⟨103, _⟩ => ⟨S3200000x1, .f32⟩
  | .hbm, ⟨104, _⟩ => ⟨S3200000x5, .f32⟩
  | .hbm, ⟨105, _⟩ => ⟨S3200000x5, .f32⟩
  | .hbm, ⟨106, _⟩ => ⟨S_, .f32⟩
  | .hbm, ⟨107, _⟩ => ⟨S100000x5, .f32⟩
  | .hbm, ⟨108, _⟩ => ⟨S3200000x1, .i32⟩
  | .hbm, ⟨109, _⟩ => ⟨S100000x5, .f32⟩
  | .hbm, ⟨110, _⟩ => ⟨S1x2, .f32⟩
  | .hbm, ⟨111, _⟩ => ⟨S100000x2, .f32⟩
  | .local _ .vmem, ⟨0, _⟩ => ⟨S10000x6, .f32⟩
  | .local _ .vmem, ⟨1, _⟩ => ⟨S10000x6, .f32⟩
  | .local _ .vmem, ⟨2, _⟩ => ⟨S10000x6, .f32⟩
  | .local _ .vmem, ⟨3, _⟩ => ⟨S10000x6, .f32⟩
  | .local _ .vmem, ⟨4, _⟩ => ⟨S6x20, .f32⟩
  | .local _ .vmem, ⟨5, _⟩ => ⟨S1x20, .f32⟩
  | .local _ .vmem, ⟨6, _⟩ => ⟨S6x20, .f32⟩
  | .local _ .vmem, ⟨7, _⟩ => ⟨S10000x20, .f32⟩
  | .local _ .vmem, ⟨8, _⟩ => ⟨S10000x20, .f32⟩
  | .local _ .vmem, ⟨9, _⟩ => ⟨S10000x20, .f32⟩
  | .local _ .vmem, ⟨10, _⟩ => ⟨S10000x20, .f32⟩
  | .local _ .vmem, ⟨11, _⟩ => ⟨S10000x20, .f32⟩
  | .local _ .vmem, ⟨12, _⟩ => ⟨S10000x20, .f32⟩
  | .local _ .vmem, ⟨13, _⟩ => ⟨S20x15, .f32⟩
  | .local _ .vmem, ⟨14, _⟩ => ⟨S1x15, .f32⟩
  | .local _ .vmem, ⟨15, _⟩ => ⟨S20x15, .f32⟩
  | .local _ .vmem, ⟨16, _⟩ => ⟨S10000x15, .f32⟩
  | .local _ .vmem, ⟨17, _⟩ => ⟨S10000x15, .f32⟩
  | .local _ .vmem, ⟨18, _⟩ => ⟨S10000x15, .f32⟩
  | .local _ .vmem, ⟨19, _⟩ => ⟨S10000x15, .f32⟩
  | .local _ .vmem, ⟨20, _⟩ => ⟨S10000x15, .f32⟩
  | .local _ .vmem, ⟨21, _⟩ => ⟨S10000x15, .f32⟩
  | .local _ .vmem, ⟨22, _⟩ => ⟨S15x10, .f32⟩
  | .local _ .vmem, ⟨23, _⟩ => ⟨S1x10, .f32⟩
  | .local _ .vmem, ⟨24, _⟩ => ⟨S15x10, .f32⟩
  | .local _ .vmem, ⟨25, _⟩ => ⟨S10000x10, .f32⟩
  | .local _ .vmem, ⟨26, _⟩ => ⟨S10000x10, .f32⟩
  | .local _ .vmem, ⟨27, _⟩ => ⟨S10000x10, .f32⟩
  | .local _ .vmem, ⟨28, _⟩ => ⟨S10000x10, .f32⟩
  | .local _ .vmem, ⟨29, _⟩ => ⟨S10000x10, .f32⟩
  | .local _ .vmem, ⟨30, _⟩ => ⟨S10000x10, .f32⟩
  | .local _ .vmem, ⟨31, _⟩ => ⟨S10x5, .f32⟩
  | .local _ .vmem, ⟨32, _⟩ => ⟨S1x5, .f32⟩
  | .local _ .vmem, ⟨33, _⟩ => ⟨S10x5, .f32⟩
  | .local _ .vmem, ⟨34, _⟩ => ⟨S10000x5, .f32⟩
  | .local _ .vmem, ⟨35, _⟩ => ⟨S10000x5, .f32⟩
  | .local _ .vmem, ⟨36, _⟩ => ⟨S10000x5, .f32⟩
  | .local _ .vmem, ⟨37, _⟩ => ⟨S10000x5, .f32⟩
  | .local _ .vmem, ⟨38, _⟩ => ⟨S10000x5, .f32⟩
  | .local _ .vmem, ⟨39, _⟩ => ⟨S10000x5, .f32⟩
  | .local _ .vmem, ⟨40, _⟩ => ⟨S5x2, .f32⟩
  | .local _ .vmem, ⟨41, _⟩ => ⟨S1x2, .f32⟩
  | .local _ .vmem, ⟨42, _⟩ => ⟨S5x2, .f32⟩
  | .local _ .vmem, ⟨43, _⟩ => ⟨S10000x2, .f32⟩
  | .local _ .vmem, ⟨44, _⟩ => ⟨S10000x2, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_1 : Ref sig .tc := ⟨.hbm, 40, rfl⟩
abbrev main_v19 : Ref sig .tc := ⟨.hbm, 41, rfl⟩
abbrev main_v20 : Ref sig .tc := ⟨.hbm, 42, rfl⟩
abbrev main_c_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_4 : Ref sig .tc := ⟨.hbm, 58, rfl⟩
abbrev main_v34 : Ref sig .tc := ⟨.hbm, 59, rfl⟩
abbrev main_v35 : Ref sig .tc := ⟨.hbm, 60, rfl⟩
abbrev main_c_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_7 : Ref sig .tc := ⟨.hbm, 76, rfl⟩
abbrev main_v49 : Ref sig .tc := ⟨.hbm, 77, rfl⟩
abbrev main_v50 : Ref sig .tc := ⟨.hbm, 78, rfl⟩
abbrev main_c_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_10 : Ref sig .tc := ⟨.hbm, 94, rfl⟩
abbrev main_v64 : Ref sig .tc := ⟨.hbm, 95, rfl⟩
abbrev main_v65 : Ref sig .tc := ⟨.hbm, 96, rfl⟩
abbrev main_c_11 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_12 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x20 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x20 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S20x15 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x15 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S20x15 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x15 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x15 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x15 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S15x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S15x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x10 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x10 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S10x5 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x5 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S10x5 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x5 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x5 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x5 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S5x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S5x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x2 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x6_0_1 : S3200000x1.BroadcastsInDim S3200000x6 (![0, 1] : Fin 2 → Fin S3200000x6.rank)
  bcast_S_S100000x6 : S_.BroadcastsInDim S100000x6 (![] : Fin 0 → Fin S100000x6.rank)
  shapeCasts_S20_S1x20 : S20.ShapeCasts S1x20
  inb_S10000x6_S10000x6_0_0 : ∀ a, (![0, 0] : Fin 2 → Nat) a + S10000x6.size a ≤ S10000x6.size a
  h_S10000x6 : 0 < S10000x6.numel
  shapeCasts_S10000x6_S10000x6 : S10000x6.ShapeCasts S10000x6
  bitsLt_bf16_f32 : FTy.bits .bf16 < FTy.bits .f32
  inb_S6x20_S6x20_0_0 : ∀ a, (![0, 0] : Fin 2 → Nat) a + S6x20.size a ≤ S6x20.size a
  h_S6x20 : 0 < S6x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S10000x20 : S1x20.Broadcasts S10000x20
  inb_S10000x20_S10000x20_0_0 : ∀ a, (![0, 0] : Fin 2 → Nat) a + S10000x20.size a ≤ S10000x20.size a
  h_S10000x20 : 0 < S10000x20.numel
  bcast_S3200000x1_S3200000x20_0_1 : S3200000x1.BroadcastsInDim S3200000x20 (![0, 1] : Fin 2 → Fin S3200000x20.rank)
  bcast_S_S100000x20 : S_.BroadcastsInDim S100000x20 (![] : Fin 0 → Fin S100000x20.rank)
  shapeCasts_S15_S1x15 : S15.ShapeCasts S1x15
  shapeCasts_S10000x20_S10000x20 : S10000x20.ShapeCasts S10000x20
  inb_S20x15_S20x15_0_0 : ∀ a, (![0, 0] : Fin 2 → Nat) a + S20x15.size a ≤ S20x15.size a
  h_S20x15 : 0 < S20x15.numel
  inb_S1x15_S1x15_0_0 : ∀ a, (![0, 0] : Fin 2 → Nat) a + S1x15.size a ≤ S1x15.size a
  h_S1x15 : 0 < S1x15.numel
  shapeCasts_S1x15_S1x15 : S1x15.ShapeCasts S1x15
  broadcasts_S1x15_S10000x15 : S1x15.Broadcasts S10000x15
  inb_S10000x15_S10000x15_0_0 : ∀ a, (![0, 0] : Fin 2 → Nat) a + S10000x15.size a ≤ S10000x15.size a
  h_S10000x15 : 0 < S10000x15.numel
  bcast_S3200000x1_S3200000x15_0_1 : S3200000x1.BroadcastsInDim S3200000x15 (![0, 1] : Fin 2 → Fin S3200000x15.rank)
  bcast_S_S100000x15 : S_.BroadcastsInDim S100000x15 (![] : Fin 0 → Fin S100000x15.rank)
  shapeCasts_S10_S1x10 : S10.ShapeCasts S1x10
  shapeCasts_S10000x15_S10000x15 : S10000x15.ShapeCasts S10000x15
  inb_S15x10_S15x10_0_0 : ∀ a, (![0, 0] : Fin 2 → Nat) a + S15x10.size a ≤ S15x10.size a
  h_S15x10 : 0 < S15x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  inb_S10000x10_S10000x10_0_0 : ∀ a, (![0, 0] : Fin 2 → Nat) a + S10000x10.size a ≤ S10000x10.size a
  h_S10000x10 : 0 < S10000x10.numel
  bcast_S3200000x1_S3200000x10_0_1 : S3200000x1.BroadcastsInDim S3200000x10 (![0, 1] : Fin 2 → Fin S3200000x10.rank)
  bcast_S_S100000x10 : S_.BroadcastsInDim S100000x10 (![] : Fin 0 → Fin S100000x10.rank)
  shapeCasts_S5_S1x5 : S5.ShapeCasts S1x5
  shapeCasts_S10000x10_S10000x10 : S10000x10.ShapeCasts S10000x10
  inb_S10x5_S10x5_0_0 : ∀ a, (![0, 0] : Fin 2 → Nat) a + S10x5.size a ≤ S10x5.size a
  h_S10x5 : 0 < S10x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S10000x5 : S1x5.Broadcasts S10000x5
  inb_S10000x5_S10000x5_0_0 : ∀ a, (![0, 0] : Fin 2 → Nat) a + S10000x5.size a ≤ S10000x5.size a
  h_S10000x5 : 0 < S10000x5.numel
  bcast_S3200000x1_S3200000x5_0_1 : S3200000x1.BroadcastsInDim S3200000x5 (![0, 1] : Fin 2 → Fin S3200000x5.rank)
  bcast_S_S100000x5 : S_.BroadcastsInDim S100000x5 (![] : Fin 0 → Fin S100000x5.rank)
  shapeCasts_S2_S1x2 : S2.ShapeCasts S1x2
  shapeCasts_S10000x5_S10000x5 : S10000x5.ShapeCasts S10000x5
  inb_S5x2_S5x2_0_0 : ∀ a, (![0, 0] : Fin 2 → Nat) a + S5x2.size a ≤ S5x2.size a
  h_S5x2 : 0 < S5x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  inb_S10000x2_S10000x2_0_0 : ∀ a, (![0, 0] : Fin 2 → Nat) a + S10000x2.size a ≤ S10000x2.size a
  h_S10000x2 : 0 < S10000x2.numel
  gather_S100000x6_S3200000x1_S3200000x6_1_0_n_n_0_1_16_wf : GatherDims.WF S100000x6 S3200000x1 S3200000x6 [1] [0] [] [0] [] 1 ![1, 6]
  scatter_S100000x6_S3200000x1_S3200000x6_1_0_0_1_wf : ScatterDims.WF S100000x6 S3200000x1 S3200000x6 [1] [0] [0] 1
  dot_S10000x6_S6x20_S10000x20_1_0_0_1_n_n_wf : DotDims.WF S10000x6 S6x20 S10000x20 [1] [0] [0] [1] [] []
  gather_S100000x20_S3200000x1_S3200000x20_1_0_n_n_0_1_120_wf : GatherDims.WF S100000x20 S3200000x1 S3200000x20 [1] [0] [] [0] [] 1 ![1, 20]
  scatter_S100000x20_S3200000x1_S3200000x20_1_0_0_1_wf : ScatterDims.WF S100000x20 S3200000x1 S3200000x20 [1] [0] [0] 1
  dot_S10000x20_S20x15_S10000x15_1_0_0_1_n_n_wf : DotDims.WF S10000x20 S20x15 S10000x15 [1] [0] [0] [1] [] []
  gather_S100000x15_S3200000x1_S3200000x15_1_0_n_n_0_1_115_wf : GatherDims.WF S100000x15 S3200000x1 S3200000x15 [1] [0] [] [0] [] 1 ![1, 15]
  scatter_S100000x15_S3200000x1_S3200000x15_1_0_0_1_wf : ScatterDims.WF S100000x15 S3200000x1 S3200000x15 [1] [0] [0] 1
  dot_S10000x15_S15x10_S10000x10_1_0_0_1_n_n_wf : DotDims.WF S10000x15 S15x10 S10000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  dot_S10000x10_S10x5_S10000x5_1_0_0_1_n_n_wf : DotDims.WF S10000x10 S10x5 S10000x5 [1] [0] [0] [1] [] []
  gather_S100000x5_S3200000x1_S3200000x5_1_0_n_n_0_1_15_wf : GatherDims.WF S100000x5 S3200000x1 S3200000x5 [1] [0] [] [0] [] 1 ![1, 5]
  scatter_S100000x5_S3200000x1_S3200000x5_1_0_0_1_wf : ScatterDims.WF S100000x5 S3200000x1 S3200000x5 [1] [0] [0] 1
  dot_S10000x5_S5x2_S10000x2_1_0_0_1_n_n_wf : DotDims.WF S10000x5 S5x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S100000x6.size a
  hwx0_0 : ∀ i : grid0.Coords, EltTy.bits .f32 = 32 ∨ (Rect.block (s := S100000x6) S10000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x6.size a ≤ S100000x6.size a
  hwx0_1 : ∀ i : grid0.Coords, EltTy.bits .f32 = 32 ∨ (Rect.block (s := S100000x6) S10000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x20.size a ≤ S6x20.size a
  hwx0_2 : ∀ i : grid0.Coords, EltTy.bits .f32 = 32 ∨ (Rect.block (s := S6x20) S6x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x20.size a ≤ S1x20.size a
  hwx0_3 : ∀ i : grid0.Coords, EltTy.bits .f32 = 32 ∨ (Rect.block (s := S1x20) S1x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x20.size a ≤ S6x20.size a
  hwx0_4 : ∀ i : grid0.Coords, EltTy.bits .f32 = 32 ∨ (Rect.block (s := S6x20) S6x20.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x20.size a ≤ S100000x20.size a
  hwx0_5 : ∀ i : grid0.Coords, EltTy.bits .f32 = 32 ∨ (Rect.block (s := S100000x20) S10000x20.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x20.size a ≤ S100000x20.size a
  hwx1_0 : ∀ i : grid1.Coords, EltTy.bits .f32 = 32 ∨ (Rect.block (s := S100000x20) S10000x20.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x20.size a ≤ S100000x20.size a
  hwx1_1 : ∀ i : grid1.Coords, EltTy.bits .f32 = 32 ∨ (Rect.block (s := S100000x20) S10000x20.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S20x15.size a ≤ S20x15.size a
  hwx1_2 : ∀ i : grid1.Coords, EltTy.bits .f32 = 32 ∨ (Rect.block (s := S20x15) S20x15.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x15.size a ≤ S1x15.size a
  hwx1_3 : ∀ i : grid1.Coords, EltTy.bits .f32 = 32 ∨ (Rect.block (s := S1x15) S1x15.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S20x15.size a ≤ S20x15.size a
  hwx1_4 : ∀ i : grid1.Coords, EltTy.bits .f32 = 32 ∨ (Rect.block (s := S20x15) S20x15.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x15.size a ≤ S100000x15.size a
  hwx1_5 : ∀ i : grid1.Coords, EltTy.bits .f32 = 32 ∨ (Rect.block (s := S100000x15) S10000x15.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x15.size a ≤ S100000x15.size a
  hwx2_0 : ∀ i : grid2.Coords, EltTy.bits .f32 = 32 ∨ (Rect.block (s := S100000x15) S10000x15.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x15.size a ≤ S100000x15.size a
  hwx2_1 : ∀ i : grid2.Coords, EltTy.bits .f32 = 32 ∨ (Rect.block (s := S100000x15) S10000x15.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S15x10.size a ≤ S15x10.size a
  hwx2_2 : ∀ i : grid2.Coords, EltTy.bits .f32 = 32 ∨ (Rect.block (s := S15x10) S15x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S15x10.size a ≤ S15x10.size a
  hwx2_4 : ∀ i : grid2.Coords, EltTy.bits .f32 = 32 ∨ (Rect.block (s := S15x10) S15x10.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x10.size a ≤ S100000x10.size a
  hwx2_5 : ∀ i : grid2.Coords, EltTy.bits .f32 = 32 ∨ (Rect.block (s := S100000x10) S10000x10.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x10.size a ≤ S100000x10.size a
  hwx3_0 : ∀ i : grid3.Coords, EltTy.bits .f32 = 32 ∨ (Rect.block (s := S100000x10) S10000x10.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x10.size a ≤ S100000x10.size a
  hwx3_1 : ∀ i : grid3.Coords, EltTy.bits .f32 = 32 ∨ (Rect.block (s := S100000x10) S10000x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10x5.size a ≤ S10x5.size a
  hwx3_2 : ∀ i : grid3.Coords, EltTy.bits .f32 = 32 ∨ (Rect.block (s := S10x5) S10x5.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x5.size a ≤ S1x5.size a
  hwx3_3 : ∀ i : grid3.Coords, EltTy.bits .f32 = 32 ∨ (Rect.block (s := S1x5) S1x5.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S10x5.size a ≤ S10x5.size a
  hwx3_4 : ∀ i : grid3.Coords, EltTy.bits .f32 = 32 ∨ (Rect.block (s := S10x5) S10x5.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x5.size a ≤ S100000x5.size a
  hwx3_5 : ∀ i : grid3.Coords, EltTy.bits .f32 = 32 ∨ (Rect.block (s := S100000x5) S10000x5.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x5.size a ≤ S100000x5.size a
  hwx4_0 : ∀ i : grid4.Coords, EltTy.bits .f32 = 32 ∨ (Rect.block (s := S100000x5) S10000x5.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x5.size a ≤ S100000x5.size a
  hwx4_1 : ∀ i : grid4.Coords, EltTy.bits .f32 = 32 ∨ (Rect.block (s := S100000x5) S10000x5.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S5x2.size a ≤ S5x2.size a
  hwx4_2 : ∀ i : grid4.Coords, EltTy.bits .f32 = 32 ∨ (Rect.block (s := S5x2) S5x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x2.size a ≤ S1x2.size a
  hwx4_3 : ∀ i : grid4.Coords, EltTy.bits .f32 = 32 ∨ (Rect.block (s := S1x2) S1x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S5x2.size a ≤ S5x2.size a
  hwx4_4 : ∀ i : grid4.Coords, EltTy.bits .f32 = 32 ∨ (Rect.block (s := S5x2) S5x2.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x2.size a ≤ S100000x2.size a
  hwx4_5 : ∀ i : grid4.Coords, EltTy.bits .f32 = 32 ∨ (Rect.block (s := S100000x2) S10000x2.size (cc4_transform_5 i) (hinb4_5 i)).WholeWords (EltTy.packing .f32)

variable [Facts₀]

def gather_S100000x6_S3200000x1_S3200000x6_1_0_n_n_0_1_16 : GatherDims S100000x6 S3200000x1 S3200000x6 where
  offsetDims := [1]
  collapsedSliceDims := [0]
  operandBatchingDims := []
  startIndicesBatchingDims := []
  startIndexMap := [0]
  indexVectorDim := 1
  sliceSizes := ![1, 6]
  wf := gather_S100000x6_S3200000x1_S3200000x6_1_0_n_n_0_1_16_wf
def scatter_S100000x6_S3200000x1_S3200000x6_1_0_0_1 : ScatterDims S100000x6 S3200000x1 S3200000x6 where
  updateWindowDims := [1]
  insertedWindowDims := [0]
  scatterDimsToOperandDims := [0]
  indexVectorDim := 1
  wf := scatter_S100000x6_S3200000x1_S3200000x6_1_0_0_1_wf
def dot_S10000x6_S6x20_S10000x20_1_0_0_1_n_n : DotDims S10000x6 S6x20 S10000x20 where
  lhsContracting := [1]
  rhsContracting := [0]
  lhsNonContracting := [0]
  rhsNonContracting := [1]
  lhsBatch := []
  rhsBatch := []
  wf := dot_S10000x6_S6x20_S10000x20_1_0_0_1_n_n_wf
def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf
def dot_S10000x20_S20x15_S10000x15_1_0_0_1_n_n : DotDims S10000x20 S20x15 S10000x15 where
  lhsContracting := [1]
  rhsContracting := [0]
  lhsNonContracting := [0]
  rhsNonContracting := [1]
  lhsBatch := []
  rhsBatch := []
  wf := dot_S10000x20_S20x15_S10000x15_1_0_0_1_n_n_wf
def gather_S100000x15_S3200000x1_S3200000x15_1_0_n_n_0_1_115 : GatherDims S100000x15 S3200000x1 S3200000x15 where
  offsetDims := [1]
  collapsedSliceDims := [0]
  operandBatchingDims := []
  startIndicesBatchingDims := []
  startIndexMap := [0]
  indexVectorDim := 1
  sliceSizes := ![1, 15]
  wf := gather_S100000x15_S3200000x1_S3200000x15_1_0_n_n_0_1_115_wf
def scatter_S100000x15_S3200000x1_S3200000x15_1_0_0_1 : ScatterDims S100000x15 S3200000x1 S3200000x15 where
  updateWindowDims := [1]
  insertedWindowDims := [0]
  scatterDimsToOperandDims := [0]
  indexVectorDim := 1
  wf := scatter_S100000x15_S3200000x1_S3200000x15_1_0_0_1_wf
def dot_S10000x15_S15x10_S10000x10_1_0_0_1_n_n : DotDims S10000x15 S15x10 S10000x10 where
  lhsContracting := [1]
  rhsContracting := [0]
  lhsNonContracting := [0]
  rhsNonContracting := [1]
  lhsBatch := []
  rhsBatch := []
  wf := dot_S10000x15_S15x10_S10000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S10000x10_S10x5_S10000x5_1_0_0_1_n_n : DotDims S10000x10 S10x5 S10000x5 where
  lhsContracting := [1]
  rhsContracting := [0]
  lhsNonContracting := [0]
  rhsNonContracting := [1]
  lhsBatch := []
  rhsBatch := []
  wf := dot_S10000x10_S10x5_S10000x5_1_0_0_1_n_n_wf
def gather_S100000x5_S3200000x1_S3200000x5_1_0_n_n_0_1_15 : GatherDims S100000x5 S3200000x1 S3200000x5 where
  offsetDims := [1]
  collapsedSliceDims := [0]
  operandBatchingDims := []
  startIndicesBatchingDims := []
  startIndexMap := [0]
  indexVectorDim := 1
  sliceSizes := ![1, 5]
  wf := gather_S100000x5_S3200000x1_S3200000x5_1_0_n_n_0_1_15_wf
def scatter_S100000x5_S3200000x1_S3200000x5_1_0_0_1 : ScatterDims S100000x5 S3200000x1 S3200000x5 where
  updateWindowDims := [1]
  insertedWindowDims := [0]
  scatterDimsToOperandDims := [0]
  indexVectorDim := 1
  wf := scatter_S100000x5_S3200000x1_S3200000x5_1_0_0_1_wf
def dot_S10000x5_S5x2_S10000x2_1_0_0_1_n_n : DotDims S10000x5 S5x2 S10000x2 where
  lhsContracting := [1]
  rhsContracting := [0]
  lhsNonContracting := [0]
  rhsNonContracting := [1]
  lhsBatch := []
  rhsBatch := []
  wf := dot_S10000x5_S5x2_S10000x2_1_0_0_1_n_n_wf

abbrev win0_0 : Pipeline.Window sig grid0 :=
  Pipeline.Window.ofSpec (Memref.whole main_v16) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S6x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S6x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S10000x20.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S10000x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S10000x20.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S20x15.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x15.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S20x15.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S10000x15.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S10000x15.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S10000x15.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S15x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S15x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S10000x10.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v61) S10000x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S10000x10.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S10x5.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x5.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S10x5.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S10000x5.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v76) S10000x5.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S10000x5.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S5x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S1x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S5x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v78) S10000x2.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x6 : Shape := ⟨2, ![100000, 6]⟩
abbrev S2x3200000 : Shape := ⟨2, ![2, 3200000]⟩
abbrev S3200000 : Shape := ⟨1, ![3200000]⟩
abbrev S6x20 : Shape := ⟨2, ![6, 20]⟩
abbrev S20 : Shape := ⟨1, ![20]⟩
abbrev S20x15 : Shape := ⟨2, ![20, 15]⟩
abbrev S15 : Shape := ⟨1, ![15]⟩
abbrev S15x10 : Shape := ⟨2, ![15, 10]⟩
abbrev S10 : Shape := ⟨1, ![10]⟩
abbrev S10x5 : Shape := ⟨2, ![10, 5]⟩
abbrev S5 : Shape := ⟨1, ![5]⟩
abbrev S5x2 : Shape := ⟨2, ![5, 2]⟩
abbrev S2 : Shape := ⟨1, ![2]⟩
abbrev S1x3200000 : Shape := ⟨2, ![1, 3200000]⟩
abbrev S_ : Shape := ⟨0, ![]⟩
abbrev S3200000x1 : Shape := ⟨2, ![3200000, 1]⟩
abbrev S3200000x6 : Shape := ⟨2, ![3200000, 6]⟩
abbrev S100000x20 : Shape := ⟨2, ![100000, 20]⟩
abbrev S1x20 : Shape := ⟨2, ![1, 20]⟩
abbrev S3200000x20 : Shape := ⟨2, ![3200000, 20]⟩
abbrev S100000x15 : Shape := ⟨2, ![100000, 15]⟩
abbrev S1x15 : Shape := ⟨2, ![1, 15]⟩
abbrev S3200000x15 : Shape := ⟨2, ![3200000, 15]⟩
abbrev S100000x10 : Shape := ⟨2, ![100000, 10]⟩
abbrev S1x10 : Shape := ⟨2, ![1, 10]⟩
abbrev S3200000x10 : Shape := ⟨2, ![3200000, 10]⟩
abbrev S100000x5 : Shape := ⟨2, ![100000, 5]⟩
abbrev S1x5 : Shape := ⟨2, ![1, 5]⟩
abbrev S3200000x5 : Shape := ⟨2, ![3200000, 5]⟩
abbrev S100000x2 : Shape := ⟨2, ![100000, 2]⟩
abbrev S1x2 : Shape := ⟨2, ![1, 2]⟩
abbrev S100000 : Shape := ⟨1, ![100000]⟩
abbrev S100000x1 : Shape := ⟨2, ![100000, 1]⟩

abbrev nBuf : Space → Nat
  | .hbm => 161
  | .vmem => 0
  | .smem => 0
  | _ => 0

abbrev hbmTy0_0 (i : Nat) : BufTy := match i % 128 with
  | 0 => ⟨S100000x6, .f32⟩
  | 1 => ⟨S2x3200000, .i32⟩
  | 2 => ⟨S3200000, .f32⟩
  | 3 => ⟨S6x20, .f32⟩
  | 4 => ⟨S20, .f32⟩
  | 5 => ⟨S6x20, .f32⟩
  | 6 => ⟨S20x15, .f32⟩
  | 7 => ⟨S15, .f32⟩
  | 8 => ⟨S20x15, .f32⟩
  | 9 => ⟨S15x10, .f32⟩
  | 10 => ⟨S10, .f32⟩
  | 11 => ⟨S15x10, .f32⟩
  | 12 => ⟨S10x5, .f32⟩
  | 13 => ⟨S5, .f32⟩
  | 14 => ⟨S10x5, .f32⟩
  | 15 => ⟨S5x2, .f32⟩
  | 16 => ⟨S2, .f32⟩
  | 17 => ⟨S5x2, .f32⟩
  | 18 => ⟨S1x3200000, .i32⟩
  | 19 => ⟨S3200000, .i32⟩
  | 20 => ⟨S1x3200000, .i32⟩
  | 21 => ⟨S3200000, .i32⟩
  | 22 => ⟨S_, .i32⟩
  | 23 => ⟨S3200000, .i32⟩
  | 24 => ⟨S3200000, .i1⟩
  | 25 => ⟨S_, .i32⟩
  | 26 => ⟨S3200000, .i32⟩
  | 27 => ⟨S3200000, .i32⟩
  | 28 => ⟨S3200000, .i32⟩
  | 29 => ⟨S3200000x1, .i32⟩
  | 30 => ⟨S3200000x6, .f32⟩
  | 31 => ⟨S3200000x1, .f32⟩
  | 32 => ⟨S3200000x6, .f32⟩
  | 33 => ⟨S3200000x6, .f32⟩
  | 34 => ⟨S_, .f32⟩
  | 35 => ⟨S100000x6, .f32⟩
  | 36 => ⟨S3200000x1, .i32⟩
  | 37 => ⟨S100000x6, .f32⟩
  | 38 => ⟨S100000x20, .f32⟩
  | 39 => ⟨S1x20, .f32⟩
  | 40 => ⟨S100000x20, .f32⟩
  | 41 => ⟨S100000x20, .f32⟩
  | 42 => ⟨S100000x20, .f32⟩
  | 43 => ⟨S100000x20, .f32⟩
  | 44 => ⟨S_, .f32⟩
  | 45 => ⟨S100000x20, .f32⟩
  | 46 => ⟨S100000x20, .f32⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S3200000x20, .f32⟩
  | 56 => ⟨S3200000x1, .f32⟩
  | 57 => ⟨S3200000x20, .f32⟩
  | 58 => ⟨S3200000x20, .f32⟩
  | 59 => ⟨S_, .f32⟩
  | 60 => ⟨S100000x20, .f32⟩
  | 61 => ⟨S3200000x1, .i32⟩
  | 62 => ⟨S100000x20, .f32⟩
  | 63 => ⟨S100000x15, .f32⟩
  | 64 => ⟨S1x15, .f32⟩
  | 65 => ⟨S100000x15, .f32⟩
  | 66 => ⟨S100000x15, .f32⟩
  | 67 => ⟨S100000x15, .f32⟩
  | 68 => ⟨S100000x15, .f32⟩
  | 69 => ⟨S_, .f32⟩
  | 70 => ⟨S100000x15, .f32⟩
  | 71 => ⟨S100000x15, .f32⟩
  | 72 => ⟨S_, .i32⟩
  | 73 => ⟨S3200000, .i32⟩
  | 74 => ⟨S3200000, .i1⟩
  | 75 => ⟨S_, .i32⟩
  | 76 => ⟨S3200000, .i32⟩
  | 77 => ⟨S3200000, .i32⟩
  | 78 => ⟨S3200000, .i32⟩
  | 79 => ⟨S3200000x1, .i32⟩
  | 80 => ⟨S3200000x15, .f32⟩
  | 81 => ⟨S3200000x1, .f32⟩
  | 82 => ⟨S3200000x15, .f32⟩
  | 83 => ⟨S3200000x15, .f32⟩
  | 84 => ⟨S_, .f32⟩
  | 85 => ⟨S100000x15, .f32⟩
  | 86 => ⟨S3200000x1, .i32⟩
  | 87 => ⟨S100000x15, .f32⟩
  | 88 => ⟨S100000x10, .f32⟩
  | 89 => ⟨S1x10, .f32⟩
  | 90 => ⟨S100000x10, .f32⟩
  | 91 => ⟨S100000x10, .f32⟩
  | 92 => ⟨S100000x10, .f32⟩
  | 93 => ⟨S100000x10, .f32⟩
  | 94 => ⟨S_, .f32⟩
  | 95 => ⟨S100000x10, .f32⟩
  | 96 => ⟨S100000x10, .f32⟩
  | 97 => ⟨S_, .i32⟩
  | 98 => ⟨S3200000, .i32⟩
  | 99 => ⟨S3200000, .i1⟩
  | 100 => ⟨S_, .i32⟩
  | 101 => ⟨S3200000, .i32⟩
  | 102 => ⟨S3200000, .i32⟩
  | 103 => ⟨S3200000, .i32⟩
  | 104 => ⟨S3200000x1, .i32⟩
  | 105 => ⟨S3200000x10, .f32⟩
  | 106 => ⟨S3200000x1, .f32⟩
  | 107 => ⟨S3200000x10, .f32⟩
  | 108 => ⟨S3200000x10, .f32⟩
  | 109 => ⟨S_, .f32⟩
  | 110 => ⟨S100000x10, .f32⟩
  | 111 => ⟨S3200000x1, .i32⟩
  | 112 => ⟨S100000x10, .f32⟩
  | 113 => ⟨S100000x5, .f32⟩
  | 114 => ⟨S1x5, .f32⟩
  | 115 => ⟨S100000x5, .f32⟩
  | 116 => ⟨S100000x5, .f32⟩
  | 117 => ⟨S100000x5, .f32⟩
  | 118 => ⟨S100000x5, .f32⟩
  | 119 => ⟨S_, .f32⟩
  | 120 => ⟨S100000x5, .f32⟩
  | 121 => ⟨S100000x5, .f32⟩
  | 122 => ⟨S_, .i32⟩
  | 123 => ⟨S3200000, .i32⟩
  | 124 => ⟨S3200000, .i1⟩
  | 125 => ⟨S_, .i32⟩
  | 126 => ⟨S3200000, .i32⟩
  | 127 => ⟨S3200000, .i32⟩
  | _ => ⟨S100000x6, .f32⟩

abbrev hbmTy0_1 (i : Nat) : BufTy := match i % 128 with
  | 0 => ⟨S3200000, .i32⟩
  | 1 => ⟨S3200000x1, .i32⟩
  | 2 => ⟨S3200000x5, .f32⟩
  | 3 => ⟨S3200000x1, .f32⟩
  | 4 => ⟨S3200000x5, .f32⟩
  | 5 => ⟨S3200000x5, .f32⟩
  | 6 => ⟨S_, .f32⟩
  | 7 => ⟨S100000x5, .f32⟩
  | 8 => ⟨S3200000x1, .i32⟩
  | 9 => ⟨S100000x5, .f32⟩
  | 10 => ⟨S100000x2, .f32⟩
  | 11 => ⟨S1x2, .f32⟩
  | 12 => ⟨S100000x2, .f32⟩
  | 13 => ⟨S100000x2, .f32⟩
  | 14 => ⟨S100000x2, .f32⟩
  | 15 => ⟨S100000x2, .f32⟩
  | 16 => ⟨S_, .f32⟩
  | 17 => ⟨S100000x2, .f32⟩
  | 18 => ⟨S100000x2, .f32⟩
  | 19 => ⟨S_, .f32⟩
  | 20 => ⟨S100000, .f32⟩
  | 21 => ⟨S_, .f32⟩
  | 22 => ⟨S100000, .f32⟩
  | 23 => ⟨S100000, .f32⟩
  | 24 => ⟨S100000x1, .f32⟩
  | 25 => ⟨S100000x2, .f32⟩
  | 26 => ⟨S100000x2, .f32⟩
  | 27 => ⟨S100000x2, .f32⟩
  | 28 => ⟨S_, .f32⟩
  | 29 => ⟨S100000, .f32⟩
  | 30 => ⟨S100000x1, .f32⟩
  | 31 => ⟨S100000x2, .f32⟩
  | 32 => ⟨S100000x2, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call0_cst : Ref sig .tc := ⟨.hbm, 44, rfl⟩
abbrev main_call0_v0 : Ref sig .tc := ⟨.hbm, 45, rfl⟩
abbrev main_v23 : Ref sig .tc := ⟨.hbm, 46, rfl⟩
abbrev main_c_1 : Ref sig .tc := ⟨.hbm, 47, rfl⟩
abbrev main_v24 : Ref sig .tc := ⟨.hbm, 48, rfl⟩
abbrev main_v25 : Ref sig .tc := ⟨.hbm, 49, rfl⟩
abbrev main_c_2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call1_cst : Ref sig .tc := ⟨.hbm, 69, rfl⟩
abbrev main_call1_v0 : Ref sig .tc := ⟨.hbm, 70, rfl⟩
abbrev main_v43 : Ref sig .tc := ⟨.hbm, 71, rfl⟩
abbrev main_c_4 : Ref sig .tc := ⟨.hbm, 72, rfl⟩
abbrev main_v44 : Ref sig .tc := ⟨.hbm, 73, rfl⟩
abbrev main_v45 : Ref sig .tc := ⟨.hbm, 74, rfl⟩
abbrev main_c_5 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_6 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_call2_cst : Ref sig .tc := ⟨.hbm, 94, rfl⟩
abbrev main_call2_v0 : Ref sig .tc := ⟨.hbm, 95, rfl⟩
abbrev main_v63 : Ref sig .tc := ⟨.hbm, 96, rfl⟩
abbrev main_c_7 : Ref sig .tc := ⟨.hbm, 97, rfl⟩
abbrev main_v64 : Ref sig .tc := ⟨.hbm, 98, rfl⟩
abbrev main_v65 : Ref sig .tc := ⟨.hbm, 99, rfl⟩
abbrev main_c_8 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_9 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call3_cst : Ref sig .tc := ⟨.hbm, 119, rfl⟩
abbrev main_call3_v0 : Ref sig .tc := ⟨.hbm, 120, rfl⟩
abbrev main_v83 : Ref sig .tc := ⟨.hbm, 121, rfl⟩
abbrev main_c_10 : Ref sig .tc := ⟨.hbm, 122, rfl⟩
abbrev main_v84 : Ref sig .tc := ⟨.hbm, 123, rfl⟩
abbrev main_v85 : Ref sig .tc := ⟨.hbm, 124, rfl⟩
abbrev main_c_11 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_12 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_call4_cst : Ref sig .tc := ⟨.hbm, 144, rfl⟩
abbrev main_call4_v0 : Ref sig .tc := ⟨.hbm, 145, rfl⟩
abbrev main_v103 : Ref sig .tc := ⟨.hbm, 146, rfl⟩
abbrev main_cst_13 : Ref sig .tc := ⟨.hbm, 147, rfl⟩
abbrev main_v104 : Ref sig .tc := ⟨.hbm, 148, rfl⟩
abbrev main_cst_14 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_15 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x6_0_1 : S3200000x1.BroadcastsInDim S3200000x6 (![0, 1] : Fin 2 → Fin S3200000x6.rank)
  bcast_S_S100000x6 : S_.BroadcastsInDim S100000x6 (![] : Fin 0 → Fin S100000x6.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  bcast_S_S100000x20 : S_.BroadcastsInDim S100000x20 (![] : Fin 0 → Fin S100000x20.rank)
  bcast_S3200000x1_S3200000x20_0_1 : S3200000x1.BroadcastsInDim S3200000x20 (![0, 1] : Fin 2 → Fin S3200000x20.rank)
  bcast_S15_S1x15_1 : S15.BroadcastsInDim S1x15 (![1] : Fin 1 → Fin S1x15.rank)
  bcast_S1x15_S100000x15_0_1 : S1x15.BroadcastsInDim S100000x15 (![0, 1] : Fin 2 → Fin S100000x15.rank)
  bcast_S_S100000x15 : S_.BroadcastsInDim S100000x15 (![] : Fin 0 → Fin S100000x15.rank)
  bcast_S3200000x1_S3200000x15_0_1 : S3200000x1.BroadcastsInDim S3200000x15 (![0, 1] : Fin 2 → Fin S3200000x15.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S_S100000x10 : S_.BroadcastsInDim S100000x10 (![] : Fin 0 → Fin S100000x10.rank)
  bcast_S3200000x1_S3200000x10_0_1 : S3200000x1.BroadcastsInDim S3200000x10 (![0, 1] : Fin 2 → Fin S3200000x10.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  bcast_S_S100000x5 : S_.BroadcastsInDim S100000x5 (![] : Fin 0 → Fin S100000x5.rank)
  bcast_S3200000x1_S3200000x5_0_1 : S3200000x1.BroadcastsInDim S3200000x5 (![0, 1] : Fin 2 → Fin S3200000x5.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S100000x2 : S_.BroadcastsInDim S100000x2 (![] : Fin 0 → Fin S100000x2.rank)
  reducesTo_S100000x2_S100000_d1 : S100000x2.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  gather_S100000x6_S3200000x1_S3200000x6_1_0_n_n_0_1_16_wf : GatherDims.WF S100000x6 S3200000x1 S3200000x6 [1] [0] [] [0] [] 1 ![1, 6]
  scatter_S100000x6_S3200000x1_S3200000x6_1_0_0_1_wf : ScatterDims.WF S100000x6 S3200000x1 S3200000x6 [1] [0] [0] 1
  dot_S100000x6_S6x20_S100000x20_1_0_0_1_n_n_wf : DotDims.WF S100000x6 S6x20 S100000x20 [1] [0] [0] [1] [] []
  gather_S100000x20_S3200000x1_S3200000x20_1_0_n_n_0_1_120_wf : GatherDims.WF S100000x20 S3200000x1 S3200000x20 [1] [0] [] [0] [] 1 ![1, 20]
  scatter_S100000x20_S3200000x1_S3200000x20_1_0_0_1_wf : ScatterDims.WF S100000x20 S3200000x1 S3200000x20 [1] [0] [0] 1
  dot_S100000x20_S20x15_S100000x15_1_0_0_1_n_n_wf : DotDims.WF S100000x20 S20x15 S100000x15 [1] [0] [0] [1] [] []
  gather_S100000x15_S3200000x1_S3200000x15_1_0_n_n_0_1_115_wf : GatherDims.WF S100000x15 S3200000x1 S3200000x15 [1] [0] [] [0] [] 1 ![1, 15]
  scatter_S100000x15_S3200000x1_S3200000x15_1_0_0_1_wf : ScatterDims.WF S100000x15 S3200000x1 S3200000x15 [1] [0] [0] 1
  dot_S100000x15_S15x10_S100000x10_1_0_0_1_n_n_wf : DotDims.WF S100000x15 S15x10 S100000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  dot_S100000x10_S10x5_S100000x5_1_0_0_1_n_n_wf : DotDims.WF S100000x10 S10x5 S100000x5 [1] [0] [0] [1] [] []
  gather_S100000x5_S3200000x1_S3200000x5_1_0_n_n_0_1_15_wf : GatherDims.WF S100000x5 S3200000x1 S3200000x5 [1] [0] [] [0] [] 1 ![1, 5]
  scatter_S100000x5_S3200000x1_S3200000x5_1_0_0_1_wf : ScatterDims.WF S100000x5 S3200000x1 S3200000x5 [1] [0] [0] 1
  dot_S100000x5_S5x2_S100000x2_1_0_0_1_n_n_wf : DotDims.WF S100000x5 S5x2 S100000x2 [1] [0] [0] [1] [] []

variable [Facts₀]

def gather_S100000x6_S3200000x1_S3200000x6_1_0_n_n_0_1_16 : GatherDims S100000x6 S3200000x1 S3200000x6 where
  offsetDims := [1]
  collapsedSliceDims := [0]
  operandBatchingDims := []
  startIndicesBatchingDims := []
  startIndexMap := [0]
  indexVectorDim := 1
  sliceSizes := ![1, 6]
  wf := gather_S100000x6_S3200000x1_S3200000x6_1_0_n_n_0_1_16_wf
def scatter_S100000x6_S3200000x1_S3200000x6_1_0_0_1 : ScatterDims S100000x6 S3200000x1 S3200000x6 where
  updateWindowDims := [1]
  insertedWindowDims := [0]
  scatterDimsToOperandDims := [0]
  indexVectorDim := 1
  wf := scatter_S100000x6_S3200000x1_S3200000x6_1_0_0_1_wf
def dot_S100000x6_S6x20_S100000x20_1_0_0_1_n_n : DotDims S100000x6 S6x20 S100000x20 where
  lhsContracting := [1]
  rhsContracting := [0]
  lhsNonContracting := [0]
  rhsNonContracting := [1]
  lhsBatch := []
  rhsBatch := []
  wf := dot_S100000x6_S6x20_S100000x20_1_0_0_1_n_n_wf
def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf
def dot_S100000x20_S20x15_S100000x15_1_0_0_1_n_n : DotDims S100000x20 S20x15 S100000x15 where
  lhsContracting := [1]
  rhsContracting := [0]
  lhsNonContracting := [0]
  rhsNonContracting := [1]
  lhsBatch := []
  rhsBatch := []
  wf := dot_S100000x20_S20x15_S100000x15_1_0_0_1_n_n_wf
def gather_S100000x15_S3200000x1_S3200000x15_1_0_n_n_0_1_115 : GatherDims S100000x15 S3200000x1 S3200000x15 where
  offsetDims := [1]
  collapsedSliceDims := [0]
  operandBatchingDims := []
  startIndicesBatchingDims := []
  startIndexMap := [0]
  indexVectorDim := 1
  sliceSizes := ![1, 15]
  wf := gather_S100000x15_S3200000x1_S3200000x15_1_0_n_n_0_1_115_wf
def scatter_S100000x15_S3200000x1_S3200000x15_1_0_0_1 : ScatterDims S100000x15 S3200000x1 S3200000x15 where
  updateWindowDims := [1]
  insertedWindowDims := [0]
  scatterDimsToOperandDims := [0]
  indexVectorDim := 1
  wf := scatter_S100000x15_S3200000x1_S3200000x15_1_0_0_1_wf
def dot_S100000x15_S15x10_S100000x10_1_0_0_1_n_n : DotDims S100000x15 S15x10 S100000x10 where
  lhsContracting := [1]
  rhsContracting := [0]
  lhsNonContracting := [0]
  rhsNonContracting := [1]
  lhsBatch := []
  rhsBatch := []
  wf := dot_S100000x15_S15x10_S100000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S100000x10_S10x5_S100000x5_1_0_0_1_n_n : DotDims S100000x10 S10x5 S100000x5 where
  lhsContracting := [1]
  rhsContracting := [0]
  lhsNonContracting := [0]
  rhsNonContracting := [1]
  lhsBatch := []
  rhsBatch := []
  wf := dot_S100000x10_S10x5_S100000x5_1_0_0_1_n_n_wf
def gather_S100000x5_S3200000x1_S3200000x5_1_0_n_n_0_1_15 : GatherDims S100000x5 S3200000x1 S3200000x5 where
  offsetDims := [1]
  collapsedSliceDims := [0]
  operandBatchingDims := []
  startIndicesBatchingDims := []
  startIndexMap := [0]
  indexVectorDim := 1
  sliceSizes := ![1, 5]
  wf := gather_S100000x5_S3200000x1_S3200000x5_1_0_n_n_0_1_15_wf
def scatter_S100000x5_S3200000x1_S3200000x5_1_0_0_1 : ScatterDims S100000x5 S3200000x1 S3200000x5 where
  updateWindowDims := [1]
  insertedWindowDims := [0]
  scatterDimsToOperandDims := [0]
  indexVectorDim := 1
  wf := scatter_S100000x5_S3200000x1_S3200000x5_1_0_0_1_wf
def dot_S100000x5_S5x2_S100000x2_1_0_0_1_n_n : DotDims S100000x5 S5x2 S100000x2 where
  lhsContracting := [1]
  rhsContracting := [0]
  lhsNonContracting := [0]
  rhsNonContracting := [1]
  lhsBatch := []
  rhsBatch := []
  wf := dot_S100000x5_S5x2_S100000x2_1_0_0_1_n_n_wf

class Facts : Prop extends Facts₀ where

variable [Facts]
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.LibPlainDotGeneral.lean ====
/-
  A plain two-dimensional matrix product computed on the host, read at a row and a column.

  For dimension numbers that contract the left operand's columns with the right operand's rows, with no batch axis,
  entry `(r, c)` of the `dot_general` of an `[M, K]` matrix and a `[K, N]` matrix is, on the extended reals, the sum
  over `k` of `lhs (r, k) * rhs (k, c)`, whatever the precision and schedule keys: the contraction index, a rank-one
  index, is re-indexed by its one coordinate. Stated for any extents and float formats, with the dimension numbers
  given by their six lists, so that any printed record with these lists unifies. The counterpart, for the host's
  product, of the same reading of a kernel's matrix unit into a zero accumulator.
-/
import Idealize.ShloMosaic.PureOps.Ideal.Laws
import Idealize.ShloMosaic.Lib.ValueIdx

namespace Cert.Lib.PlainDotGeneral

open Idealize.ShloMosaic Idealize.ShloMosaic.ValueIdx

set_option backward.isDefEq.respectTransparency.types false in
/-- The host product of `[M, K]` by `[K, N]`, at `(r, c)`: `∑ k, lhs (r, k) * rhs (k, c)`. -/
theorem dotGeneral_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂)
    (r : Fin M) (c : Fin N) :
    FloatOps.dotGeneral d prec sched lhs rhs (ix2 r c) = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.dotGeneral_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainDotGeneral
-- ==== Proof.LibHostRows.lean ====
/-
  The host's two bias-row broadcasts read at coordinates, for any element type and any extents.

  A host program adds a bias vector to every row of a matrix in two steps: the vector `[b]` is laid along a new
  leading unit axis (`broadcast_in_dim`, dims = [1], into `[1, b]`), and that unit row is repeated down the rows
  (`broadcast_in_dim`, dims = [0, 1], into `[a, b]`).  Read at `(u, c)` the first is the vector at `c`; read at
  `(p, c)` the second is the unit row at `(0, c)`.  (The column counterparts, dims = [0] and a column repeated along
  the row, are the host keepdims forms.)
-/
import Idealize.ShloMosaic.Lib.ValueIdx
import Idealize.ShloMosaic.Lib.Pipeline.Value
import Idealize.ShloMosaic.Lib.ValueLayout

noncomputable section

namespace Cert.Lib.HostRows

open Idealize.ShloMosaic Idealize.ShloMosaic.ValueIdx

/-- A vector laid along a unit row reads, at `(u, c)`, the vector at `c`. -/
theorem bcast_b_1b_apply {α : Type} {b : ℕ} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) :=
  broadcastInDim_apply ![1] h x (ix2 u c) (ix1 c) (fun k => by
    match k with
    | ⟨0, _⟩ =>
      show c.val = if b = 1 then 0 else c.val
      split_ifs with h1
      · have := c.isLt; omega
      · rfl)

/-- A unit row repeated down the rows reads, at `(p, c)`, the row at `c`. -/
theorem bcast_1b_ab_apply {α : Type} {a b : ℕ} (h : (⟨2, ![1, b]⟩ : Shape).BroadcastsInDim ⟨2, ![a, b]⟩ ![0, 1])
    (x : (⟨2, ![1, b]⟩ : Shape).Idx → α) (p : Fin a) (c : Fin b) :
    broadcastInDim ⟨2, ![a, b]⟩ ![0, 1] h x (ix2 p c) = x (ix2 (0 : Fin 1) c) :=
  broadcastInDim_apply ![0, 1] h x (ix2 p c) (ix2 (0 : Fin 1) c) (fun k => by
    match k with
    | ⟨0, _⟩ =>
      show (0 : ℕ) = if (1 : ℕ) = 1 then 0 else p.val
      rfl
    | ⟨1, _⟩ =>
      show c.val = if b = 1 then 0 else c.val
      split_ifs with h1
      · have := c.isLt; omega
      · rfl)

end Cert.Lib.HostRows

end
-- ==== Proof.DenseLayer.lean ====
/-
  One GraphConv dense stage at one entry, on the extended reals, for any extents.

  A layer takes the aggregated messages `a` and the node features `x` (both `[M, K]`), two weight matrices
  `wr`, `wo` (both `[K, N]`) and a bias row `b`, and produces, at row `r` and column `c`,
      max (∑ₖ a(r,k)·wr(k,c) + ∑ₖ x(r,k)·wo(k,c) + b(c), 0).
  The kernel groups the three summands as (a·wr + x·wo) + b, the reference as (a·wr + b) + x·wo: addition of extended
  reals is commutative and associative, so the two agree with no finiteness assumption (`entry_regroup`).
  A change of float format is the identity on extended reals, and a product into a zero accumulator is the plain sum.
-/
import Idealize.ShloMosaic.PureOps.Ideal.Laws
import Idealize.ShloMosaic.Lib.ValueIdx
import Idealize.ShloMosaic.Lib.ValueLayout
import Idealize.ShloMosaic.Lib.Pipeline.Value
import proofs.«110816_j592705487394_1_alg».proof.Proof.LibPlainMatmul
import proofs.«110816_j592705487394_1_alg».proof.Proof.LibPlainDotGeneral
import proofs.«110816_j592705487394_1_alg».proof.Proof.LibHostRows

noncomputable section

namespace Cert.GraphConv

open Idealize.ShloMosaic Idealize.ShloMosaic.ValueIdx

variable {M K N : ℕ}

/-- One entry of a layer, in the kernel's grouping: `max ((a·wr + x·wo) + b, 0)` at row `r`, column `c`. The zero is kept
    as the float word both programs print. -/
def entry (a x : FVec Ideal ⟨2, ![M, K]⟩ .f32) (wr wo : FVec Ideal ⟨2, ![K, N]⟩ .f32) (b : Fin N → EReal)
    (r : Fin M) (c : Fin N) : EReal :=
  max (((∑ k : Fin K, a (ix2 r k) * wr (ix2 k c)) + ∑ k : Fin K, x (ix2 r k) * wo (ix2 k c)) + b c)
    (Ideal.ofBits .f32 0x00000000#32)

/-- The same entry with the bias added before the root term, as the reference groups it. -/
theorem entry_regroup (a x : FVec Ideal ⟨2, ![M, K]⟩ .f32) (wr wo : FVec Ideal ⟨2, ![K, N]⟩ .f32) (b : Fin N → EReal)
    (r : Fin M) (c : Fin N) :
    max (((∑ k : Fin K, a (ix2 r k) * wr (ix2 k c)) + b c) + ∑ k : Fin K, x (ix2 r k) * wo (ix2 k c))
      (Ideal.ofBits .f32 0x00000000#32) = entry a x wr wo b r c := by
  unfold entry
  rw [add_right_comm]

/-- A whole layer: the array of its entries. -/
def layer (a x : FVec Ideal ⟨2, ![M, K]⟩ .f32) (wr wo : FVec Ideal ⟨2, ![K, N]⟩ .f32) (b : Fin N → EReal) :
    (⟨2, ![M, N]⟩ : Shape).Idx → EReal :=
  fun i => entry a x wr wo b (i 0) (i 1)

theorem layer_apply (a x : FVec Ideal ⟨2, ![M, K]⟩ .f32) (wr wo : FVec Ideal ⟨2, ![K, N]⟩ .f32) (b : Fin N → EReal)
    (r : Fin M) (c : Fin N) : layer a x wr wo b (ix2 r c) = entry a x wr wo b r c := rfl

/-- An entry depends on row `r` of `a` and `x`, column `c` of the weights and entry `c` of the bias only: two sets of
    operands that agree there give the same entry, whatever their other rows (and their row counts). -/
theorem entry_congr {M' : ℕ} (a x : FVec Ideal ⟨2, ![M, K]⟩ .f32) (a' x' : FVec Ideal ⟨2, ![M', K]⟩ .f32)
    (wr wo wr' wo' : FVec Ideal ⟨2, ![K, N]⟩ .f32) (b b' : Fin N → EReal) (r : Fin M) (r' : Fin M') (c c' : Fin N)
    (ha : ∀ k, a (ix2 r k) = a' (ix2 r' k)) (hx : ∀ k, x (ix2 r k) = x' (ix2 r' k))
    (hwr : ∀ k, wr (ix2 k c) = wr' (ix2 k c')) (hwo : ∀ k, wo (ix2 k c) = wo' (ix2 k c')) (hb : b c = b' c') :
    entry a x wr wo b r c = entry a' x' wr' wo' b' r' c' := by
  unfold entry
  simp only [ha, hx, hwr, hwo, hb]

/-- The kernel's arithmetic at an entry: both operands of each product narrowed to bf16 (the identity here), the two
    products into zero accumulators added, the bias row repeated down the rows added, and the maximum with the zero
    splat taken. -/
theorem kernel_entry (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (hbc : (⟨2, ![1, N]⟩ : Shape).Broadcasts ⟨2, ![M, N]⟩) (hbits : FTy.bf16.bits < FTy.f32.bits)
    (a x : FVec Ideal ⟨2, ![M, K]⟩ .f32) (wr wo : FVec Ideal ⟨2, ![K, N]⟩ .f32) (b2 : FVec Ideal ⟨2, ![1, N]⟩ .f32)
    (r : Fin M) (c : Fin N) :
    maximumf (addf (addf
        (matmul d none (truncf .bf16 a hbits) (truncf .bf16 wr hbits) (constant ⟨2, ![M, N]⟩ .f32 0x00000000#32))
        (matmul d none (truncf .bf16 x hbits) (truncf .bf16 wo hbits) (constant ⟨2, ![M, N]⟩ .f32 0x00000000#32)))
        (broadcastTo ⟨2, ![M, N]⟩ b2 hbc))
      (broadcast ⟨2, ![M, N]⟩ (Scalar.ofBits (F := Ideal) .f32 0x00000000#32)) (ix2 r c)
      = entry a x wr wo (fun c => b2 (ix2 (0 : Fin 1) c)) r c := by
  rw [maximumf_apply, addf_apply, addf_apply, broadcast_apply, broadcastTo_1b_ab_apply b2 hbc r c]
  unfold entry
  refine congrArg₂ max (congrArg₂ (· + ·) (congrArg₂ (· + ·) ?_ ?_) rfl) rfl
  · exact Cert.Lib.PlainMatmul.matmul_zero_apply d hlc hrc hln hrn hlb hrb none _ _ r c
  · exact Cert.Lib.PlainMatmul.matmul_zero_apply d hlc hrc hln hrn hlb hrb none _ _ r c

/-- The reference's arithmetic at an entry: the two host products, the bias vector laid along a unit row and repeated
    down the rows, added in the reference's order, and the maximum with the broadcast zero. -/
theorem host_entry (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (hb1 : (⟨1, ![N]⟩ : Shape).BroadcastsInDim ⟨2, ![1, N]⟩ ![1])
    (hb2 : (⟨2, ![1, N]⟩ : Shape).BroadcastsInDim ⟨2, ![M, N]⟩ ![0, 1])
    (hz : (⟨0, ![]⟩ : Shape).BroadcastsInDim ⟨2, ![M, N]⟩ ![])
    (a x : FVec Ideal ⟨2, ![M, K]⟩ .f32) (wr wo : FVec Ideal ⟨2, ![K, N]⟩ .f32) (b : FVec Ideal ⟨1, ![N]⟩ .f32)
    (r : Fin M) (c : Fin N) :
    maximumf (addf (addf (Host.dotGeneral d none a wr)
        (broadcastInDim ⟨2, ![M, N]⟩ ![0, 1] hb2 (broadcastInDim ⟨2, ![1, N]⟩ ![1] hb1 b)))
        (Host.dotGeneral d none x wo))
      (broadcastInDim ⟨2, ![M, N]⟩ ![] hz (constant (F := Ideal) ⟨0, ![]⟩ .f32 0x00000000#32)) (ix2 r c)
      = entry a x wr wo (fun c => b (ix1 c)) r c := by
  rw [maximumf_apply, addf_apply, addf_apply, Cert.Lib.HostRows.bcast_1b_ab_apply hb2 _ r c,
    Cert.Lib.HostRows.bcast_b_1b_apply hb1 b (0 : Fin 1) c]
  rw [← entry_regroup]
  refine congrArg₂ max (congrArg₂ (· + ·) (congrArg₂ (· + ·) ?_ rfl) ?_) rfl
  · exact Cert.Lib.PlainDotGeneral.dotGeneral_apply d hlc hrc hln hrn hlb hrb none _ _ _ r c
  · exact Cert.Lib.PlainDotGeneral.dotGeneral_apply d hlc hrc hln hrn hlb hrb none _ _ _ r c

end Cert.GraphConv

end
-- ==== Proof.Region0.lean ====
/-
  Region 0 of the kernel program: one GraphConv dense stage over [100000, 6] inputs, tiled in ten blocks of 10000 rows.
  For ANY contents `V` of the buffers when the region is entered, the output array after the region is the whole-array
  layer `GraphConv.layer` of the aggregated messages, the node features, the two weight matrices and the bias row as `V`
  holds them: each grid point writes back the block of that one function (a row of the output depends on the same row of
  the two row-blocked inputs and on the whole of the small operands), and the ten blocks cover the array.
-/
import proofs.«110816_j592705487394_1_alg».proof.Proof.Gen.KernelIdeal.Frame
import proofs.«110816_j592705487394_1_alg».proof.Proof.DenseLayer
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an entry of its block. -/
theorem pay_apply (v0 v3 : Vec Ideal S10000x6 .f32) (v5 v7 : Vec Ideal S6x20 .f32) (v12 : Vec Ideal S1x20 .f32)
    (r : Fin 10000) (q : Fin 20) :
    k0_pay1 v0 v3 v5 v7 v12 (ix2 r q) = GraphConv.entry v0 v3 v5 v7 (fun j => v12 (ix2 (0 : Fin 1) j)) r q := by
  unfold k0_pay1
  simp only [shapeCast_self]
  exact GraphConv.kernel_entry dot_S10000x6_S6x20_S10000x20_1_0_0_1_n_n rfl rfl rfl rfl rfl rfl _ _ v0 v3 v5 v7 v12 r q

/-- The index maps over the ten grid points: the two row-blocked inputs move with the output's row block, the weights
    and the bias stay at block 0, and every window's column block is 0. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every row block of the output is some grid point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- Row `r` of the aggregated block at point `t` is row `10000·t + r` of the aggregated array (the row the output's
    block puts `r` at). -/
theorem read_agg (c : Dev nD) (t : Fin cfg0.N) (r : Fin 10000) (q : Fin 20) (kk : Fin 6) :
    iblk0 V c 0 t (ix2 r kk) = V c main_v16 (ix2 ((((cfg0.win 5).blk t).view.emb (ix2 r q)) 0) kk) := by
  obtain ⟨e0, e1, e2, e3, e4, e5, e6, e7, e8, e9, e10, e11⟩ := idx_facts t
  show V c main_v16 (((cfg0.win 0).blk t).view.emb (ix2 r kk)) = _
  refine congrArg (V c main_v16) (funext fun a => Fin.ext ?_)
  match a with
  | ⟨0, _⟩ => show win0_0.index t (0 : Fin 2) * 10000 + 1 * r.val = win0_5.index t (0 : Fin 2) * 10000 + 1 * r.val; omega
  | ⟨1, _⟩ => show win0_0.index t (1 : Fin 2) * 6 + 1 * kk.val = kk.val; omega

/-- The same for the node-feature block. -/
theorem read_x (c : Dev nD) (t : Fin cfg0.N) (r : Fin 10000) (q : Fin 20) (kk : Fin 6) :
    iblk0 V c 1 t (ix2 r kk) = V c main_arg0 (ix2 ((((cfg0.win 5).blk t).view.emb (ix2 r q)) 0) kk) := by
  obtain ⟨e0, e1, e2, e3, e4, e5, e6, e7, e8, e9, e10, e11⟩ := idx_facts t
  show V c main_arg0 (((cfg0.win 1).blk t).view.emb (ix2 r kk)) = _
  refine congrArg (V c main_arg0) (funext fun a => Fin.ext ?_)
  match a with
  | ⟨0, _⟩ => show win0_1.index t (0 : Fin 2) * 10000 + 1 * r.val = win0_5.index t (0 : Fin 2) * 10000 + 1 * r.val; omega
  | ⟨1, _⟩ => show win0_1.index t (1 : Fin 2) * 6 + 1 * kk.val = kk.val; omega

/-- The relation weights' block is the whole matrix; its column `q` is the output's column. -/
theorem read_wr (c : Dev nD) (t : Fin cfg0.N) (r : Fin 10000) (q : Fin 20) (kk : Fin 6) :
    iblk0 V c 2 t (ix2 kk q) = V c main_arg3 (ix2 kk ((((cfg0.win 5).blk t).view.emb (ix2 r q)) 1)) := by
  obtain ⟨e0, e1, e2, e3, e4, e5, e6, e7, e8, e9, e10, e11⟩ := idx_facts t
  show V c main_arg3 (((cfg0.win 2).blk t).view.emb (ix2 kk q)) = _
  refine congrArg (V c main_arg3) (funext fun a => Fin.ext ?_)
  match a with
  | ⟨0, _⟩ => show win0_2.index t (0 : Fin 2) * 6 + 1 * kk.val = kk.val; omega
  | ⟨1, _⟩ => show win0_2.index t (1 : Fin 2) * 20 + 1 * q.val = win0_5.index t (1 : Fin 2) * 20 + 1 * q.val; omega

/-- The same for the root weights. -/
theorem read_wo (c : Dev nD) (t : Fin cfg0.N) (r : Fin 10000) (q : Fin 20) (kk : Fin 6) :
    iblk0 V c 4 t (ix2 kk q) = V c main_arg5 (ix2 kk ((((cfg0.win 5).blk t).view.emb (ix2 r q)) 1)) := by
  obtain ⟨e0, e1, e2, e3, e4, e5, e6, e7, e8, e9, e10, e11⟩ := idx_facts t
  show V c main_arg5 (((cfg0.win 4).blk t).view.emb (ix2 kk q)) = _
  refine congrArg (V c main_arg5) (funext fun a => Fin.ext ?_)
  match a with
  | ⟨0, _⟩ => show win0_4.index t (0 : Fin 2) * 6 + 1 * kk.val = kk.val; omega
  | ⟨1, _⟩ => show win0_4.index t (1 : Fin 2) * 20 + 1 * q.val = win0_5.index t (1 : Fin 2) * 20 + 1 * q.val; omega

/-- The bias block is the whole unit row. -/
theorem read_b (c : Dev nD) (t : Fin cfg0.N) (r : Fin 10000) (q : Fin 20) :
    iblk0 V c 3 t (ix2 (0 : Fin 1) q) = V c main_v17 (ix2 (0 : Fin 1) ((((cfg0.win 5).blk t).view.emb (ix2 r q)) 1)) := by
  obtain ⟨e0, e1, e2, e3, e4, e5, e6, e7, e8, e9, e10, e11⟩ := idx_facts t
  show V c main_v17 (((cfg0.win 3).blk t).view.emb (ix2 (0 : Fin 1) q)) = _
  refine congrArg (V c main_v17) (funext fun a => Fin.ext ?_)
  match a with
  | ⟨0, _⟩ => show win0_3.index t (0 : Fin 2) * 1 + 1 * 0 = 0; omega
  | ⟨1, _⟩ => show win0_3.index t (1 : Fin 2) * 20 + 1 * q.val = win0_5.index t (1 : Fin 2) * 20 + 1 * q.val; omega

/-- The layer as a function of the region's entry contents. -/
abbrev G (c : Dev nD) : S100000x20.Idx → EReal :=
  GraphConv.layer (M := 100000) (K := 6) (N := 20) (V c main_v16) (V c main_arg0) (V c main_arg3) (V c main_arg5) (fun j => V c main_v17 (ix2 (0 : Fin 1) j))

/-- What point `t` writes back is block `t` of the layer. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S10000x6) hz, View.ld_unit_zero (S := S6x20) hz, View.ld_unit_zero (S := S1x20) hz]
  funext j
  obtain ⟨r, q, rfl⟩ : ∃ (r : Fin 10000) (q : Fin 20), j = ix2 r q := ⟨j 0, j 1, eq_ix2 j⟩
  refine (pay_apply (iblk0 V c 0 t) (iblk0 V c 1 t) (iblk0 V c 2 t) (iblk0 V c 4 t) (iblk0 V c 3 t) r q).trans ?_
  show _ = GraphConv.entry (M := 100000) (K := 6) (N := 20) (V c main_v16) (V c main_arg0) (V c main_arg3) (V c main_arg5)
    (fun j => V c main_v17 (ix2 (0 : Fin 1) j)) ((((cfg0.win 5).blk t).view.emb (ix2 r q)) 0) ((((cfg0.win 5).blk t).view.emb (ix2 r q)) 1)
  exact GraphConv.entry_congr (M := 10000) (K := 6) (N := 20) (M' := 100000)
    (iblk0 V c 0 t) (iblk0 V c 1 t) (V c main_v16) (V c main_arg0) (iblk0 V c 2 t) (iblk0 V c 4 t) (V c main_arg3) (V c main_arg5)
    (fun j => iblk0 V c 3 t (ix2 (0 : Fin 1) j)) (fun j => V c main_v17 (ix2 (0 : Fin 1) j)) r ((((cfg0.win 5).blk t).view.emb (ix2 r q)) 0) q ((((cfg0.win 5).blk t).view.emb (ix2 r q)) 1)
    (fun kk => read_agg V c t r q kk) (fun kk => read_x V c t r q kk)
    (fun kk => read_wr V c t r q kk) (fun kk => read_wo V c t r q kk) (read_b V c t r q)

/-- An index of the output array is in point `t`'s block iff each coordinate is in the block's range on its axis. -/
theorem mem_blk (t : Fin cfg0.N) (i : S100000x20.Idx) :
    i ∈ ((cfg0.win 5).blk t).view.set ↔ ∀ a : Fin 2, win0_5.index t a * S10000x20.size a ≤ (i a).val ∧ (i a).val < win0_5.index t a * S10000x20.size a + S10000x20.size a := by
  show i ∈ ((View.whole main_v18).slice (win0_5.rect t)).set ↔ _
  rw [View.set_slice_whole, Rect.mem_set_unit]
  exact Iff.rfl

/-- The ten row blocks cover the output array: row `i` lies in block `i / 10000`. -/
theorem cover (i : S100000x20.Idx) :
    ∃ t : Fin cfg0.N, (cfg0.win 5).flush t = true ∧ i ∈ ((cfg0.win 5).blk t).view.set := by
  have hi0 : (i 0).val < 100000 := (i 0).isLt
  have hi1 : (i 1).val < 20 := (i 1).isLt
  obtain ⟨t, ht⟩ := idx_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 20 ≤ (i 1).val ∧ (i 1).val < win0_5.index t (1 : Fin 2) * 20 + 20; omega

/-- The output array after the region is the layer of the region's entry contents. -/
theorem final (c : Dev nD) : (dat0 V c).arrAt 5 cfg0.N = G V c :=
  (dat0 V c).arrAt_eq_of_cover 5 (G V c) (fun t _ => flushed_eq V c t) cover

end Cert.KernelIdeal.Region0

end
-- ==== Proof.Region1.lean ====
/-
  Region 1 of the kernel program: one GraphConv dense stage over [100000, 20] inputs, tiled in ten blocks of 10000 rows.
  For ANY contents `V` of the buffers when the region is entered, the output array after the region is the whole-array
  layer `GraphConv.layer` of the aggregated messages, the node features, the two weight matrices and the bias row as `V`
  holds them: each grid point writes back the block of that one function (a row of the output depends on the same row of
  the two row-blocked inputs and on the whole of the small operands), and the ten blocks cover the array.
-/
import proofs.«110816_j592705487394_1_alg».proof.Proof.Gen.KernelIdeal.Frame
import proofs.«110816_j592705487394_1_alg».proof.Proof.DenseLayer
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an entry of its block. -/
theorem pay_apply (v0 v3 : Vec Ideal S10000x20 .f32) (v5 v7 : Vec Ideal S20x15 .f32) (v12 : Vec Ideal S1x15 .f32)
    (r : Fin 10000) (q : Fin 15) :
    k1_pay1 v0 v3 v5 v7 v12 (ix2 r q) = GraphConv.entry v0 v3 v5 v7 (fun j => v12 (ix2 (0 : Fin 1) j)) r q := by
  unfold k1_pay1
  simp only [shapeCast_self]
  exact GraphConv.kernel_entry dot_S10000x20_S20x15_S10000x15_1_0_0_1_n_n rfl rfl rfl rfl rfl rfl _ _ v0 v3 v5 v7 v12 r q

/-- The index maps over the ten grid points: the two row-blocked inputs move with the output's row block, the weights
    and the bias stay at block 0, and every window's column block is 0. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every row block of the output is some grid point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- Row `r` of the aggregated block at point `t` is row `10000·t + r` of the aggregated array (the row the output's
    block puts `r` at). -/
theorem read_agg (c : Dev nD) (t : Fin cfg1.N) (r : Fin 10000) (q : Fin 15) (kk : Fin 20) :
    iblk1 V c 0 t (ix2 r kk) = V c main_v31 (ix2 ((((cfg1.win 5).blk t).view.emb (ix2 r q)) 0) kk) := by
  obtain ⟨e0, e1, e2, e3, e4, e5, e6, e7, e8, e9, e10, e11⟩ := idx_facts t
  show V c main_v31 (((cfg1.win 0).blk t).view.emb (ix2 r kk)) = _
  refine congrArg (V c main_v31) (funext fun a => Fin.ext ?_)
  match a with
  | ⟨0, _⟩ => show win1_0.index t (0 : Fin 2) * 10000 + 1 * r.val = win1_5.index t (0 : Fin 2) * 10000 + 1 * r.val; omega
  | ⟨1, _⟩ => show win1_0.index t (1 : Fin 2) * 20 + 1 * kk.val = kk.val; omega

/-- The same for the node-feature block. -/
theorem read_x (c : Dev nD) (t : Fin cfg1.N) (r : Fin 10000) (q : Fin 15) (kk : Fin 20) :
    iblk1 V c 1 t (ix2 r kk) = V c main_v18 (ix2 ((((cfg1.win 5).blk t).view.emb (ix2 r q)) 0) kk) := by
  obtain ⟨e0, e1, e2, e3, e4, e5, e6, e7, e8, e9, e10, e11⟩ := idx_facts t
  show V c main_v18 (((cfg1.win 1).blk t).view.emb (ix2 r kk)) = _
  refine congrArg (V c main_v18) (funext fun a => Fin.ext ?_)
  match a with
  | ⟨0, _⟩ => show win1_1.index t (0 : Fin 2) * 10000 + 1 * r.val = win1_5.index t (0 : Fin 2) * 10000 + 1 * r.val; omega
  | ⟨1, _⟩ => show win1_1.index t (1 : Fin 2) * 20 + 1 * kk.val = kk.val; omega

/-- The relation weights' block is the whole matrix; its column `q` is the output's column. -/
theorem read_wr (c : Dev nD) (t : Fin cfg1.N) (r : Fin 10000) (q : Fin 15) (kk : Fin 20) :
    iblk1 V c 2 t (ix2 kk q) = V c main_arg6 (ix2 kk ((((cfg1.win 5).blk t).view.emb (ix2 r q)) 1)) := by
  obtain ⟨e0, e1, e2, e3, e4, e5, e6, e7, e8, e9, e10, e11⟩ := idx_facts t
  show V c main_arg6 (((cfg1.win 2).blk t).view.emb (ix2 kk q)) = _
  refine congrArg (V c main_arg6) (funext fun a => Fin.ext ?_)
  match a with
  | ⟨0, _⟩ => show win1_2.index t (0 : Fin 2) * 20 + 1 * kk.val = kk.val; omega
  | ⟨1, _⟩ => show win1_2.index t (1 : Fin 2) * 15 + 1 * q.val = win1_5.index t (1 : Fin 2) * 15 + 1 * q.val; omega

/-- The same for the root weights. -/
theorem read_wo (c : Dev nD) (t : Fin cfg1.N) (r : Fin 10000) (q : Fin 15) (kk : Fin 20) :
    iblk1 V c 4 t (ix2 kk q) = V c main_arg8 (ix2 kk ((((cfg1.win 5).blk t).view.emb (ix2 r q)) 1)) := by
  obtain ⟨e0, e1, e2, e3, e4, e5, e6, e7, e8, e9, e10, e11⟩ := idx_facts t
  show V c main_arg8 (((cfg1.win 4).blk t).view.emb (ix2 kk q)) = _
  refine congrArg (V c main_arg8) (funext fun a => Fin.ext ?_)
  match a with
  | ⟨0, _⟩ => show win1_4.index t (0 : Fin 2) * 20 + 1 * kk.val = kk.val; omega
  | ⟨1, _⟩ => show win1_4.index t (1 : Fin 2) * 15 + 1 * q.val = win1_5.index t (1 : Fin 2) * 15 + 1 * q.val; omega

/-- The bias block is the whole unit row. -/
theorem read_b (c : Dev nD) (t : Fin cfg1.N) (r : Fin 10000) (q : Fin 15) :
    iblk1 V c 3 t (ix2 (0 : Fin 1) q) = V c main_v32 (ix2 (0 : Fin 1) ((((cfg1.win 5).blk t).view.emb (ix2 r q)) 1)) := by
  obtain ⟨e0, e1, e2, e3, e4, e5, e6, e7, e8, e9, e10, e11⟩ := idx_facts t
  show V c main_v32 (((cfg1.win 3).blk t).view.emb (ix2 (0 : Fin 1) q)) = _
  refine congrArg (V c main_v32) (funext fun a => Fin.ext ?_)
  match a with
  | ⟨0, _⟩ => show win1_3.index t (0 : Fin 2) * 1 + 1 * 0 = 0; omega
  | ⟨1, _⟩ => show win1_3.index t (1 : Fin 2) * 15 + 1 * q.val = win1_5.index t (1 : Fin 2) * 15 + 1 * q.val; omega

/-- The layer as a function of the region's entry contents. -/
abbrev G (c : Dev nD) : S100000x15.Idx → EReal :=
  GraphConv.layer (M := 100000) (K := 20) (N := 15) (V c main_v31) (V c main_v18) (V c main_arg6) (V c main_arg8) (fun j => V c main_v32 (ix2 (0 : Fin 1) j))

/-- What point `t` writes back is block `t` of the layer. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S10000x20) hz, View.ld_unit_zero (S := S20x15) hz, View.ld_unit_zero (S := S1x15) hz]
  funext j
  obtain ⟨r, q, rfl⟩ : ∃ (r : Fin 10000) (q : Fin 15), j = ix2 r q := ⟨j 0, j 1, eq_ix2 j⟩
  refine (pay_apply (iblk1 V c 0 t) (iblk1 V c 1 t) (iblk1 V c 2 t) (iblk1 V c 4 t) (iblk1 V c 3 t) r q).trans ?_
  show _ = GraphConv.entry (M := 100000) (K := 20) (N := 15) (V c main_v31) (V c main_v18) (V c main_arg6) (V c main_arg8)
    (fun j => V c main_v32 (ix2 (0 : Fin 1) j)) ((((cfg1.win 5).blk t).view.emb (ix2 r q)) 0) ((((cfg1.win 5).blk t).view.emb (ix2 r q)) 1)
  exact GraphConv.entry_congr (M := 10000) (K := 20) (N := 15) (M' := 100000)
    (iblk1 V c 0 t) (iblk1 V c 1 t) (V c main_v31) (V c main_v18) (iblk1 V c 2 t) (iblk1 V c 4 t) (V c main_arg6) (V c main_arg8)
    (fun j => iblk1 V c 3 t (ix2 (0 : Fin 1) j)) (fun j => V c main_v32 (ix2 (0 : Fin 1) j)) r ((((cfg1.win 5).blk t).view.emb (ix2 r q)) 0) q ((((cfg1.win 5).blk t).view.emb (ix2 r q)) 1)
    (fun kk => read_agg V c t r q kk) (fun kk => read_x V c t r q kk)
    (fun kk => read_wr V c t r q kk) (fun kk => read_wo V c t r q kk) (read_b V c t r q)

/-- An index of the output array is in point `t`'s block iff each coordinate is in the block's range on its axis. -/
theorem mem_blk (t : Fin cfg1.N) (i : S100000x15.Idx) :
    i ∈ ((cfg1.win 5).blk t).view.set ↔ ∀ a : Fin 2, win1_5.index t a * S10000x15.size a ≤ (i a).val ∧ (i a).val < win1_5.index t a * S10000x15.size a + S10000x15.size a := by
  show i ∈ ((View.whole main_v33).slice (win1_5.rect t)).set ↔ _
  rw [View.set_slice_whole, Rect.mem_set_unit]
  exact Iff.rfl

/-- The ten row blocks cover the output array: row `i` lies in block `i / 10000`. -/
theorem cover (i : S100000x15.Idx) :
    ∃ t : Fin cfg1.N, (cfg1.win 5).flush t = true ∧ i ∈ ((cfg1.win 5).blk t).view.set := by
  have hi0 : (i 0).val < 100000 := (i 0).isLt
  have hi1 : (i 1).val < 15 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 15 ≤ (i 1).val ∧ (i 1).val < win1_5.index t (1 : Fin 2) * 15 + 15; omega

/-- The output array after the region is the layer of the region's entry contents. -/
theorem final (c : Dev nD) : (dat1 V c).arrAt 5 cfg1.N = G V c :=
  (dat1 V c).arrAt_eq_of_cover 5 (G V c) (fun t _ => flushed_eq V c t) cover

end Cert.KernelIdeal.Region1

end
-- ==== Proof.Region2.lean ====
/-
  Region 2 of the kernel program: one GraphConv dense stage over [100000, 15] inputs, tiled in ten blocks of 10000 rows.
  For ANY contents `V` of the buffers when the region is entered, the output array after the region is the whole-array
  layer `GraphConv.layer` of the aggregated messages, the node features, the two weight matrices and the bias row as `V`
  holds them: each grid point writes back the block of that one function (a row of the output depends on the same row of
  the two row-blocked inputs and on the whole of the small operands), and the ten blocks cover the array.
-/
import proofs.«110816_j592705487394_1_alg».proof.Proof.Gen.KernelIdeal.Frame
import proofs.«110816_j592705487394_1_alg».proof.Proof.DenseLayer
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an entry of its block. -/
theorem pay_apply (v0 v3 : Vec Ideal S10000x15 .f32) (v5 v7 : Vec Ideal S15x10 .f32) (v12 : Vec Ideal S1x10 .f32)
    (r : Fin 10000) (q : Fin 10) :
    k2_pay1 v0 v3 v5 v7 v12 (ix2 r q) = GraphConv.entry v0 v3 v5 v7 (fun j => v12 (ix2 (0 : Fin 1) j)) r q := by
  unfold k2_pay1
  simp only [shapeCast_self]
  exact GraphConv.kernel_entry dot_S10000x15_S15x10_S10000x10_1_0_0_1_n_n rfl rfl rfl rfl rfl rfl _ _ v0 v3 v5 v7 v12 r q

/-- The index maps over the ten grid points: the two row-blocked inputs move with the output's row block, the weights
    and the bias stay at block 0, and every window's column block is 0. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 9 :=
  (by decide +kernel : ∀ t : Fin grid2.N, _)

/-- Every row block of the output is some grid point's. -/
theorem idx_onto : ∀ q0 : Fin 10, ∃ t : Fin cfg2.N, win2_5.index t = ![q0.val, 0] :=
  (by decide +kernel : ∀ q0 : Fin 10, ∃ t : Fin grid2.N, win2_5.index t = ![q0.val, 0])

/-- Row `r` of the aggregated block at point `t` is row `10000·t + r` of the aggregated array (the row the output's
    block puts `r` at). -/
theorem read_agg (c : Dev nD) (t : Fin cfg2.N) (r : Fin 10000) (q : Fin 10) (kk : Fin 15) :
    iblk2 V c 0 t (ix2 r kk) = V c main_v46 (ix2 ((((cfg2.win 5).blk t).view.emb (ix2 r q)) 0) kk) := by
  obtain ⟨e0, e1, e2, e3, e4, e5, e6, e7, e8, e9, e10, e11⟩ := idx_facts t
  show V c main_v46 (((cfg2.win 0).blk t).view.emb (ix2 r kk)) = _
  refine congrArg (V c main_v46) (funext fun a => Fin.ext ?_)
  match a with
  | ⟨0, _⟩ => show win2_0.index t (0 : Fin 2) * 10000 + 1 * r.val = win2_5.index t (0 : Fin 2) * 10000 + 1 * r.val; omega
  | ⟨1, _⟩ => show win2_0.index t (1 : Fin 2) * 15 + 1 * kk.val = kk.val; omega

/-- The same for the node-feature block. -/
theorem read_x (c : Dev nD) (t : Fin cfg2.N) (r : Fin 10000) (q : Fin 10) (kk : Fin 15) :
    iblk2 V c 1 t (ix2 r kk) = V c main_v33 (ix2 ((((cfg2.win 5).blk t).view.emb (ix2 r q)) 0) kk) := by
  obtain ⟨e0, e1, e2, e3, e4, e5, e6, e7, e8, e9, e10, e11⟩ := idx_facts t
  show V c main_v33 (((cfg2.win 1).blk t).view.emb (ix2 r kk)) = _
  refine congrArg (V c main_v33) (funext fun a => Fin.ext ?_)
  match a with
  | ⟨0, _⟩ => show win2_1.index t (0 : Fin 2) * 10000 + 1 * r.val = win2_5.index t (0 : Fin 2) * 10000 + 1 * r.val; omega
  | ⟨1, _⟩ => show win2_1.index t (1 : Fin 2) * 15 + 1 * kk.val = kk.val; omega

/-- The relation weights' block is the whole matrix; its column `q` is the output's column. -/
theorem read_wr (c : Dev nD) (t : Fin cfg2.N) (r : Fin 10000) (q : Fin 10) (kk : Fin 15) :
    iblk2 V c 2 t (ix2 kk q) = V c main_arg9 (ix2 kk ((((cfg2.win 5).blk t).view.emb (ix2 r q)) 1)) := by
  obtain ⟨e0, e1, e2, e3, e4, e5, e6, e7, e8, e9, e10, e11⟩ := idx_facts t
  show V c main_arg9 (((cfg2.win 2).blk t).view.emb (ix2 kk q)) = _
  refine congrArg (V c main_arg9) (funext fun a => Fin.ext ?_)
  match a with
  | ⟨0, _⟩ => show win2_2.index t (0 : Fin 2) * 15 + 1 * kk.val = kk.val; omega
  | ⟨1, _⟩ => show win2_2.index t (1 : Fin 2) * 10 + 1 * q.val = win2_5.index t (1 : Fin 2) * 10 + 1 * q.val; omega

/-- The same for the root weights. -/
theorem read_wo (c : Dev nD) (t : Fin cfg2.N) (r : Fin 10000) (q : Fin 10) (kk : Fin 15) :
    iblk2 V c 4 t (ix2 kk q) = V c main_arg11 (ix2 kk ((((cfg2.win 5).blk t).view.emb (ix2 r q)) 1)) := by
  obtain ⟨e0, e1, e2, e3, e4, e5, e6, e7, e8, e9, e10, e11⟩ := idx_facts t
  show V c main_arg11 (((cfg2.win 4).blk t).view.emb (ix2 kk q)) = _
  refine congrArg (V c main_arg11) (funext fun a => Fin.ext ?_)
  match a with
  | ⟨0, _⟩ => show win2_4.index t (0 : Fin 2) * 15 + 1 * kk.val = kk.val; omega
  | ⟨1, _⟩ => show win2_4.index t (1 : Fin 2) * 10 + 1 * q.val = win2_5.index t (1 : Fin 2) * 10 + 1 * q.val; omega

/-- The bias block is the whole unit row. -/
theorem read_b (c : Dev nD) (t : Fin cfg2.N) (r : Fin 10000) (q : Fin 10) :
    iblk2 V c 3 t (ix2 (0 : Fin 1) q) = V c main_v47 (ix2 (0 : Fin 1) ((((cfg2.win 5).blk t).view.emb (ix2 r q)) 1)) := by
  obtain ⟨e0, e1, e2, e3, e4, e5, e6, e7, e8, e9, e10, e11⟩ := idx_facts t
  show V c main_v47 (((cfg2.win 3).blk t).view.emb (ix2 (0 : Fin 1) q)) = _
  refine congrArg (V c main_v47) (funext fun a => Fin.ext ?_)
  match a with
  | ⟨0, _⟩ => show win2_3.index t (0 : Fin 2) * 1 + 1 * 0 = 0; omega
  | ⟨1, _⟩ => show win2_3.index t (1 : Fin 2) * 10 + 1 * q.val = win2_5.index t (1 : Fin 2) * 10 + 1 * q.val; omega

/-- The layer as a function of the region's entry contents. -/
abbrev G (c : Dev nD) : S100000x10.Idx → EReal :=
  GraphConv.layer (M := 100000) (K := 15) (N := 10) (V c main_v46) (V c main_v33) (V c main_arg9) (V c main_arg11) (fun j => V c main_v47 (ix2 (0 : Fin 1) j))

/-- What point `t` writes back is block `t` of the layer. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S10000x15) hz, View.ld_unit_zero (S := S15x10) hz, View.ld_unit_zero (S := S1x10) hz]
  funext j
  obtain ⟨r, q, rfl⟩ : ∃ (r : Fin 10000) (q : Fin 10), j = ix2 r q := ⟨j 0, j 1, eq_ix2 j⟩
  refine (pay_apply (iblk2 V c 0 t) (iblk2 V c 1 t) (iblk2 V c 2 t) (iblk2 V c 4 t) (iblk2 V c 3 t) r q).trans ?_
  show _ = GraphConv.entry (M := 100000) (K := 15) (N := 10) (V c main_v46) (V c main_v33) (V c main_arg9) (V c main_arg11)
    (fun j => V c main_v47 (ix2 (0 : Fin 1) j)) ((((cfg2.win 5).blk t).view.emb (ix2 r q)) 0) ((((cfg2.win 5).blk t).view.emb (ix2 r q)) 1)
  exact GraphConv.entry_congr (M := 10000) (K := 15) (N := 10) (M' := 100000)
    (iblk2 V c 0 t) (iblk2 V c 1 t) (V c main_v46) (V c main_v33) (iblk2 V c 2 t) (iblk2 V c 4 t) (V c main_arg9) (V c main_arg11)
    (fun j => iblk2 V c 3 t (ix2 (0 : Fin 1) j)) (fun j => V c main_v47 (ix2 (0 : Fin 1) j)) r ((((cfg2.win 5).blk t).view.emb (ix2 r q)) 0) q ((((cfg2.win 5).blk t).view.emb (ix2 r q)) 1)
    (fun kk => read_agg V c t r q kk) (fun kk => read_x V c t r q kk)
    (fun kk => read_wr V c t r q kk) (fun kk => read_wo V c t r q kk) (read_b V c t r q)

/-- An index of the output array is in point `t`'s block iff each coordinate is in the block's range on its axis. -/
theorem mem_blk (t : Fin cfg2.N) (i : S100000x10.Idx) :
    i ∈ ((cfg2.win 5).blk t).view.set ↔ ∀ a : Fin 2, win2_5.index t a * S10000x10.size a ≤ (i a).val ∧ (i a).val < win2_5.index t a * S10000x10.size a + S10000x10.size a := by
  show i ∈ ((View.whole main_v48).slice (win2_5.rect t)).set ↔ _
  rw [View.set_slice_whole, Rect.mem_set_unit]
  exact Iff.rfl

/-- The ten row blocks cover the output array: row `i` lies in block `i / 10000`. -/
theorem cover (i : S100000x10.Idx) :
    ∃ t : Fin cfg2.N, (cfg2.win 5).flush t = true ∧ i ∈ ((cfg2.win 5).blk t).view.set := by
  have hi0 : (i 0).val < 100000 := (i 0).isLt
  have hi1 : (i 1).val < 10 := (i 1).isLt
  obtain ⟨t, ht⟩ := idx_onto ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 10 ≤ (i 1).val ∧ (i 1).val < win2_5.index t (1 : Fin 2) * 10 + 10; omega

/-- The output array after the region is the layer of the region's entry contents. -/
theorem final (c : Dev nD) : (dat2 V c).arrAt 5 cfg2.N = G V c :=
  (dat2 V c).arrAt_eq_of_cover 5 (G V c) (fun t _ => flushed_eq V c t) cover

end Cert.KernelIdeal.Region2

end
-- ==== Proof.Region3.lean ====
/-
  Region 3 of the kernel program: one GraphConv dense stage over [100000, 10] inputs, tiled in ten blocks of 10000 rows.
  For ANY contents `V` of the buffers when the region is entered, the output array after the region is the whole-array
  layer `GraphConv.layer` of the aggregated messages, the node features, the two weight matrices and the bias row as `V`
  holds them: each grid point writes back the block of that one function (a row of the output depends on the same row of
  the two row-blocked inputs and on the whole of the small operands), and the ten blocks cover the array.
-/
import proofs.«110816_j592705487394_1_alg».proof.Proof.Gen.KernelIdeal.Frame
import proofs.«110816_j592705487394_1_alg».proof.Proof.DenseLayer
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an entry of its block. -/
theorem pay_apply (v0 v3 : Vec Ideal S10000x10 .f32) (v5 v7 : Vec Ideal S10x5 .f32) (v12 : Vec Ideal S1x5 .f32)
    (r : Fin 10000) (q : Fin 5) :
    k3_pay1 v0 v3 v5 v7 v12 (ix2 r q) = GraphConv.entry v0 v3 v5 v7 (fun j => v12 (ix2 (0 : Fin 1) j)) r q := by
  unfold k3_pay1
  simp only [shapeCast_self]
  exact GraphConv.kernel_entry dot_S10000x10_S10x5_S10000x5_1_0_0_1_n_n rfl rfl rfl rfl rfl rfl _ _ v0 v3 v5 v7 v12 r q

/-- The index maps over the ten grid points: the two row-blocked inputs move with the output's row block, the weights
    and the bias stay at block 0, and every window's column block is 0. -/
theorem idx_facts : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) ≤ 9 :=
  (by decide +kernel : ∀ t : Fin grid3.N, _)

/-- Every row block of the output is some grid point's. -/
theorem idx_onto : ∀ q0 : Fin 10, ∃ t : Fin cfg3.N, win3_5.index t = ![q0.val, 0] :=
  (by decide +kernel : ∀ q0 : Fin 10, ∃ t : Fin grid3.N, win3_5.index t = ![q0.val, 0])

/-- Row `r` of the aggregated block at point `t` is row `10000·t + r` of the aggregated array (the row the output's
    block puts `r` at). -/
theorem read_agg (c : Dev nD) (t : Fin cfg3.N) (r : Fin 10000) (q : Fin 5) (kk : Fin 10) :
    iblk3 V c 0 t (ix2 r kk) = V c main_v61 (ix2 ((((cfg3.win 5).blk t).view.emb (ix2 r q)) 0) kk) := by
  obtain ⟨e0, e1, e2, e3, e4, e5, e6, e7, e8, e9, e10, e11⟩ := idx_facts t
  show V c main_v61 (((cfg3.win 0).blk t).view.emb (ix2 r kk)) = _
  refine congrArg (V c main_v61) (funext fun a => Fin.ext ?_)
  match a with
  | ⟨0, _⟩ => show win3_0.index t (0 : Fin 2) * 10000 + 1 * r.val = win3_5.index t (0 : Fin 2) * 10000 + 1 * r.val; omega
  | ⟨1, _⟩ => show win3_0.index t (1 : Fin 2) * 10 + 1 * kk.val = kk.val; omega

/-- The same for the node-feature block. -/
theorem read_x (c : Dev nD) (t : Fin cfg3.N) (r : Fin 10000) (q : Fin 5) (kk : Fin 10) :
    iblk3 V c 1 t (ix2 r kk) = V c main_v48 (ix2 ((((cfg3.win 5).blk t).view.emb (ix2 r q)) 0) kk) := by
  obtain ⟨e0, e1, e2, e3, e4, e5, e6, e7, e8, e9, e10, e11⟩ := idx_facts t
  show V c main_v48 (((cfg3.win 1).blk t).view.emb (ix2 r kk)) = _
  refine congrArg (V c main_v48) (funext fun a => Fin.ext ?_)
  match a with
  | ⟨0, _⟩ => show win3_1.index t (0 : Fin 2) * 10000 + 1 * r.val = win3_5.index t (0 : Fin 2) * 10000 + 1 * r.val; omega
  | ⟨1, _⟩ => show win3_1.index t (1 : Fin 2) * 10 + 1 * kk.val = kk.val; omega

/-- The relation weights' block is the whole matrix; its column `q` is the output's column. -/
theorem read_wr (c : Dev nD) (t : Fin cfg3.N) (r : Fin 10000) (q : Fin 5) (kk : Fin 10) :
    iblk3 V c 2 t (ix2 kk q) = V c main_arg12 (ix2 kk ((((cfg3.win 5).blk t).view.emb (ix2 r q)) 1)) := by
  obtain ⟨e0, e1, e2, e3, e4, e5, e6, e7, e8, e9, e10, e11⟩ := idx_facts t
  show V c main_arg12 (((cfg3.win 2).blk t).view.emb (ix2 kk q)) = _
  refine congrArg (V c main_arg12) (funext fun a => Fin.ext ?_)
  match a with
  | ⟨0, _⟩ => show win3_2.index t (0 : Fin 2) * 10 + 1 * kk.val = kk.val; omega
  | ⟨1, _⟩ => show win3_2.index t (1 : Fin 2) * 5 + 1 * q.val = win3_5.index t (1 : Fin 2) * 5 + 1 * q.val; omega

/-- The same for the root weights. -/
theorem read_wo (c : Dev nD) (t : Fin cfg3.N) (r : Fin 10000) (q : Fin 5) (kk : Fin 10) :
    iblk3 V c 4 t (ix2 kk q) = V c main_arg14 (ix2 kk ((((cfg3.win 5).blk t).view.emb (ix2 r q)) 1)) := by
  obtain ⟨e0, e1, e2, e3, e4, e5, e6, e7, e8, e9, e10, e11⟩ := idx_facts t
  show V c main_arg14 (((cfg3.win 4).blk t).view.emb (ix2 kk q)) = _
  refine congrArg (V c main_arg14) (funext fun a => Fin.ext ?_)
  match a with
  | ⟨0, _⟩ => show win3_4.index t (0 : Fin 2) * 10 + 1 * kk.val = kk.val; omega
  | ⟨1, _⟩ => show win3_4.index t (1 : Fin 2) * 5 + 1 * q.val = win3_5.index t (1 : Fin 2) * 5 + 1 * q.val; omega

/-- The bias block is the whole unit row. -/
theorem read_b (c : Dev nD) (t : Fin cfg3.N) (r : Fin 10000) (q : Fin 5) :
    iblk3 V c 3 t (ix2 (0 : Fin 1) q) = V c main_v62 (ix2 (0 : Fin 1) ((((cfg3.win 5).blk t).view.emb (ix2 r q)) 1)) := by
  obtain ⟨e0, e1, e2, e3, e4, e5, e6, e7, e8, e9, e10, e11⟩ := idx_facts t
  show V c main_v62 (((cfg3.win 3).blk t).view.emb (ix2 (0 : Fin 1) q)) = _
  refine congrArg (V c main_v62) (funext fun a => Fin.ext ?_)
  match a with
  | ⟨0, _⟩ => show win3_3.index t (0 : Fin 2) * 1 + 1 * 0 = 0; omega
  | ⟨1, _⟩ => show win3_3.index t (1 : Fin 2) * 5 + 1 * q.val = win3_5.index t (1 : Fin 2) * 5 + 1 * q.val; omega

/-- The layer as a function of the region's entry contents. -/
abbrev G (c : Dev nD) : S100000x5.Idx → EReal :=
  GraphConv.layer (M := 100000) (K := 10) (N := 5) (V c main_v61) (V c main_v48) (V c main_arg12) (V c main_arg14) (fun j => V c main_v62 (ix2 (0 : Fin 1) j))

/-- What point `t` writes back is block `t` of the layer. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S10000x10) hz, View.ld_unit_zero (S := S10x5) hz, View.ld_unit_zero (S := S1x5) hz]
  funext j
  obtain ⟨r, q, rfl⟩ : ∃ (r : Fin 10000) (q : Fin 5), j = ix2 r q := ⟨j 0, j 1, eq_ix2 j⟩
  refine (pay_apply (iblk3 V c 0 t) (iblk3 V c 1 t) (iblk3 V c 2 t) (iblk3 V c 4 t) (iblk3 V c 3 t) r q).trans ?_
  show _ = GraphConv.entry (M := 100000) (K := 10) (N := 5) (V c main_v61) (V c main_v48) (V c main_arg12) (V c main_arg14)
    (fun j => V c main_v62 (ix2 (0 : Fin 1) j)) ((((cfg3.win 5).blk t).view.emb (ix2 r q)) 0) ((((cfg3.win 5).blk t).view.emb (ix2 r q)) 1)
  exact GraphConv.entry_congr (M := 10000) (K := 10) (N := 5) (M' := 100000)
    (iblk3 V c 0 t) (iblk3 V c 1 t) (V c main_v61) (V c main_v48) (iblk3 V c 2 t) (iblk3 V c 4 t) (V c main_arg12) (V c main_arg14)
    (fun j => iblk3 V c 3 t (ix2 (0 : Fin 1) j)) (fun j => V c main_v62 (ix2 (0 : Fin 1) j)) r ((((cfg3.win 5).blk t).view.emb (ix2 r q)) 0) q ((((cfg3.win 5).blk t).view.emb (ix2 r q)) 1)
    (fun kk => read_agg V c t r q kk) (fun kk => read_x V c t r q kk)
    (fun kk => read_wr V c t r q kk) (fun kk => read_wo V c t r q kk) (read_b V c t r q)

/-- An index of the output array is in point `t`'s block iff each coordinate is in the block's range on its axis. -/
theorem mem_blk (t : Fin cfg3.N) (i : S100000x5.Idx) :
    i ∈ ((cfg3.win 5).blk t).view.set ↔ ∀ a : Fin 2, win3_5.index t a * S10000x5.size a ≤ (i a).val ∧ (i a).val < win3_5.index t a * S10000x5.size a + S10000x5.size a := by
  show i ∈ ((View.whole main_v63).slice (win3_5.rect t)).set ↔ _
  rw [View.set_slice_whole, Rect.mem_set_unit]
  exact Iff.rfl

/-- The ten row blocks cover the output array: row `i` lies in block `i / 10000`. -/
theorem cover (i : S100000x5.Idx) :
    ∃ t : Fin cfg3.N, (cfg3.win 5).flush t = true ∧ i ∈ ((cfg3.win 5).blk t).view.set := by
  have hi0 : (i 0).val < 100000 := (i 0).isLt
  have hi1 : (i 1).val < 5 := (i 1).isLt
  obtain ⟨t, ht⟩ := idx_onto ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 5 ≤ (i 1).val ∧ (i 1).val < win3_5.index t (1 : Fin 2) * 5 + 5; omega

/-- The output array after the region is the layer of the region's entry contents. -/
theorem final (c : Dev nD) : (dat3 V c).arrAt 5 cfg3.N = G V c :=
  (dat3 V c).arrAt_eq_of_cover 5 (G V c) (fun t _ => flushed_eq V c t) cover

end Cert.KernelIdeal.Region3

end
-- ==== Proof.LibLastAxisFolds.lean ====
/-
  Folds along the LAST axis of a rank-2 array at the ideal values, in the form a kernel's own text takes.

  A kernel's `vector.multi_reduction` carries two facts besides its operand: that its float type is one the
  operation is defined at, and that its accumulator is the operation's neutral word. A printed kernel states the
  first as the disjunction itself and the second as an equation between the two literal words. The lemmas here take
  the two facts in exactly that spelling, for any extents, so they rewrite a kernel's value as it stands:

  * `rowsum_fn` / `rowmax_fn`: the reduction, as a function of the row, is the sum over the row / the fold of `max`
    over the row from minus infinity. They contain no index, so `rw` can replace every reduction of a value before
    the value is read at an entry, also the ones that end up under a sum or a fold;
  * `rowsum_apply` / `rowmax_apply`: the same at a row given by its coordinate.

  With them: a one-column matrix `[a, 1]` laid out as one row `[1, a]` read at `(u, i)` is the column at `(i, 0)`, the
  counterpart of a vector laid out as a row; and square root, exponential and sigmoid of a vector read at an index.
-/
import Idealize.ShloMosaic.PureOps.Ideal.Laws
import Idealize.ShloMosaic.Lib.ValueIdx
import Idealize.ShloMosaic.Lib.Pipeline.Value

noncomputable section

namespace Cert.Lib.LastAxisFolds

open Idealize.ShloMosaic Idealize.ShloMosaic.ValueIdx

/-- A sum along the last axis from zero, read at its row: the sum over the row. -/
theorem rowsum_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => ?_
  exact congrArg src (funext fun d => Fin.ext (by match d with | ⟨0, _⟩ => rfl | ⟨1, _⟩ => rfl))

/-- A maximum along the last axis from minus infinity, read at its row: the fold of `max` over the row. -/
theorem rowmax_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun f => (Finset.univ : Finset (Fin b)).fold max (Ideal.ofBits .f32 0xFF800000#32) f) (funext fun k => ?_)
  exact congrArg src (funext fun d => Fin.ext (by match d with | ⟨0, _⟩ => rfl | ⟨1, _⟩ => rfl))

/-- The sum along the last axis as a function of the row. -/
theorem rowsum_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) :
    multiReduction .add [1] ⟨1, ![a]⟩ src 0x00000000#32 h hφ hacc = fun j => ∑ k : Fin b, src (ix2 (j 0) k) :=
  funext fun j => by
    rw [eq_ix1 j]
    exact rowsum_apply src h hφ hacc (j 0)

/-- The maximum along the last axis as a function of the row. -/
theorem rowmax_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) :
    multiReduction .maximumf [1] ⟨1, ![a]⟩ src 0xFF800000#32 h hφ hacc
      = fun j => (Finset.univ : Finset (Fin b)).fold max (Ideal.ofBits .f32 0xFF800000#32) (fun k => src (ix2 (j 0) k)) :=
  funext fun j => by
    rw [eq_ix1 j]
    exact rowmax_apply src h hφ hacc (j 0)

/-- A one-column matrix laid out as one row reads, at `(u, i)`, the column's entry in row `i`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.mul_one, Nat.add_zero, Nat.zero_add])

/-- The square root of a vector read at an index. -/
theorem sqrt_apply {s : Shape} {φ : FTy} (a : FVec Ideal s φ) (i : s.Idx) : sqrt a i = Ideal.sqrt (a i) := rfl
/-- The exponential of a vector read at an index. -/
theorem exp_apply {s : Shape} {φ : FTy} (a : FVec Ideal s φ) (i : s.Idx) : exp a i = Ideal.exp (a i) := rfl
/-- The sigmoid of a vector read at an index. -/
theorem logistic_apply {s : Shape} {φ : FTy} (a : FVec Ideal s φ) (i : s.Idx) : logistic a i = Ideal.logistic (a i) := rfl

end Cert.Lib.LastAxisFolds

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.LibHostColumns.lean ====
/-
  The host's keepdims layouts read at coordinates, for any element type and extents: a vector [a] laid down a
  column [a, 1] (broadcast_in_dim with dims = [0]) reads the vector at the row; a column [a, 1] repeated along the row
  into [a, b] (dims = [0, 1]) reads the column at the row.
-/
import Idealize.ShloMosaic.Lib.Pipeline.Value
import Idealize.ShloMosaic.Lib.ValueIdx

namespace Cert.Lib.HostColumns

open Idealize.ShloMosaic Idealize.ShloMosaic.ValueIdx

variable {α : Type}

/-- A vector laid down a column reads the vector at the row. -/
theorem bcast_a_a1_apply {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply ![0] h x (ix2 i u) (ix1 i) (fun k => by
    match k with
    | ⟨0, _⟩ =>
      show i.val = if a = 1 then 0 else i.val
      split_ifs with h1
      · have := i.isLt; omega
      · rfl)

/-- A column repeated along the row reads the column at the row. -/
theorem bcast_a1_ab_apply {a b : ℕ} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i (0 : Fin 1)) :=
  broadcastInDim_apply ![0, 1] h x (ix2 i j) (ix2 i (0 : Fin 1)) (fun k => by
    match k with
    | ⟨0, _⟩ =>
      show i.val = if a = 1 then 0 else i.val
      split_ifs with h1
      · have := i.isLt; omega
      · rfl
    | ⟨1, _⟩ =>
      show (0 : ℕ) = if (1 : ℕ) = 1 then 0 else j.val
      rfl)

end Cert.Lib.HostColumns
-- ==== Proof.Softmax.lean ====
/-
  A row's softmax at one entry, on the extended reals, for any row length:
      exp (z c - m) / ∑ₖ exp (z k - m),   m = max (-∞, maxₖ z k),
  with -∞ kept as the float word both programs print, the quotient the exact division of extended reals, and the running
  maximum the fold of `max` from -∞. The kernel computes it on a block of rows with lane reductions and keepdims casts; the
  reference on the whole array with host reductions and broadcasts. Both read, at row `r` and column `c`, as this one
  expression of row `r`.
-/
import Idealize.ShloMosaic.PureOps.Ideal.Laws
import Idealize.ShloMosaic.Lib.ValueIdx
import Idealize.ShloMosaic.Lib.ValueLayout
import Idealize.ShloMosaic.Lib.Pipeline.Value
import proofs.«110816_j592705487394_1_alg».proof.Proof.LibLastAxisFolds
import proofs.«110816_j592705487394_1_alg».proof.Proof.LibColumnLayout
import proofs.«110816_j592705487394_1_alg».proof.Proof.LibHostColumns

noncomputable section

namespace Cert.GraphConv

open Idealize.ShloMosaic Idealize.ShloMosaic.ValueIdx

/-- The running maximum of a row, started from -∞ and joined with -∞ once more, as both programs compute it. -/
def rowMax {N : ℕ} (z : Fin N → EReal) : EReal :=
  max (Ideal.ofBits .f32 0xFF800000#32) ((Finset.univ : Finset (Fin N)).fold max (Ideal.ofBits .f32 0xFF800000#32) z)

/-- One entry of the softmax of the row `z`. -/
def softmaxEntry {N : ℕ} (z : Fin N → EReal) (c : Fin N) : EReal :=
  Ideal.div (Ideal.exp (z c - rowMax z)) (∑ k : Fin N, Ideal.exp (z k - rowMax z))

variable {a b : ℕ}

/-- The kernel's shift: the lane maximum from -∞, joined with the -∞ splat, laid down a column and repeated along the
    row, read at `(r, c)` is the row's maximum. -/
theorem kernel_shift (z : FVec Ideal ⟨2, ![a, b]⟩ .f32)
    (hred : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32)
    (hsc : (⟨1, ![a]⟩ : Shape).ShapeCasts ⟨2, ![a, 1]⟩) (hbc : (⟨2, ![a, 1]⟩ : Shape).Broadcasts ⟨2, ![a, b]⟩)
    (r : Fin a) (c : Fin b) :
    broadcastTo ⟨2, ![a, b]⟩ (shapeCast ⟨2, ![a, 1]⟩
      (maximumf (broadcast ⟨1, ![a]⟩ (Scalar.ofBits (F := Ideal) .f32 0xFF800000#32))
        (multiReduction .maximumf [1] ⟨1, ![a]⟩ z 0xFF800000#32 hred hφ hacc)) hsc) hbc (ix2 r c)
      = rowMax (fun k => z (ix2 r k)) := by
  rw [ColumnLayout.broadcastTo_a1_ab_apply _ hbc r c, ColumnLayout.shapeCast_a_a1_apply _ hsc r (0 : Fin 1),
    maximumf_apply, broadcast_apply, Cert.Lib.LastAxisFolds.rowmax_apply z hred hφ hacc r]
  rfl

/-- The kernel's softmax of a block of rows, read at an entry. -/
theorem kernel_softmax (z : FVec Ideal ⟨2, ![a, b]⟩ .f32)
    (hred : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32)
    (hacc0 : (0x00000000#32 : BitVec FTy.f32.bits) = 0x00000000#32)
    (hsc : (⟨1, ![a]⟩ : Shape).ShapeCasts ⟨2, ![a, 1]⟩) (hbc : (⟨2, ![a, 1]⟩ : Shape).Broadcasts ⟨2, ![a, b]⟩)
    (r : Fin a) (c : Fin b) :
    divf (exp (subf z (broadcastTo ⟨2, ![a, b]⟩ (shapeCast ⟨2, ![a, 1]⟩
        (maximumf (broadcast ⟨1, ![a]⟩ (Scalar.ofBits (F := Ideal) .f32 0xFF800000#32))
          (multiReduction .maximumf [1] ⟨1, ![a]⟩ z 0xFF800000#32 hred hφ hacc)) hsc) hbc)))
      (broadcastTo ⟨2, ![a, b]⟩ (shapeCast ⟨2, ![a, 1]⟩
        (multiReduction .add [1] ⟨1, ![a]⟩ (exp (subf z (broadcastTo ⟨2, ![a, b]⟩ (shapeCast ⟨2, ![a, 1]⟩
          (maximumf (broadcast ⟨1, ![a]⟩ (Scalar.ofBits (F := Ideal) .f32 0xFF800000#32))
            (multiReduction .maximumf [1] ⟨1, ![a]⟩ z 0xFF800000#32 hred hφ hacc)) hsc) hbc))) 0x00000000#32 hred hφ hacc0) hsc) hbc)
      (ix2 r c) = softmaxEntry (fun k => z (ix2 r k)) c := by
  rw [divf_apply, ColumnLayout.broadcastTo_a1_ab_apply _ hbc r c, ColumnLayout.shapeCast_a_a1_apply _ hsc r (0 : Fin 1),
    Cert.Lib.LastAxisFolds.rowsum_apply _ hred hφ hacc0 r]
  unfold softmaxEntry
  refine congrArg₂ Ideal.div ?_ (Finset.sum_congr rfl fun k _ => ?_)
  · rw [Cert.Lib.LastAxisFolds.exp_apply, subf_apply, kernel_shift z hred hφ hacc hsc hbc r c]
  · rw [Cert.Lib.LastAxisFolds.exp_apply, subf_apply, kernel_shift z hred hφ hacc hsc hbc r k]

/-- The reference's shift: the host maximum along the row from -∞, joined with the broadcast -∞, laid down a column and
    repeated along the row, read at `(r, c)` is the row's maximum. -/
theorem host_shift (z : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hS : 0 < (⟨0, ![]⟩ : Shape).numel)
    (hz1 : (⟨0, ![]⟩ : Shape).BroadcastsInDim ⟨1, ![a]⟩ ![])
    (hc1 : (⟨1, ![a]⟩ : Shape).BroadcastsInDim ⟨2, ![a, 1]⟩ ![0])
    (hc2 : (⟨2, ![a, 1]⟩ : Shape).BroadcastsInDim ⟨2, ![a, b]⟩ ![0, 1])
    (r : Fin a) (c : Fin b) :
    broadcastInDim ⟨2, ![a, b]⟩ ![0, 1] hc2 (broadcastInDim ⟨2, ![a, 1]⟩ ![0] hc1
      (maximumf (broadcastInDim ⟨1, ![a]⟩ ![] hz1 (constant (F := Ideal) ⟨0, ![]⟩ .f32 0xFF800000#32))
        (Host.reduce FloatOps.maximumf z (constant (F := Ideal) ⟨0, ![]⟩ .f32 0xFF800000#32) h' hS))) (ix2 r c)
      = rowMax (fun k => z (ix2 r k)) := by
  rw [Cert.Lib.HostColumns.bcast_a1_ab_apply hc2 _ r c, Cert.Lib.HostColumns.bcast_a_a1_apply hc1 _ r (0 : Fin 1),
    maximumf_apply]
  unfold rowMax
  refine congrArg₂ max rfl ?_
  refine (Host.reduce_eq_fold_single (f := (max : EReal → EReal → EReal)) z _ h' h hS (ix1 r)).trans ?_
  refine congrArg (fun f => (Finset.univ : Finset (Fin b)).fold max (Ideal.ofBits .f32 0xFF800000#32) f) (funext fun k => ?_)
  exact congrArg z (funext fun d => Fin.ext (by match d with | ⟨0, _⟩ => rfl | ⟨1, _⟩ => rfl))

/-- The reference's softmax of the whole array, read at an entry. -/
theorem host_softmax (z : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hS : 0 < (⟨0, ![]⟩ : Shape).numel)
    (hz1 : (⟨0, ![]⟩ : Shape).BroadcastsInDim ⟨1, ![a]⟩ ![])
    (hc1 : (⟨1, ![a]⟩ : Shape).BroadcastsInDim ⟨2, ![a, 1]⟩ ![0])
    (hc2 : (⟨2, ![a, 1]⟩ : Shape).BroadcastsInDim ⟨2, ![a, b]⟩ ![0, 1])
    (r : Fin a) (c : Fin b) :
    Host.divf (Host.exp (subf z (broadcastInDim ⟨2, ![a, b]⟩ ![0, 1] hc2 (broadcastInDim ⟨2, ![a, 1]⟩ ![0] hc1
        (maximumf (broadcastInDim ⟨1, ![a]⟩ ![] hz1 (constant (F := Ideal) ⟨0, ![]⟩ .f32 0xFF800000#32))
          (Host.reduce FloatOps.maximumf z (constant (F := Ideal) ⟨0, ![]⟩ .f32 0xFF800000#32) h' hS))))))
      (broadcastInDim ⟨2, ![a, b]⟩ ![0, 1] hc2 (broadcastInDim ⟨2, ![a, 1]⟩ ![0] hc1
        (Host.reduceAdd (Host.exp (subf z (broadcastInDim ⟨2, ![a, b]⟩ ![0, 1] hc2 (broadcastInDim ⟨2, ![a, 1]⟩ ![0] hc1
          (maximumf (broadcastInDim ⟨1, ![a]⟩ ![] hz1 (constant (F := Ideal) ⟨0, ![]⟩ .f32 0xFF800000#32))
            (Host.reduce FloatOps.maximumf z (constant (F := Ideal) ⟨0, ![]⟩ .f32 0xFF800000#32) h' hS))))))
          (constant (F := Ideal) ⟨0, ![]⟩ .f32 0x00000000#32) h' hS)))
      (ix2 r c) = softmaxEntry (fun k => z (ix2 r k)) c := by
  show Ideal.div _ _ = _
  rw [Cert.Lib.HostColumns.bcast_a1_ab_apply hc2 _ r c, Cert.Lib.HostColumns.bcast_a_a1_apply hc1 _ r (0 : Fin 1)]
  simp only [Host.reduceAdd, Ideal.hostReduceAdd_def]
  rw [Ideal.hostReduceAdd_single h' h]
  unfold softmaxEntry
  refine congrArg₂ Ideal.div ?_ ?_
  · show Ideal.exp (z (ix2 r c) - _) = _
    rw [host_shift z h' h hS hz1 hc1 hc2 r c]
  · rw [show (constant (F := Ideal) ⟨0, ![]⟩ .f32 0x00000000#32) (Shape.Idx.first hS) = (0 : EReal) from Ideal.ofBits_zero_f32,
      zero_add]
    refine Finset.sum_congr rfl fun (k : Fin b) _ => ?_
    show Ideal.exp (z (h.lift (ix1 r) k) - _) = _
    rw [show h.lift (ix1 r) k = ix2 r k from funext fun d => Fin.ext (by match d with | ⟨0, _⟩ => rfl | ⟨1, _⟩ => rfl),
      host_shift z h' h hS hz1 hc1 hc2 r k]

end Cert.GraphConv

end
-- ==== Proof.Region4.lean ====
/-
  Region 4 of the kernel program: the last GraphConv dense stage over [100000, 5] inputs followed by a softmax along each
  row of 2 entries, tiled in ten blocks of 10000 rows. For ANY contents `V` of the buffers when the region is entered, the
  output array after the region is, at row `i` and column `j`, the softmax at `j` of row `i` of the layer
  (`GraphConv.layer`) of the operands as `V` holds them: a row of the output depends on the same row of the two row-blocked
  inputs and on the whole of the small operands, and the ten blocks cover the array.
-/
import proofs.«110816_j592705487394_1_alg».proof.Proof.Gen.KernelIdeal.Frame
import proofs.«110816_j592705487394_1_alg».proof.Proof.DenseLayer
import proofs.«110816_j592705487394_1_alg».proof.Proof.Softmax
import Idealize.ShloMosaic.Lib.Pipeline.Value
import Idealize.ShloMosaic.Lib.ValueIdx

set_option maxRecDepth 16384

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an entry of its block: the softmax of the block's row of dense entries. -/
theorem pay_apply (v0 v3 : Vec Ideal S10000x5 .f32) (v6 v8 : Vec Ideal S5x2 .f32) (v13 : Vec Ideal S1x2 .f32)
    (r : Fin 10000) (q : Fin 2) :
    k4_pay1 v0 v3 v6 v8 v13 (ix2 r q)
      = GraphConv.softmaxEntry (fun j => GraphConv.entry v0 v3 v6 v8 (fun j => v13 (ix2 (0 : Fin 1) j)) r j) q := by
  unfold k4_pay1
  simp only [shapeCast_self]
  refine (GraphConv.kernel_softmax _ reduces_S10000x2_S10000 (.inl rfl) rfl rfl shapeCasts_S10000_S10000x1
    broadcasts_S10000x1_S10000x2 r q).trans ?_
  exact congrArg (fun z => GraphConv.softmaxEntry z q) (funext fun j =>
    GraphConv.kernel_entry dot_S10000x5_S5x2_S10000x2_1_0_0_1_n_n rfl rfl rfl rfl rfl rfl _ _ v0 v3 v6 v8 v13 r j)

/-- The index maps over the ten grid points: the two row-blocked inputs move with the output's row block, the weights
    and the bias stay at block 0, and every window's column block is 0. -/
theorem idx_facts : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (1 : Fin 2) = 0 ∧ win4_5.index t (0 : Fin 2) ≤ 9 :=
  (by decide +kernel : ∀ t : Fin grid4.N, _)

/-- Every row block of the output is some grid point's. -/
theorem idx_onto : ∀ q0 : Fin 10, ∃ t : Fin cfg4.N, win4_5.index t = ![q0.val, 0] :=
  (by decide +kernel : ∀ q0 : Fin 10, ∃ t : Fin grid4.N, win4_5.index t = ![q0.val, 0])

/-- Row `r` of the aggregated block at point `t` is row `10000·t + r` of the aggregated array (the row the output's
    block puts `r` at). -/
theorem read_agg (c : Dev nD) (t : Fin cfg4.N) (r : Fin 10000) (q : Fin 2) (kk : Fin 5) :
    iblk4 V c 0 t (ix2 r kk) = V c main_v76 (ix2 ((((cfg4.win 5).blk t).view.emb (ix2 r q)) 0) kk) := by
  obtain ⟨e0, e1, e2, e3, e4, e5, e6, e7, e8, e9, e10, e11⟩ := idx_facts t
  show V c main_v76 (((cfg4.win 0).blk t).view.emb (ix2 r kk)) = _
  refine congrArg (V c main_v76) (funext fun a => Fin.ext ?_)
  match a with
  | ⟨0, _⟩ => show win4_0.index t (0 : Fin 2) * 10000 + 1 * r.val = win4_5.index t (0 : Fin 2) * 10000 + 1 * r.val; omega
  | ⟨1, _⟩ => show win4_0.index t (1 : Fin 2) * 5 + 1 * kk.val = kk.val; omega

/-- The same for the node-feature block. -/
theorem read_x (c : Dev nD) (t : Fin cfg4.N) (r : Fin 10000) (q : Fin 2) (kk : Fin 5) :
    iblk4 V c 1 t (ix2 r kk) = V c main_v63 (ix2 ((((cfg4.win 5).blk t).view.emb (ix2 r q)) 0) kk) := by
  obtain ⟨e0, e1, e2, e3, e4, e5, e6, e7, e8, e9, e10, e11⟩ := idx_facts t
  show V c main_v63 (((cfg4.win 1).blk t).view.emb (ix2 r kk)) = _
  refine congrArg (V c main_v63) (funext fun a => Fin.ext ?_)
  match a with
  | ⟨0, _⟩ => show win4_1.index t (0 : Fin 2) * 10000 + 1 * r.val = win4_5.index t (0 : Fin 2) * 10000 + 1 * r.val; omega
  | ⟨1, _⟩ => show win4_1.index t (1 : Fin 2) * 5 + 1 * kk.val = kk.val; omega

/-- The relation weights' block is the whole matrix. -/
theorem read_wr (c : Dev nD) (t : Fin cfg4.N) (j : Fin 2) (kk : Fin 5) :
    iblk4 V c 2 t (ix2 kk j) = V c main_arg15 (ix2 kk j) := by
  obtain ⟨e0, e1, e2, e3, e4, e5, e6, e7, e8, e9, e10, e11⟩ := idx_facts t
  show V c main_arg15 (((cfg4.win 2).blk t).view.emb (ix2 kk j)) = _
  refine congrArg (V c main_arg15) (funext fun a => Fin.ext ?_)
  match a with
  | ⟨0, _⟩ => show win4_2.index t (0 : Fin 2) * 5 + 1 * kk.val = kk.val; omega
  | ⟨1, _⟩ => show win4_2.index t (1 : Fin 2) * 2 + 1 * j.val = j.val; omega

/-- The same for the root weights. -/
theorem read_wo (c : Dev nD) (t : Fin cfg4.N) (j : Fin 2) (kk : Fin 5) :
    iblk4 V c 4 t (ix2 kk j) = V c main_arg17 (ix2 kk j) := by
  obtain ⟨e0, e1, e2, e3, e4, e5, e6, e7, e8, e9, e10, e11⟩ := idx_facts t
  show V c main_arg17 (((cfg4.win 4).blk t).view.emb (ix2 kk j)) = _
  refine congrArg (V c main_arg17) (funext fun a => Fin.ext ?_)
  match a with
  | ⟨0, _⟩ => show win4_4.index t (0 : Fin 2) * 5 + 1 * kk.val = kk.val; omega
  | ⟨1, _⟩ => show win4_4.index t (1 : Fin 2) * 2 + 1 * j.val = j.val; omega

/-- The bias block is the whole unit row. -/
theorem read_b (c : Dev nD) (t : Fin cfg4.N) (j : Fin 2) :
    iblk4 V c 3 t (ix2 (0 : Fin 1) j) = V c main_v77 (ix2 (0 : Fin 1) j) := by
  obtain ⟨e0, e1, e2, e3, e4, e5, e6, e7, e8, e9, e10, e11⟩ := idx_facts t
  show V c main_v77 (((cfg4.win 3).blk t).view.emb (ix2 (0 : Fin 1) j)) = _
  refine congrArg (V c main_v77) (funext fun a => Fin.ext ?_)
  match a with
  | ⟨0, _⟩ => show win4_3.index t (0 : Fin 2) * 1 + 1 * 0 = 0; omega
  | ⟨1, _⟩ => show win4_3.index t (1 : Fin 2) * 2 + 1 * j.val = j.val; omega

/-- The output block's columns are the array's. -/
theorem col_eq (t : Fin cfg4.N) (r : Fin 10000) (q : Fin 2) :
    (((cfg4.win 5).blk t).view.emb (ix2 r q)) 1 = q := by
  obtain ⟨e0, e1, e2, e3, e4, e5, e6, e7, e8, e9, e10, e11⟩ := idx_facts t
  refine Fin.ext ?_
  show win4_5.index t (1 : Fin 2) * 2 + 1 * q.val = q.val
  omega

/-- The softmax of the layer's rows, as a function of the region's entry contents. -/
abbrev G (c : Dev nD) : S100000x2.Idx → EReal := fun i =>
  GraphConv.softmaxEntry (fun j => GraphConv.entry (M := 100000) (K := 5) (N := 2) (V c main_v76) (V c main_v63) (V c main_arg15) (V c main_arg17)
    (fun j => V c main_v77 (ix2 (0 : Fin 1) j)) (i 0) j) (i 1)

/-- What point `t` writes back is block `t` of that function. -/
theorem flushed_eq (c : Dev nD) (t : Fin cfg4.N) :
    (dat4 V c).flushed 5 t = ((cfg4.win 5).blk t).view.read (Elt Ideal) (G V c) := by
  show (cfg4.win 5).cut (grid4.coords t) ((dat4 V c).after 5 t) = _
  rw [after4_5]
  unfold out4_5
  rw [View.canon_unit_zero hz]
  simp only [View.ld_unit_zero (S := S10000x5) hz, View.ld_unit_zero (S := S5x2) hz, View.ld_unit_zero (S := S1x2) hz]
  funext j
  obtain ⟨r, q, rfl⟩ : ∃ (r : Fin 10000) (q : Fin 2), j = ix2 r q := ⟨j 0, j 1, eq_ix2 j⟩
  refine (pay_apply (iblk4 V c 0 t) (iblk4 V c 1 t) (iblk4 V c 2 t) (iblk4 V c 4 t) (iblk4 V c 3 t) r q).trans ?_
  show _ = GraphConv.softmaxEntry _ ((((cfg4.win 5).blk t).view.emb (ix2 r q)) 1)
  rw [col_eq t r q]
  exact congrArg (fun z => GraphConv.softmaxEntry z q) (funext fun j =>
    GraphConv.entry_congr _ _ _ _ _ _ _ _ _ _ _ _ _ _
      (fun kk => read_agg V c t r q kk) (fun kk => read_x V c t r q kk)
      (fun kk => read_wr V c t j kk) (fun kk => read_wo V c t j kk) (read_b V c t j))

/-- An index of the output array is in point `t`'s block iff each coordinate is in the block's range on its axis. -/
theorem mem_blk (t : Fin cfg4.N) (i : S100000x2.Idx) :
    i ∈ ((cfg4.win 5).blk t).view.set ↔ ∀ a : Fin 2, win4_5.index t a * S10000x2.size a ≤ (i a).val ∧ (i a).val < win4_5.index t a * S10000x2.size a + S10000x2.size a := by
  show i ∈ ((View.whole main_v78).slice (win4_5.rect t)).set ↔ _
  rw [View.set_slice_whole, Rect.mem_set_unit]
  exact Iff.rfl

/-- The ten row blocks cover the output array: row `i` lies in block `i / 10000`. -/
theorem cover (i : S100000x2.Idx) :
    ∃ t : Fin cfg4.N, (cfg4.win 5).flush t = true ∧ i ∈ ((cfg4.win 5).blk t).view.set := by
  have hi0 : (i 0).val < 100000 := (i 0).isLt
  have hi1 : (i 1).val < 2 := (i 1).isLt
  obtain ⟨t, ht⟩ := idx_onto ⟨(i 0).val / 10000, by omega⟩
  have q0 : win4_5.index t (0 : Fin 2) = (i 0).val / 10000 := congrFun ht 0
  have q1 : win4_5.index t (1 : Fin 2) = 0 := congrFun ht 1
  refine ⟨t, flush4_5 t, ?_⟩
  rw [mem_blk]
  intro a
  match a with
  | ⟨0, _⟩ => show win4_5.index t (0 : Fin 2) * 10000 ≤ (i 0).val ∧ (i 0).val < win4_5.index t (0 : Fin 2) * 10000 + 10000; omega
  | ⟨1, _⟩ => show win4_5.index t (1 : Fin 2) * 2 ≤ (i 1).val ∧ (i 1).val < win4_5.index t (1 : Fin 2) * 2 + 2; omega

/-- The output array after the region is the softmax of the layer of the region's entry contents. -/
theorem final (c : Dev nD) : (dat4 V c).arrAt 5 cfg4.N = G V c :=
  (dat4 V c).arrAt_eq_of_cover 5 (G V c) (fun t _ => flushed_eq V c t) cover

end Cert.KernelIdeal.Region4

end
-- ==== Proof.Trace.lean ====
/-
  The kernel program's fold, read back: what each region finds in the buffers it stages, in terms of the launch memory and
  of the previous region's output. Between two regions a stretch of host operations gathers the previous output's rows along
  the edges, scales them by the edge weights and adds them at the target nodes (`aggTerm`), and lays the layer's bias vector
  along a unit row; every other buffer a later layer reads — the two index vectors cut from the edge list once, the edge
  weights, the later layers' weights and biases — is written by no operation and by no region, and keeps its contents.
-/
import proofs.«110816_j592705487394_1_alg».proof.Proof.Gen.KernelIdeal.Frame
import Idealize.ShloMosaic.Lib.StableHlo.Run

set_option maxRecDepth 16384

noncomputable section

namespace Cert.KernelIdeal.Trace

open Cert.KernelIdeal Cert.KernelIdeal.Gen Idealize.ShloMosaic Idealize.ShloMosaic.TcCoe Idealize.SL.Sem
open Idealize.ShloMosaic.StableHlo

variable {F : FTy → Type} [FloatOps F]

/-- The source nodes: row 0 of the edge list as a vector. -/
def srcTerm (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000
/-- The target nodes: row 1 of the edge list as a vector. -/
def dstTerm (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

/-- The aggregation stretch before region 0 as one function: the source index wrapped into range where negative, the rows of
    `x` gathered at it, each scaled by its edge weight, and the scaled rows added into the zero array at the target index. -/
def aggTerm0 (x : (⟨S100000x6, .f32⟩ : BufTy).Contents (Elt F)) (src dst : (⟨S3200000, .i32⟩ : BufTy).Contents (Elt F))
    (w : (⟨S3200000, .f32⟩ : BufTy).Contents (Elt F)) : (⟨S100000x6, .f32⟩ : BufTy).Contents (Elt F) :=
  Host.scatterAdd scatter_S100000x6_S3200000x1_S3200000x6_1_0_0_1
    (broadcastInDim S100000x6 ![] bcast_S_S100000x6 (constant S_ .f32 0x00000000#32))
    (broadcastInDim S3200000x1 ![0] bcast_S3200000_S3200000x1_0 dst)
    (mulf (Host.gather gather_S100000x6_S3200000x1_S3200000x6_1_0_n_n_0_1_16 x
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src)))
      (broadcastInDim S3200000x6 ![0, 1] bcast_S3200000x1_S3200000x6_0_1
        (broadcastInDim S3200000x1 ![0] bcast_S3200000_S3200000x1_0 w)))

/-- The aggregation stretch before region 1 as one function: the source index wrapped into range where negative, the rows of
    `x` gathered at it, each scaled by its edge weight, and the scaled rows added into the zero array at the target index. -/
def aggTerm1 (x : (⟨S100000x20, .f32⟩ : BufTy).Contents (Elt F)) (src dst : (⟨S3200000, .i32⟩ : BufTy).Contents (Elt F))
    (w : (⟨S3200000, .f32⟩ : BufTy).Contents (Elt F)) : (⟨S100000x20, .f32⟩ : BufTy).Contents (Elt F) :=
  Host.scatterAdd scatter_S100000x20_S3200000x1_S3200000x20_1_0_0_1
    (broadcastInDim S100000x20 ![] bcast_S_S100000x20 (constant S_ .f32 0x00000000#32))
    (broadcastInDim S3200000x1 ![0] bcast_S3200000_S3200000x1_0 dst)
    (mulf (Host.gather gather_S100000x20_S3200000x1_S3200000x20_1_0_n_n_0_1_120 x
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src)))
      (broadcastInDim S3200000x20 ![0, 1] bcast_S3200000x1_S3200000x20_0_1
        (broadcastInDim S3200000x1 ![0] bcast_S3200000_S3200000x1_0 w)))

/-- The aggregation stretch before region 2 as one function: the source index wrapped into range where negative, the rows of
    `x` gathered at it, each scaled by its edge weight, and the scaled rows added into the zero array at the target index. -/
def aggTerm2 (x : (⟨S100000x15, .f32⟩ : BufTy).Contents (Elt F)) (src dst : (⟨S3200000, .i32⟩ : BufTy).Contents (Elt F))
    (w : (⟨S3200000, .f32⟩ : BufTy).Contents (Elt F)) : (⟨S100000x15, .f32⟩ : BufTy).Contents (Elt F) :=
  Host.scatterAdd scatter_S100000x15_S3200000x1_S3200000x15_1_0_0_1
    (broadcastInDim S100000x15 ![] bcast_S_S100000x15 (constant S_ .f32 0x00000000#32))
    (broadcastInDim S3200000x1 ![0] bcast_S3200000_S3200000x1_0 dst)
    (mulf (Host.gather gather_S100000x15_S3200000x1_S3200000x15_1_0_n_n_0_1_115 x
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src)))
      (broadcastInDim S3200000x15 ![0, 1] bcast_S3200000x1_S3200000x15_0_1
        (broadcastInDim S3200000x1 ![0] bcast_S3200000_S3200000x1_0 w)))

/-- The aggregation stretch before region 3 as one function: the source index wrapped into range where negative, the rows of
    `x` gathered at it, each scaled by its edge weight, and the scaled rows added into the zero array at the target index. -/
def aggTerm3 (x : (⟨S100000x10, .f32⟩ : BufTy).Contents (Elt F)) (src dst : (⟨S3200000, .i32⟩ : BufTy).Contents (Elt F))
    (w : (⟨S3200000, .f32⟩ : BufTy).Contents (Elt F)) : (⟨S100000x10, .f32⟩ : BufTy).Contents (Elt F) :=
  Host.scatterAdd scatter_S100000x10_S3200000x1_S3200000x10_1_0_0_1
    (broadcastInDim S100000x10 ![] bcast_S_S100000x10 (constant S_ .f32 0x00000000#32))
    (broadcastInDim S3200000x1 ![0] bcast_S3200000_S3200000x1_0 dst)
    (mulf (Host.gather gather_S100000x10_S3200000x1_S3200000x10_1_0_n_n_0_1_110 x
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src)))
      (broadcastInDim S3200000x10 ![0, 1] bcast_S3200000x1_S3200000x10_0_1
        (broadcastInDim S3200000x1 ![0] bcast_S3200000_S3200000x1_0 w)))

/-- The aggregation stretch before region 4 as one function: the source index wrapped into range where negative, the rows of
    `x` gathered at it, each scaled by its edge weight, and the scaled rows added into the zero array at the target index. -/
def aggTerm4 (x : (⟨S100000x5, .f32⟩ : BufTy).Contents (Elt F)) (src dst : (⟨S3200000, .i32⟩ : BufTy).Contents (Elt F))
    (w : (⟨S3200000, .f32⟩ : BufTy).Contents (Elt F)) : (⟨S100000x5, .f32⟩ : BufTy).Contents (Elt F) :=
  Host.scatterAdd scatter_S100000x5_S3200000x1_S3200000x5_1_0_0_1
    (broadcastInDim S100000x5 ![] bcast_S_S100000x5 (constant S_ .f32 0x00000000#32))
    (broadcastInDim S3200000x1 ![0] bcast_S3200000_S3200000x1_0 dst)
    (mulf (Host.gather gather_S100000x5_S3200000x1_S3200000x5_1_0_n_n_0_1_15 x
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src)))
      (broadcastInDim S3200000x5 ![0, 1] bcast_S3200000x1_S3200000x5_0_1
        (broadcastInDim S3200000x1 ![0] bcast_S3200000_S3200000x1_0 w)))

/-- A buffer no operation of a stretch writes keeps its contents through the stretch. -/
macro "kept_host" : tactic =>
  `(tactic| (refine StableHlo.after_of_forall_not_mem _ _ (List.forall_iff_forall_mem.mp ?_)
             simp only [hostOps0, hostOps1, hostOps2, hostOps3, hostOps4, List.Forall, StableHlo.nullary_writes,
               StableHlo.unary_writes, StableHlo.binary_writes, StableHlo.ternary_writes, StableHlo.reshape_writes,
               Finset.mem_singleton]
             repeat' apply And.intro
             all_goals exact StableHlo.devRef_ne_of_ne (by decide)))

variable (m : (ℓ : Loc nD τ sig) → Buf (Elt F) ℓ) (ρ : Dev nD → PrngReg) (c : Dev nD)

/-! ## What region 0 finds -/

set_option maxHeartbeats 8400000 in
theorem e0_agg : W1 m ρ c (Proc.devRef .tc main_v16) = aggTerm0 (m ((c : Thread nD τ).loc main_arg0)) (srcTerm (m ((c : Thread nD τ).loc main_arg1))) (dstTerm (m ((c : Thread nD τ).loc main_arg1))) (m ((c : Thread nD τ).loc main_arg2)) := by
  unfold aggTerm0 srcTerm dstTerm
  show StableHlo.after hostOps0 (W0 m ρ c) (Proc.devRef .tc main_v16) = _
  after_results <;> rfl
theorem e0_b : W1 m ρ c (Proc.devRef .tc main_v17) = shapeCast _ (m ((c : Thread nD τ).loc main_arg4)) shapeCasts_S20_S1x20 := by
  show StableHlo.after hostOps0 (W0 m ρ c) (Proc.devRef .tc main_v17) = _
  after_results
  rfl
theorem e0_x : W1 m ρ c (Proc.devRef .tc main_arg0) = m ((c : Thread nD τ).loc main_arg0) := by
  show StableHlo.after hostOps0 (W0 m ρ c) (Proc.devRef .tc main_arg0) = W0 m ρ c (Proc.devRef .tc main_arg0)
  kept_host
theorem e0_wr : W1 m ρ c (Proc.devRef .tc main_arg3) = m ((c : Thread nD τ).loc main_arg3) := by
  show StableHlo.after hostOps0 (W0 m ρ c) (Proc.devRef .tc main_arg3) = W0 m ρ c (Proc.devRef .tc main_arg3)
  kept_host
theorem e0_wo : W1 m ρ c (Proc.devRef .tc main_arg5) = m ((c : Thread nD τ).loc main_arg5) := by
  show StableHlo.after hostOps0 (W0 m ρ c) (Proc.devRef .tc main_arg5) = W0 m ρ c (Proc.devRef .tc main_arg5)
  kept_host

/-! ## What survives region 0 -/

theorem C2_main_v1 : W2 m ρ c (Proc.devRef .tc main_v1) = srcTerm (m ((c : Thread nD τ).loc main_arg1)) := by
  refine (W2_of_ne m ρ c main_v1 (by decide)).trans ?_
  show StableHlo.after hostOps0 (W0 m ρ c) (Proc.devRef .tc main_v1) = _
  after_results
  rfl
theorem C2_main_v3 : W2 m ρ c (Proc.devRef .tc main_v3) = dstTerm (m ((c : Thread nD τ).loc main_arg1)) := by
  refine (W2_of_ne m ρ c main_v3 (by decide)).trans ?_
  show StableHlo.after hostOps0 (W0 m ρ c) (Proc.devRef .tc main_v3) = _
  after_results
  rfl
theorem C2_main_arg2 : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = W0 m ρ c (Proc.devRef .tc main_arg2)
  kept_host
theorem C2_main_arg6 : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = W0 m ρ c (Proc.devRef .tc main_arg6)
  kept_host
theorem C2_main_arg7 : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = W0 m ρ c (Proc.devRef .tc main_arg7)
  kept_host
theorem C2_main_arg8 : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = W0 m ρ c (Proc.devRef .tc main_arg8)
  kept_host
theorem C2_main_arg9 : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = W0 m ρ c (Proc.devRef .tc main_arg9)
  kept_host
theorem C2_main_arg10 : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = W0 m ρ c (Proc.devRef .tc main_arg10)
  kept_host
theorem C2_main_arg11 : W2 m ρ c (Proc.devRef .tc main_arg11) = m ((c : Thread nD τ).loc main_arg11) := by
  refine (W2_of_ne m ρ c main_arg11 (by decide)).trans ?_
  show StableHlo.after hostOps0 (W0 m ρ c) (Proc.devRef .tc main_arg11) = W0 m ρ c (Proc.devRef .tc main_arg11)
  kept_host
theorem C2_main_arg12 : W2 m ρ c (Proc.devRef .tc main_arg12) = m ((c : Thread nD τ).loc main_arg12) := by
  refine (W2_of_ne m ρ c main_arg12 (by decide)).trans ?_
  show StableHlo.after hostOps0 (W0 m ρ c) (Proc.devRef .tc main_arg12) = W0 m ρ c (Proc.devRef .tc main_arg12)
  kept_host
theorem C2_main_arg13 : W2 m ρ c (Proc.devRef .tc main_arg13) = m ((c : Thread nD τ).loc main_arg13) := by
  refine (W2_of_ne m ρ c main_arg13 (by decide)).trans ?_
  show StableHlo.after hostOps0 (W0 m ρ c) (Proc.devRef .tc main_arg13) = W0 m ρ c (Proc.devRef .tc main_arg13)
  kept_host
theorem C2_main_arg14 : W2 m ρ c (Proc.devRef .tc main_arg14) = m ((c : Thread nD τ).loc main_arg14) := by
  refine (W2_of_ne m ρ c main_arg14 (by decide)).trans ?_
  show StableHlo.after hostOps0 (W0 m ρ c) (Proc.devRef .tc main_arg14) = W0 m ρ c (Proc.devRef .tc main_arg14)
  kept_host
theorem C2_main_arg15 : W2 m ρ c (Proc.devRef .tc main_arg15) = m ((c : Thread nD τ).loc main_arg15) := by
  refine (W2_of_ne m ρ c main_arg15 (by decide)).trans ?_
  show StableHlo.after hostOps0 (W0 m ρ c) (Proc.devRef .tc main_arg15) = W0 m ρ c (Proc.devRef .tc main_arg15)
  kept_host
theorem C2_main_arg16 : W2 m ρ c (Proc.devRef .tc main_arg16) = m ((c : Thread nD τ).loc main_arg16) := by
  refine (W2_of_ne m ρ c main_arg16 (by decide)).trans ?_
  show StableHlo.after hostOps0 (W0 m ρ c) (Proc.devRef .tc main_arg16) = W0 m ρ c (Proc.devRef .tc main_arg16)
  kept_host
theorem C2_main_arg17 : W2 m ρ c (Proc.devRef .tc main_arg17) = m ((c : Thread nD τ).loc main_arg17) := by
  refine (W2_of_ne m ρ c main_arg17 (by decide)).trans ?_
  show StableHlo.after hostOps0 (W0 m ρ c) (Proc.devRef .tc main_arg17) = W0 m ρ c (Proc.devRef .tc main_arg17)
  kept_host

/-! ## What region 1 finds -/

set_option maxHeartbeats 6800000 in
theorem e1_agg : W3 m ρ c (Proc.devRef .tc main_v31) = aggTerm1 (W2 m ρ c (Proc.devRef .tc main_v18)) (srcTerm (m ((c : Thread nD τ).loc main_arg1))) (dstTerm (m ((c : Thread nD τ).loc main_arg1))) (m ((c : Thread nD τ).loc main_arg2)) := by
  rw [← C2_main_v1 m ρ c, ← C2_main_v3 m ρ c, ← C2_main_arg2 m ρ c]
  unfold aggTerm1
  show StableHlo.after hostOps1 (W2 m ρ c) (Proc.devRef .tc main_v31) = _
  after_results <;> rfl
theorem e1_b : W3 m ρ c (Proc.devRef .tc main_v32) = shapeCast _ (m ((c : Thread nD τ).loc main_arg7)) shapeCasts_S15_S1x15 := by
  rw [← C2_main_arg7 m ρ c]
  show StableHlo.after hostOps1 (W2 m ρ c) (Proc.devRef .tc main_v32) = _
  after_results
  rfl
theorem e1_x : W3 m ρ c (Proc.devRef .tc main_v18) = W2 m ρ c (Proc.devRef .tc main_v18) := by
  show StableHlo.after hostOps1 (W2 m ρ c) (Proc.devRef .tc main_v18) = W2 m ρ c (Proc.devRef .tc main_v18)
  kept_host
theorem e1_wr : W3 m ρ c (Proc.devRef .tc main_arg6) = m ((c : Thread nD τ).loc main_arg6) := by
  refine Eq.trans ?_ (C2_main_arg6 m ρ c)
  show StableHlo.after hostOps1 (W2 m ρ c) (Proc.devRef .tc main_arg6) = W2 m ρ c (Proc.devRef .tc main_arg6)
  kept_host
theorem e1_wo : W3 m ρ c (Proc.devRef .tc main_arg8) = m ((c : Thread nD τ).loc main_arg8) := by
  refine Eq.trans ?_ (C2_main_arg8 m ρ c)
  show StableHlo.after hostOps1 (W2 m ρ c) (Proc.devRef .tc main_arg8) = W2 m ρ c (Proc.devRef .tc main_arg8)
  kept_host

/-! ## What survives region 1 -/

theorem C4_main_v1 : W4 m ρ c (Proc.devRef .tc main_v1) = srcTerm (m ((c : Thread nD τ).loc main_arg1)) := by
  refine ((W4_of_ne m ρ c main_v1 (by decide)).trans ?_).trans (C2_main_v1 m ρ c)
  show StableHlo.after hostOps1 (W2 m ρ c) (Proc.devRef .tc main_v1) = W2 m ρ c (Proc.devRef .tc main_v1)
  kept_host
theorem C4_main_v3 : W4 m ρ c (Proc.devRef .tc main_v3) = dstTerm (m ((c : Thread nD τ).loc main_arg1)) := by
  refine ((W4_of_ne m ρ c main_v3 (by decide)).trans ?_).trans (C2_main_v3 m ρ c)
  show StableHlo.after hostOps1 (W2 m ρ c) (Proc.devRef .tc main_v3) = W2 m ρ c (Proc.devRef .tc main_v3)
  kept_host
theorem C4_main_arg2 : W4 m ρ c (Proc.devRef .tc main_arg2) = m ((c : Thread nD τ).loc main_arg2) := by
  refine ((W4_of_ne m ρ c main_arg2 (by decide)).trans ?_).trans (C2_main_arg2 m ρ c)
  show StableHlo.after hostOps1 (W2 m ρ c) (Proc.devRef .tc main_arg2) = W2 m ρ c (Proc.devRef .tc main_arg2)
  kept_host
theorem C4_main_arg9 : W4 m ρ c (Proc.devRef .tc main_arg9) = m ((c : Thread nD τ).loc main_arg9) := by
  refine ((W4_of_ne m ρ c main_arg9 (by decide)).trans ?_).trans (C2_main_arg9 m ρ c)
  show StableHlo.after hostOps1 (W2 m ρ c) (Proc.devRef .tc main_arg9) = W2 m ρ c (Proc.devRef .tc main_arg9)
  kept_host
theorem C4_main_arg10 : W4 m ρ c (Proc.devRef .tc main_arg10) = m ((c : Thread nD τ).loc main_arg10) := by
  refine ((W4_of_ne m ρ c main_arg10 (by decide)).trans ?_).trans (C2_main_arg10 m ρ c)
  show StableHlo.after hostOps1 (W2 m ρ c) (Proc.devRef .tc main_arg10) = W2 m ρ c (Proc.devRef .tc main_arg10)
  kept_host
theorem C4_main_arg11 : W4 m ρ c (Proc.devRef .tc main_arg11) = m ((c : Thread nD τ).loc main_arg11) := by
  refine ((W4_of_ne m ρ c main_arg11 (by decide)).trans ?_).trans (C2_main_arg11 m ρ c)
  show StableHlo.after hostOps1 (W2 m ρ c) (Proc.devRef .tc main_arg11) = W2 m ρ c (Proc.devRef .tc main_arg11)
  kept_host
theorem C4_main_arg12 : W4 m ρ c (Proc.devRef .tc main_arg12) = m ((c : Thread nD τ).loc main_arg12) := by
  refine ((W4_of_ne m ρ c main_arg12 (by decide)).trans ?_).trans (C2_main_arg12 m ρ c)
  show StableHlo.after hostOps1 (W2 m ρ c) (Proc.devRef .tc main_arg12) = W2 m ρ c (Proc.devRef .tc main_arg12)
  kept_host
theorem C4_main_arg13 : W4 m ρ c (Proc.devRef .tc main_arg13) = m ((c : Thread nD τ).loc main_arg13) := by
  refine ((W4_of_ne m ρ c main_arg13 (by decide)).trans ?_).trans (C2_main_arg13 m ρ c)
  show StableHlo.after hostOps1 (W2 m ρ c) (Proc.devRef .tc main_arg13) = W2 m ρ c (Proc.devRef .tc main_arg13)
  kept_host
theorem C4_main_arg14 : W4 m ρ c (Proc.devRef .tc main_arg14) = m ((c : Thread nD τ).loc main_arg14) := by
  refine ((W4_of_ne m ρ c main_arg14 (by decide)).trans ?_).trans (C2_main_arg14 m ρ c)
  show StableHlo.after hostOps1 (W2 m ρ c) (Proc.devRef .tc main_arg14) = W2 m ρ c (Proc.devRef .tc main_arg14)
  kept_host
theorem C4_main_arg15 : W4 m ρ c (Proc.devRef .tc main_arg15) = m ((c : Thread nD τ).loc main_arg15) := by
  refine ((W4_of_ne m ρ c main_arg15 (by decide)).trans ?_).trans (C2_main_arg15 m ρ c)
  show StableHlo.after hostOps1 (W2 m ρ c) (Proc.devRef .tc main_arg15) = W2 m ρ c (Proc.devRef .tc main_arg15)
  kept_host
theorem C4_main_arg16 : W4 m ρ c (Proc.devRef .tc main_arg16) = m ((c : Thread nD τ).loc main_arg16) := by
  refine ((W4_of_ne m ρ c main_arg16 (by decide)).trans ?_).trans (C2_main_arg16 m ρ c)
  show StableHlo.after hostOps1 (W2 m ρ c) (Proc.devRef .tc main_arg16) = W2 m ρ c (Proc.devRef .tc main_arg16)
  kept_host
theorem C4_main_arg17 : W4 m ρ c (Proc.devRef .tc main_arg17) = m ((c : Thread nD τ).loc main_arg17) := by
  refine ((W4_of_ne m ρ c main_arg17 (by decide)).trans ?_).trans (C2_main_arg17 m ρ c)
  show StableHlo.after hostOps1 (W2 m ρ c) (Proc.devRef .tc main_arg17) = W2 m ρ c (Proc.devRef .tc main_arg17)
  kept_host

/-! ## What region 2 finds -/

set_option maxHeartbeats 6800000 in
theorem e2_agg : W5 m ρ c (Proc.devRef .tc main_v46) = aggTerm2 (W4 m ρ c (Proc.devRef .tc main_v33)) (srcTerm (m ((c : Thread nD τ).loc main_arg1))) (dstTerm (m ((c : Thread nD τ).loc main_arg1))) (m ((c : Thread nD τ).loc main_arg2)) := by
  rw [← C4_main_v1 m ρ c, ← C4_main_v3 m ρ c, ← C4_main_arg2 m ρ c]
  unfold aggTerm2
  show StableHlo.after hostOps2 (W4 m ρ c) (Proc.devRef .tc main_v46) = _
  after_results <;> rfl
theorem e2_b : W5 m ρ c (Proc.devRef .tc main_v47) = shapeCast _ (m ((c : Thread nD τ).loc main_arg10)) shapeCasts_S10_S1x10 := by
  rw [← C4_main_arg10 m ρ c]
  show StableHlo.after hostOps2 (W4 m ρ c) (Proc.devRef .tc main_v47) = _
  after_results
  rfl
theorem e2_x : W5 m ρ c (Proc.devRef .tc main_v33) = W4 m ρ c (Proc.devRef .tc main_v33) := by
  show StableHlo.after hostOps2 (W4 m ρ c) (Proc.devRef .tc main_v33) = W4 m ρ c (Proc.devRef .tc main_v33)
  kept_host
theorem e2_wr : W5 m ρ c (Proc.devRef .tc main_arg9) = m ((c : Thread nD τ).loc main_arg9) := by
  refine Eq.trans ?_ (C4_main_arg9 m ρ c)
  show StableHlo.after hostOps2 (W4 m ρ c) (Proc.devRef .tc main_arg9) = W4 m ρ c (Proc.devRef .tc main_arg9)
  kept_host
theorem e2_wo : W5 m ρ c (Proc.devRef .tc main_arg11) = m ((c : Thread nD τ).loc main_arg11) := by
  refine Eq.trans ?_ (C4_main_arg11 m ρ c)
  show StableHlo.after hostOps2 (W4 m ρ c) (Proc.devRef .tc main_arg11) = W4 m ρ c (Proc.devRef .tc main_arg11)
  kept_host

/-! ## What survives region 2 -/

theorem C6_main_v1 : W6 m ρ c (Proc.devRef .tc main_v1) = srcTerm (m ((c : Thread nD τ).loc main_arg1)) := by
  refine ((W6_of_ne m ρ c main_v1 (by decide)).trans ?_).trans (C4_main_v1 m ρ c)
  show StableHlo.after hostOps2 (W4 m ρ c) (Proc.devRef .tc main_v1) = W4 m ρ c (Proc.devRef .tc main_v1)
  kept_host
theorem C6_main_v3 : W6 m ρ c (Proc.devRef .tc main_v3) = dstTerm (m ((c : Thread nD τ).loc main_arg1)) := by
  refine ((W6_of_ne m ρ c main_v3 (by decide)).trans ?_).trans (C4_main_v3 m ρ c)
  show StableHlo.after hostOps2 (W4 m ρ c) (Proc.devRef .tc main_v3) = W4 m ρ c (Proc.devRef .tc main_v3)
  kept_host
theorem C6_main_arg2 : W6 m ρ c (Proc.devRef .tc main_arg2) = m ((c : Thread nD τ).loc main_arg2) := by
  refine ((W6_of_ne m ρ c main_arg2 (by decide)).trans ?_).trans (C4_main_arg2 m ρ c)
  show StableHlo.after hostOps2 (W4 m ρ c) (Proc.devRef .tc main_arg2) = W4 m ρ c (Proc.devRef .tc main_arg2)
  kept_host
theorem C6_main_arg12 : W6 m ρ c (Proc.devRef .tc main_arg12) = m ((c : Thread nD τ).loc main_arg12) := by
  refine ((W6_of_ne m ρ c main_arg12 (by decide)).trans ?_).trans (C4_main_arg12 m ρ c)
  show StableHlo.after hostOps2 (W4 m ρ c) (Proc.devRef .tc main_arg12) = W4 m ρ c (Proc.devRef .tc main_arg12)
  kept_host
theorem C6_main_arg13 : W6 m ρ c (Proc.devRef .tc main_arg13) = m ((c : Thread nD τ).loc main_arg13) := by
  refine ((W6_of_ne m ρ c main_arg13 (by decide)).trans ?_).trans (C4_main_arg13 m ρ c)
  show StableHlo.after hostOps2 (W4 m ρ c) (Proc.devRef .tc main_arg13) = W4 m ρ c (Proc.devRef .tc main_arg13)
  kept_host
theorem C6_main_arg14 : W6 m ρ c (Proc.devRef .tc main_arg14) = m ((c : Thread nD τ).loc main_arg14) := by
  refine ((W6_of_ne m ρ c main_arg14 (by decide)).trans ?_).trans (C4_main_arg14 m ρ c)
  show StableHlo.after hostOps2 (W4 m ρ c) (Proc.devRef .tc main_arg14) = W4 m ρ c (Proc.devRef .tc main_arg14)
  kept_host
theorem C6_main_arg15 : W6 m ρ c (Proc.devRef .tc main_arg15) = m ((c : Thread nD τ).loc main_arg15) := by
  refine ((W6_of_ne m ρ c main_arg15 (by decide)).trans ?_).trans (C4_main_arg15 m ρ c)
  show StableHlo.after hostOps2 (W4 m ρ c) (Proc.devRef .tc main_arg15) = W4 m ρ c (Proc.devRef .tc main_arg15)
  kept_host
theorem C6_main_arg16 : W6 m ρ c (Proc.devRef .tc main_arg16) = m ((c : Thread nD τ).loc main_arg16) := by
  refine ((W6_of_ne m ρ c main_arg16 (by decide)).trans ?_).trans (C4_main_arg16 m ρ c)
  show StableHlo.after hostOps2 (W4 m ρ c) (Proc.devRef .tc main_arg16) = W4 m ρ c (Proc.devRef .tc main_arg16)
  kept_host
theorem C6_main_arg17 : W6 m ρ c (Proc.devRef .tc main_arg17) = m ((c : Thread nD τ).loc main_arg17) := by
  refine ((W6_of_ne m ρ c main_arg17 (by decide)).trans ?_).trans (C4_main_arg17 m ρ c)
  show StableHlo.after hostOps2 (W4 m ρ c) (Proc.devRef .tc main_arg17) = W4 m ρ c (Proc.devRef .tc main_arg17)
  kept_host

/-! ## What region 3 finds -/

set_option maxHeartbeats 6800000 in
theorem e3_agg : W7 m ρ c (Proc.devRef .tc main_v61) = aggTerm3 (W6 m ρ c (Proc.devRef .tc main_v48)) (srcTerm (m ((c : Thread nD τ).loc main_arg1))) (dstTerm (m ((c : Thread nD τ).loc main_arg1))) (m ((c : Thread nD τ).loc main_arg2)) := by
  rw [← C6_main_v1 m ρ c, ← C6_main_v3 m ρ c, ← C6_main_arg2 m ρ c]
  unfold aggTerm3
  show StableHlo.after hostOps3 (W6 m ρ c) (Proc.devRef .tc main_v61) = _
  after_results <;> rfl
theorem e3_b : W7 m ρ c (Proc.devRef .tc main_v62) = shapeCast _ (m ((c : Thread nD τ).loc main_arg13)) shapeCasts_S5_S1x5 := by
  rw [← C6_main_arg13 m ρ c]
  show StableHlo.after hostOps3 (W6 m ρ c) (Proc.devRef .tc main_v62) = _
  after_results
  rfl
theorem e3_x : W7 m ρ c (Proc.devRef .tc main_v48) = W6 m ρ c (Proc.devRef .tc main_v48) := by
  show StableHlo.after hostOps3 (W6 m ρ c) (Proc.devRef .tc main_v48) = W6 m ρ c (Proc.devRef .tc main_v48)
  kept_host
theorem e3_wr : W7 m ρ c (Proc.devRef .tc main_arg12) = m ((c : Thread nD τ).loc main_arg12) := by
  refine Eq.trans ?_ (C6_main_arg12 m ρ c)
  show StableHlo.after hostOps3 (W6 m ρ c) (Proc.devRef .tc main_arg12) = W6 m ρ c (Proc.devRef .tc main_arg12)
  kept_host
theorem e3_wo : W7 m ρ c (Proc.devRef .tc main_arg14) = m ((c : Thread nD τ).loc main_arg14) := by
  refine Eq.trans ?_ (C6_main_arg14 m ρ c)
  show StableHlo.after hostOps3 (W6 m ρ c) (Proc.devRef .tc main_arg14) = W6 m ρ c (Proc.devRef .tc main_arg14)
  kept_host

/-! ## What survives region 3 -/

theorem C8_main_v1 : W8 m ρ c (Proc.devRef .tc main_v1) = srcTerm (m ((c : Thread nD τ).loc main_arg1)) := by
  refine ((W8_of_ne m ρ c main_v1 (by decide)).trans ?_).trans (C6_main_v1 m ρ c)
  show StableHlo.after hostOps3 (W6 m ρ c) (Proc.devRef .tc main_v1) = W6 m ρ c (Proc.devRef .tc main_v1)
  kept_host
theorem C8_main_v3 : W8 m ρ c (Proc.devRef .tc main_v3) = dstTerm (m ((c : Thread nD τ).loc main_arg1)) := by
  refine ((W8_of_ne m ρ c main_v3 (by decide)).trans ?_).trans (C6_main_v3 m ρ c)
  show StableHlo.after hostOps3 (W6 m ρ c) (Proc.devRef .tc main_v3) = W6 m ρ c (Proc.devRef .tc main_v3)
  kept_host
theorem C8_main_arg2 : W8 m ρ c (Proc.devRef .tc main_arg2) = m ((c : Thread nD τ).loc main_arg2) := by
  refine ((W8_of_ne m ρ c main_arg2 (by decide)).trans ?_).trans (C6_main_arg2 m ρ c)
  show StableHlo.after hostOps3 (W6 m ρ c) (Proc.devRef .tc main_arg2) = W6 m ρ c (Proc.devRef .tc main_arg2)
  kept_host
theorem C8_main_arg15 : W8 m ρ c (Proc.devRef .tc main_arg15) = m ((c : Thread nD τ).loc main_arg15) := by
  refine ((W8_of_ne m ρ c main_arg15 (by decide)).trans ?_).trans (C6_main_arg15 m ρ c)
  show StableHlo.after hostOps3 (W6 m ρ c) (Proc.devRef .tc main_arg15) = W6 m ρ c (Proc.devRef .tc main_arg15)
  kept_host
theorem C8_main_arg16 : W8 m ρ c (Proc.devRef .tc main_arg16) = m ((c : Thread nD τ).loc main_arg16) := by
  refine ((W8_of_ne m ρ c main_arg16 (by decide)).trans ?_).trans (C6_main_arg16 m ρ c)
  show StableHlo.after hostOps3 (W6 m ρ c) (Proc.devRef .tc main_arg16) = W6 m ρ c (Proc.devRef .tc main_arg16)
  kept_host
theorem C8_main_arg17 : W8 m ρ c (Proc.devRef .tc main_arg17) = m ((c : Thread nD τ).loc main_arg17) := by
  refine ((W8_of_ne m ρ c main_arg17 (by decide)).trans ?_).trans (C6_main_arg17 m ρ c)
  show StableHlo.after hostOps3 (W6 m ρ c) (Proc.devRef .tc main_arg17) = W6 m ρ c (Proc.devRef .tc main_arg17)
  kept_host

/-! ## What region 4 finds -/

set_option maxHeartbeats 6800000 in
theorem e4_agg : W9 m ρ c (Proc.devRef .tc main_v76) = aggTerm4 (W8 m ρ c (Proc.devRef .tc main_v63)) (srcTerm (m ((c : Thread nD τ).loc main_arg1))) (dstTerm (m ((c : Thread nD τ).loc main_arg1))) (m ((c : Thread nD τ).loc main_arg2)) := by
  rw [← C8_main_v1 m ρ c, ← C8_main_v3 m ρ c, ← C8_main_arg2 m ρ c]
  unfold aggTerm4
  show StableHlo.after hostOps4 (W8 m ρ c) (Proc.devRef .tc main_v76) = _
  after_results <;> rfl
theorem e4_b : W9 m ρ c (Proc.devRef .tc main_v77) = shapeCast _ (m ((c : Thread nD τ).loc main_arg16)) shapeCasts_S2_S1x2 := by
  rw [← C8_main_arg16 m ρ c]
  show StableHlo.after hostOps4 (W8 m ρ c) (Proc.devRef .tc main_v77) = _
  after_results
  rfl
theorem e4_x : W9 m ρ c (Proc.devRef .tc main_v63) = W8 m ρ c (Proc.devRef .tc main_v63) := by
  show StableHlo.after hostOps4 (W8 m ρ c) (Proc.devRef .tc main_v63) = W8 m ρ c (Proc.devRef .tc main_v63)
  kept_host
theorem e4_wr : W9 m ρ c (Proc.devRef .tc main_arg15) = m ((c : Thread nD τ).loc main_arg15) := by
  refine Eq.trans ?_ (C8_main_arg15 m ρ c)
  show StableHlo.after hostOps4 (W8 m ρ c) (Proc.devRef .tc main_arg15) = W8 m ρ c (Proc.devRef .tc main_arg15)
  kept_host
theorem e4_wo : W9 m ρ c (Proc.devRef .tc main_arg17) = m ((c : Thread nD τ).loc main_arg17) := by
  refine Eq.trans ?_ (C8_main_arg17 m ρ c)
  show StableHlo.after hostOps4 (W8 m ρ c) (Proc.devRef .tc main_arg17) = W8 m ρ c (Proc.devRef .tc main_arg17)
  kept_host

end Cert.KernelIdeal.Trace

end
-- ==== Proof.Bridge.lean ====
/-
  The two programs' layers are one function. Layer by layer: the kernel program's aggregation stretch is, operation for
  operation, the reference's (the same gather, scaling and scatter-add of the same operands), so the aggregated arrays are
  equal; the dense stage then agrees entry by entry, the kernel adding the bias after the root term and the reference before
  it (`GraphConv.entry_regroup`), the kernel's bias row being the bias vector reshaped and the reference's the vector
  broadcast; and the final softmax is the same expression of a row of the last layer on both sides.
-/
import proofs.«110816_j592705487394_1_alg».proof.Proof.Gen.ReferenceIdeal.Read
import proofs.«110816_j592705487394_1_alg».proof.Proof.Trace
import proofs.«110816_j592705487394_1_alg».proof.Proof.DenseLayer
import proofs.«110816_j592705487394_1_alg».proof.Proof.Softmax

set_option maxRecDepth 16384

noncomputable section

namespace Cert.Bridge

open Idealize.ShloMosaic Idealize.ShloMosaic.ValueIdx Cert

variable (a0 : (⟨Cert.ReferenceIdeal.S100000x6, .f32⟩ : BufTy).Contents (Elt Ideal))
  (a1 : (⟨Cert.ReferenceIdeal.S2x3200000, .i32⟩ : BufTy).Contents (Elt Ideal))
  (a2 : (⟨Cert.ReferenceIdeal.S3200000, .f32⟩ : BufTy).Contents (Elt Ideal))
  (a3 : (⟨Cert.ReferenceIdeal.S6x20, .f32⟩ : BufTy).Contents (Elt Ideal))
  (a4 : (⟨Cert.ReferenceIdeal.S20, .f32⟩ : BufTy).Contents (Elt Ideal))
  (a5 : (⟨Cert.ReferenceIdeal.S6x20, .f32⟩ : BufTy).Contents (Elt Ideal))
  (a6 : (⟨Cert.ReferenceIdeal.S20x15, .f32⟩ : BufTy).Contents (Elt Ideal))
  (a7 : (⟨Cert.ReferenceIdeal.S15, .f32⟩ : BufTy).Contents (Elt Ideal))
  (a8 : (⟨Cert.ReferenceIdeal.S20x15, .f32⟩ : BufTy).Contents (Elt Ideal))
  (a9 : (⟨Cert.ReferenceIdeal.S15x10, .f32⟩ : BufTy).Contents (Elt Ideal))
  (a10 : (⟨Cert.ReferenceIdeal.S10, .f32⟩ : BufTy).Contents (Elt Ideal))
  (a11 : (⟨Cert.ReferenceIdeal.S15x10, .f32⟩ : BufTy).Contents (Elt Ideal))
  (a12 : (⟨Cert.ReferenceIdeal.S10x5, .f32⟩ : BufTy).Contents (Elt Ideal))
  (a13 : (⟨Cert.ReferenceIdeal.S5, .f32⟩ : BufTy).Contents (Elt Ideal))
  (a14 : (⟨Cert.ReferenceIdeal.S10x5, .f32⟩ : BufTy).Contents (Elt Ideal))
  (a15 : (⟨Cert.ReferenceIdeal.S5x2, .f32⟩ : BufTy).Contents (Elt Ideal))
  (a16 : (⟨Cert.ReferenceIdeal.S2, .f32⟩ : BufTy).Contents (Elt Ideal))
  (a17 : (⟨Cert.ReferenceIdeal.S5x2, .f32⟩ : BufTy).Contents (Elt Ideal))

/-! ## Layer 0 -/

/-- The aggregated array before layer 0: the kernel program's stretch is the reference's, operation for operation. -/
theorem agg0 : Cert.KernelIdeal.Trace.aggTerm0 (F := Ideal) (a0) (Cert.KernelIdeal.Trace.srcTerm a1) (Cert.KernelIdeal.Trace.dstTerm a1) a2 = Cert.ReferenceIdeal.Read.val_main_v16 a0 a1 a2 := rfl

/-- Layer 0 at an entry. -/
theorem entry0 (r : Fin 100000) (q : Fin 20) :
    GraphConv.entry (M := 100000) (K := 6) (N := 20) (Cert.KernelIdeal.Trace.aggTerm0 (F := Ideal) (a0) (Cert.KernelIdeal.Trace.srcTerm a1) (Cert.KernelIdeal.Trace.dstTerm a1) a2) (a0) a3 a5 (fun q => shapeCast _ a4 Cert.KernelIdeal.Gen.shapeCasts_S20_S1x20 (ix2 (0 : Fin 1) q)) r q = Cert.ReferenceIdeal.Read.val_main_v23 a0 a1 a2 a3 a4 a5 (ix2 r q) := by
  refine Eq.trans ?_ (show GraphConv.entry (M := 100000) (K := 6) (N := 20) (Cert.ReferenceIdeal.Read.val_main_v16 a0 a1 a2) (a0) a3 a5 (fun q => a4 (ix1 q)) r q
      = Cert.ReferenceIdeal.Read.val_main_v23 a0 a1 a2 a3 a4 a5 (ix2 r q) from ?_)
  · exact GraphConv.entry_congr _ _ _ _ _ _ _ _ _ _ _ _ _ _
      (fun k => congrFun (agg0 a0 a1 a2) (ix2 r k)) (fun _ => rfl) (fun _ => rfl) (fun _ => rfl)
      (shapeCast_a_1a_apply a4 _ (0 : Fin 1) q)
  · unfold Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_v18 Cert.ReferenceIdeal.Read.val_main_v17 Cert.ReferenceIdeal.Read.val_main_call0_v0 Cert.ReferenceIdeal.Read.val_main_call0_cst
    exact (GraphConv.host_entry Cert.ReferenceIdeal.dot_S100000x6_S6x20_S100000x20_1_0_0_1_n_n rfl rfl rfl rfl rfl rfl
      Cert.ReferenceIdeal.Gen.bcast_S20_S1x20_1 Cert.ReferenceIdeal.Gen.bcast_S1x20_S100000x20_0_1 Cert.ReferenceIdeal.Gen.bcast_S_S100000x20 _ _ a3 a5 a4 r q).symm

/-- Layer 0 as an array. -/
theorem layer0 : GraphConv.layer (M := 100000) (K := 6) (N := 20) (Cert.KernelIdeal.Trace.aggTerm0 (F := Ideal) (a0) (Cert.KernelIdeal.Trace.srcTerm a1) (Cert.KernelIdeal.Trace.dstTerm a1) a2) (a0) a3 a5 (fun q => shapeCast _ a4 Cert.KernelIdeal.Gen.shapeCasts_S20_S1x20 (ix2 (0 : Fin 1) q))
    = Cert.ReferenceIdeal.Read.val_main_v23 a0 a1 a2 a3 a4 a5 := by
  funext i
  obtain ⟨r, q, rfl⟩ : ∃ (r : Fin 100000) (q : Fin 20), i = ix2 r q := ⟨i 0, i 1, eq_ix2 i⟩
  exact entry0 a0 a1 a2 a3 a4 a5 r q

/-! ## Layer 1 -/

/-- The aggregated array before layer 1: the kernel program's stretch is the reference's, operation for operation. -/
theorem agg1 : Cert.KernelIdeal.Trace.aggTerm1 (F := Ideal) (Cert.ReferenceIdeal.Read.val_main_v23 a0 a1 a2 a3 a4 a5) (Cert.KernelIdeal.Trace.srcTerm a1) (Cert.KernelIdeal.Trace.dstTerm a1) a2 = Cert.ReferenceIdeal.Read.val_main_v36 a0 a1 a2 a3 a4 a5 := rfl

/-- Layer 1 at an entry. -/
theorem entry1 (r : Fin 100000) (q : Fin 15) :
    GraphConv.entry (M := 100000) (K := 20) (N := 15) (Cert.KernelIdeal.Trace.aggTerm1 (F := Ideal) (Cert.ReferenceIdeal.Read.val_main_v23 a0 a1 a2 a3 a4 a5) (Cert.KernelIdeal.Trace.srcTerm a1) (Cert.KernelIdeal.Trace.dstTerm a1) a2) (Cert.ReferenceIdeal.Read.val_main_v23 a0 a1 a2 a3 a4 a5) a6 a8 (fun q => shapeCast _ a7 Cert.KernelIdeal.Gen.shapeCasts_S15_S1x15 (ix2 (0 : Fin 1) q)) r q = Cert.ReferenceIdeal.Read.val_main_v43 a0 a1 a2 a3 a4 a5 a6 a7 a8 (ix2 r q) := by
  refine Eq.trans ?_ (show GraphConv.entry (M := 100000) (K := 20) (N := 15) (Cert.ReferenceIdeal.Read.val_main_v36 a0 a1 a2 a3 a4 a5) (Cert.ReferenceIdeal.Read.val_main_v23 a0 a1 a2 a3 a4 a5) a6 a8 (fun q => a7 (ix1 q)) r q
      = Cert.ReferenceIdeal.Read.val_main_v43 a0 a1 a2 a3 a4 a5 a6 a7 a8 (ix2 r q) from ?_)
  · exact GraphConv.entry_congr _ _ _ _ _ _ _ _ _ _ _ _ _ _
      (fun k => congrFun (agg1 a0 a1 a2 a3 a4 a5) (ix2 r k)) (fun _ => rfl) (fun _ => rfl) (fun _ => rfl)
      (shapeCast_a_1a_apply a7 _ (0 : Fin 1) q)
  · unfold Cert.ReferenceIdeal.Read.val_main_v43 Cert.ReferenceIdeal.Read.val_main_v42 Cert.ReferenceIdeal.Read.val_main_v41 Cert.ReferenceIdeal.Read.val_main_v40 Cert.ReferenceIdeal.Read.val_main_v39 Cert.ReferenceIdeal.Read.val_main_v38 Cert.ReferenceIdeal.Read.val_main_v37 Cert.ReferenceIdeal.Read.val_main_call1_v0 Cert.ReferenceIdeal.Read.val_main_call1_cst
    exact (GraphConv.host_entry Cert.ReferenceIdeal.dot_S100000x20_S20x15_S100000x15_1_0_0_1_n_n rfl rfl rfl rfl rfl rfl
      Cert.ReferenceIdeal.Gen.bcast_S15_S1x15_1 Cert.ReferenceIdeal.Gen.bcast_S1x15_S100000x15_0_1 Cert.ReferenceIdeal.Gen.bcast_S_S100000x15 _ _ a6 a8 a7 r q).symm

/-- Layer 1 as an array. -/
theorem layer1 : GraphConv.layer (M := 100000) (K := 20) (N := 15) (Cert.KernelIdeal.Trace.aggTerm1 (F := Ideal) (Cert.ReferenceIdeal.Read.val_main_v23 a0 a1 a2 a3 a4 a5) (Cert.KernelIdeal.Trace.srcTerm a1) (Cert.KernelIdeal.Trace.dstTerm a1) a2) (Cert.ReferenceIdeal.Read.val_main_v23 a0 a1 a2 a3 a4 a5) a6 a8 (fun q => shapeCast _ a7 Cert.KernelIdeal.Gen.shapeCasts_S15_S1x15 (ix2 (0 : Fin 1) q))
    = Cert.ReferenceIdeal.Read.val_main_v43 a0 a1 a2 a3 a4 a5 a6 a7 a8 := by
  funext i
  obtain ⟨r, q, rfl⟩ : ∃ (r : Fin 100000) (q : Fin 15), i = ix2 r q := ⟨i 0, i 1, eq_ix2 i⟩
  exact entry1 a0 a1 a2 a3 a4 a5 a6 a7 a8 r q

/-! ## Layer 2 -/

/-- The aggregated array before layer 2: the kernel program's stretch is the reference's, operation for operation. -/
theorem agg2 : Cert.KernelIdeal.Trace.aggTerm2 (F := Ideal) (Cert.ReferenceIdeal.Read.val_main_v43 a0 a1 a2 a3 a4 a5 a6 a7 a8) (Cert.KernelIdeal.Trace.srcTerm a1) (Cert.KernelIdeal.Trace.dstTerm a1) a2 = Cert.ReferenceIdeal.Read.val_main_v56 a0 a1 a2 a3 a4 a5 a6 a7 a8 := rfl

/-- Layer 2 at an entry. -/
theorem entry2 (r : Fin 100000) (q : Fin 10) :
    GraphConv.entry (M := 100000) (K := 15) (N := 10) (Cert.KernelIdeal.Trace.aggTerm2 (F := Ideal) (Cert.ReferenceIdeal.Read.val_main_v43 a0 a1 a2 a3 a4 a5 a6 a7 a8) (Cert.KernelIdeal.Trace.srcTerm a1) (Cert.KernelIdeal.Trace.dstTerm a1) a2) (Cert.ReferenceIdeal.Read.val_main_v43 a0 a1 a2 a3 a4 a5 a6 a7 a8) a9 a11 (fun q => shapeCast _ a10 Cert.KernelIdeal.Gen.shapeCasts_S10_S1x10 (ix2 (0 : Fin 1) q)) r q = Cert.ReferenceIdeal.Read.val_main_v63 a0 a1 a2 a3 a4 a5 a6 a7 a8 a9 a10 a11 (ix2 r q) := by
  refine Eq.trans ?_ (show GraphConv.entry (M := 100000) (K := 15) (N := 10) (Cert.ReferenceIdeal.Read.val_main_v56 a0 a1 a2 a3 a4 a5 a6 a7 a8) (Cert.ReferenceIdeal.Read.val_main_v43 a0 a1 a2 a3 a4 a5 a6 a7 a8) a9 a11 (fun q => a10 (ix1 q)) r q
      = Cert.ReferenceIdeal.Read.val_main_v63 a0 a1 a2 a3 a4 a5 a6 a7 a8 a9 a10 a11 (ix2 r q) from ?_)
  · exact GraphConv.entry_congr _ _ _ _ _ _ _ _ _ _ _ _ _ _
      (fun k => congrFun (agg2 a0 a1 a2 a3 a4 a5 a6 a7 a8) (ix2 r k)) (fun _ => rfl) (fun _ => rfl) (fun _ => rfl)
      (shapeCast_a_1a_apply a10 _ (0 : Fin 1) q)
  · unfold Cert.ReferenceIdeal.Read.val_main_v63 Cert.ReferenceIdeal.Read.val_main_v62 Cert.ReferenceIdeal.Read.val_main_v61 Cert.ReferenceIdeal.Read.val_main_v60 Cert.ReferenceIdeal.Read.val_main_v59 Cert.ReferenceIdeal.Read.val_main_v58 Cert.ReferenceIdeal.Read.val_main_v57 Cert.ReferenceIdeal.Read.val_main_call2_v0 Cert.ReferenceIdeal.Read.val_main_call2_cst
    exact (GraphConv.host_entry Cert.ReferenceIdeal.dot_S100000x15_S15x10_S100000x10_1_0_0_1_n_n rfl rfl rfl rfl rfl rfl
      Cert.ReferenceIdeal.Gen.bcast_S10_S1x10_1 Cert.ReferenceIdeal.Gen.bcast_S1x10_S100000x10_0_1 Cert.ReferenceIdeal.Gen.bcast_S_S100000x10 _ _ a9 a11 a10 r q).symm

/-- Layer 2 as an array. -/
theorem layer2 : GraphConv.layer (M := 100000) (K := 15) (N := 10) (Cert.KernelIdeal.Trace.aggTerm2 (F := Ideal) (Cert.ReferenceIdeal.Read.val_main_v43 a0 a1 a2 a3 a4 a5 a6 a7 a8) (Cert.KernelIdeal.Trace.srcTerm a1) (Cert.KernelIdeal.Trace.dstTerm a1) a2) (Cert.ReferenceIdeal.Read.val_main_v43 a0 a1 a2 a3 a4 a5 a6 a7 a8) a9 a11 (fun q => shapeCast _ a10 Cert.KernelIdeal.Gen.shapeCasts_S10_S1x10 (ix2 (0 : Fin 1) q))
    = Cert.ReferenceIdeal.Read.val_main_v63 a0 a1 a2 a3 a4 a5 a6 a7 a8 a9 a10 a11 := by
  funext i
  obtain ⟨r, q, rfl⟩ : ∃ (r : Fin 100000) (q : Fin 10), i = ix2 r q := ⟨i 0, i 1, eq_ix2 i⟩
  exact entry2 a0 a1 a2 a3 a4 a5 a6 a7 a8 a9 a10 a11 r q

/-! ## Layer 3 -/

/-- The aggregated array before layer 3: the kernel program's stretch is the reference's, operation for operation. -/
theorem agg3 : Cert.KernelIdeal.Trace.aggTerm3 (F := Ideal) (Cert.ReferenceIdeal.Read.val_main_v63 a0 a1 a2 a3 a4 a5 a6 a7 a8 a9 a10 a11) (Cert.KernelIdeal.Trace.srcTerm a1) (Cert.KernelIdeal.Trace.dstTerm a1) a2 = Cert.ReferenceIdeal.Read.val_main_v76 a0 a1 a2 a3 a4 a5 a6 a7 a8 a9 a10 a11 := rfl

/-- Layer 3 at an entry. -/
theorem entry3 (r : Fin 100000) (q : Fin 5) :
    GraphConv.entry (M := 100000) (K := 10) (N := 5) (Cert.KernelIdeal.Trace.aggTerm3 (F := Ideal) (Cert.ReferenceIdeal.Read.val_main_v63 a0 a1 a2 a3 a4 a5 a6 a7 a8 a9 a10 a11) (Cert.KernelIdeal.Trace.srcTerm a1) (Cert.KernelIdeal.Trace.dstTerm a1) a2) (Cert.ReferenceIdeal.Read.val_main_v63 a0 a1 a2 a3 a4 a5 a6 a7 a8 a9 a10 a11) a12 a14 (fun q => shapeCast _ a13 Cert.KernelIdeal.Gen.shapeCasts_S5_S1x5 (ix2 (0 : Fin 1) q)) r q = Cert.ReferenceIdeal.Read.val_main_v83 a0 a1 a2 a3 a4 a5 a6 a7 a8 a9 a10 a11 a12 a13 a14 (ix2 r q) := by
  refine Eq.trans ?_ (show GraphConv.entry (M := 100000) (K := 10) (N := 5) (Cert.ReferenceIdeal.Read.val_main_v76 a0 a1 a2 a3 a4 a5 a6 a7 a8 a9 a10 a11) (Cert.ReferenceIdeal.Read.val_main_v63 a0 a1 a2 a3 a4 a5 a6 a7 a8 a9 a10 a11) a12 a14 (fun q => a13 (ix1 q)) r q
      = Cert.ReferenceIdeal.Read.val_main_v83 a0 a1 a2 a3 a4 a5 a6 a7 a8 a9 a10 a11 a12 a13 a14 (ix2 r q) from ?_)
  · exact GraphConv.entry_congr _ _ _ _ _ _ _ _ _ _ _ _ _ _
      (fun k => congrFun (agg3 a0 a1 a2 a3 a4 a5 a6 a7 a8 a9 a10 a11) (ix2 r k)) (fun _ => rfl) (fun _ => rfl) (fun _ => rfl)
      (shapeCast_a_1a_apply a13 _ (0 : Fin 1) q)
  · unfold Cert.ReferenceIdeal.Read.val_main_v83 Cert.ReferenceIdeal.Read.val_main_v82 Cert.ReferenceIdeal.Read.val_main_v81 Cert.ReferenceIdeal.Read.val_main_v80 Cert.ReferenceIdeal.Read.val_main_v79 Cert.ReferenceIdeal.Read.val_main_v78 Cert.ReferenceIdeal.Read.val_main_v77 Cert.ReferenceIdeal.Read.val_main_call3_v0 Cert.ReferenceIdeal.Read.val_main_call3_cst
    exact (GraphConv.host_entry Cert.ReferenceIdeal.dot_S100000x10_S10x5_S100000x5_1_0_0_1_n_n rfl rfl rfl rfl rfl rfl
      Cert.ReferenceIdeal.Gen.bcast_S5_S1x5_1 Cert.ReferenceIdeal.Gen.bcast_S1x5_S100000x5_0_1 Cert.ReferenceIdeal.Gen.bcast_S_S100000x5 _ _ a12 a14 a13 r q).symm

/-- Layer 3 as an array. -/
theorem layer3 : GraphConv.layer (M := 100000) (K := 10) (N := 5) (Cert.KernelIdeal.Trace.aggTerm3 (F := Ideal) (Cert.ReferenceIdeal.Read.val_main_v63 a0 a1 a2 a3 a4 a5 a6 a7 a8 a9 a10 a11) (Cert.KernelIdeal.Trace.srcTerm a1) (Cert.KernelIdeal.Trace.dstTerm a1) a2) (Cert.ReferenceIdeal.Read.val_main_v63 a0 a1 a2 a3 a4 a5 a6 a7 a8 a9 a10 a11) a12 a14 (fun q => shapeCast _ a13 Cert.KernelIdeal.Gen.shapeCasts_S5_S1x5 (ix2 (0 : Fin 1) q))
    = Cert.ReferenceIdeal.Read.val_main_v83 a0 a1 a2 a3 a4 a5 a6 a7 a8 a9 a10 a11 a12 a13 a14 := by
  funext i
  obtain ⟨r, q, rfl⟩ : ∃ (r : Fin 100000) (q : Fin 5), i = ix2 r q := ⟨i 0, i 1, eq_ix2 i⟩
  exact entry3 a0 a1 a2 a3 a4 a5 a6 a7 a8 a9 a10 a11 a12 a13 a14 r q

/-! ## Layer 4 -/

/-- The aggregated array before layer 4: the kernel program's stretch is the reference's, operation for operation. -/
theorem agg4 : Cert.KernelIdeal.Trace.aggTerm4 (F := Ideal) (Cert.ReferenceIdeal.Read.val_main_v83 a0 a1 a2 a3 a4 a5 a6 a7 a8 a9 a10 a11 a12 a13 a14) (Cert.KernelIdeal.Trace.srcTerm a1) (Cert.KernelIdeal.Trace.dstTerm a1) a2 = Cert.ReferenceIdeal.Read.val_main_v96 a0 a1 a2 a3 a4 a5 a6 a7 a8 a9 a10 a11 a12 a13 a14 := rfl

/-- Layer 4 at an entry. -/
theorem entry4 (r : Fin 100000) (q : Fin 2) :
    GraphConv.entry (M := 100000) (K := 5) (N := 2) (Cert.KernelIdeal.Trace.aggTerm4 (F := Ideal) (Cert.ReferenceIdeal.Read.val_main_v83 a0 a1 a2 a3 a4 a5 a6 a7 a8 a9 a10 a11 a12 a13 a14) (Cert.KernelIdeal.Trace.srcTerm a1) (Cert.KernelIdeal.Trace.dstTerm a1) a2) (Cert.ReferenceIdeal.Read.val_main_v83 a0 a1 a2 a3 a4 a5 a6 a7 a8 a9 a10 a11 a12 a13 a14) a15 a17 (fun q => shapeCast _ a16 Cert.KernelIdeal.Gen.shapeCasts_S2_S1x2 (ix2 (0 : Fin 1) q)) r q = Cert.ReferenceIdeal.Read.val_main_v103 a0 a1 a2 a3 a4 a5 a6 a7 a8 a9 a10 a11 a12 a13 a14 a15 a16 a17 (ix2 r q) := by
  refine Eq.trans ?_ (show GraphConv.entry (M := 100000) (K := 5) (N := 2) (Cert.ReferenceIdeal.Read.val_main_v96 a0 a1 a2 a3 a4 a5 a6 a7 a8 a9 a10 a11 a12 a13 a14) (Cert.ReferenceIdeal.Read.val_main_v83 a0 a1 a2 a3 a4 a5 a6 a7 a8 a9 a10 a11 a12 a13 a14) a15 a17 (fun q => a16 (ix1 q)) r q
      = Cert.ReferenceIdeal.Read.val_main_v103 a0 a1 a2 a3 a4 a5 a6 a7 a8 a9 a10 a11 a12 a13 a14 a15 a16 a17 (ix2 r q) from ?_)
  · exact GraphConv.entry_congr _ _ _ _ _ _ _ _ _ _ _ _ _ _
      (fun k => congrFun (agg4 a0 a1 a2 a3 a4 a5 a6 a7 a8 a9 a10 a11 a12 a13 a14) (ix2 r k)) (fun _ => rfl) (fun _ => rfl) (fun _ => rfl)
      (shapeCast_a_1a_apply a16 _ (0 : Fin 1) q)
  · unfold Cert.ReferenceIdeal.Read.val_main_v103 Cert.ReferenceIdeal.Read.val_main_v102 Cert.ReferenceIdeal.Read.val_main_v101 Cert.ReferenceIdeal.Read.val_main_v100 Cert.ReferenceIdeal.Read.val_main_v99 Cert.ReferenceIdeal.Read.val_main_v98 Cert.ReferenceIdeal.Read.val_main_v97 Cert.ReferenceIdeal.Read.val_main_call4_v0 Cert.ReferenceIdeal.Read.val_main_call4_cst
    exact (GraphConv.host_entry Cert.ReferenceIdeal.dot_S100000x5_S5x2_S100000x2_1_0_0_1_n_n rfl rfl rfl rfl rfl rfl
      Cert.ReferenceIdeal.Gen.bcast_S2_S1x2_1 Cert.ReferenceIdeal.Gen.bcast_S1x2_S100000x2_0_1 Cert.ReferenceIdeal.Gen.bcast_S_S100000x2 _ _ a15 a17 a16 r q).symm

/-! ## The result -/

/-- The softmax of the last layer's rows is the reference's result. -/
theorem result : (fun i : Cert.ReferenceIdeal.S100000x2.Idx => GraphConv.softmaxEntry (fun q => GraphConv.entry (M := 100000) (K := 5) (N := 2) (Cert.KernelIdeal.Trace.aggTerm4 (F := Ideal) (Cert.ReferenceIdeal.Read.val_main_v83 a0 a1 a2 a3 a4 a5 a6 a7 a8 a9 a10 a11 a12 a13 a14) (Cert.KernelIdeal.Trace.srcTerm a1) (Cert.KernelIdeal.Trace.dstTerm a1) a2) (Cert.ReferenceIdeal.Read.val_main_v83 a0 a1 a2 a3 a4 a5 a6 a7 a8 a9 a10 a11 a12 a13 a14) a15 a17 (fun q => shapeCast _ a16 Cert.KernelIdeal.Gen.shapeCasts_S2_S1x2 (ix2 (0 : Fin 1) q)) (i 0) q) (i 1))
    = Cert.ReferenceIdeal.Read.val_main_v114 a0 a1 a2 a3 a4 a5 a6 a7 a8 a9 a10 a11 a12 a13 a14 a15 a16 a17 := by
  funext i
  obtain ⟨r, q, rfl⟩ : ∃ (r : Fin 100000) (q : Fin 2), i = ix2 r q := ⟨i 0, i 1, eq_ix2 i⟩
  show GraphConv.softmaxEntry (fun q => GraphConv.entry (M := 100000) (K := 5) (N := 2) (Cert.KernelIdeal.Trace.aggTerm4 (F := Ideal) (Cert.ReferenceIdeal.Read.val_main_v83 a0 a1 a2 a3 a4 a5 a6 a7 a8 a9 a10 a11 a12 a13 a14) (Cert.KernelIdeal.Trace.srcTerm a1) (Cert.KernelIdeal.Trace.dstTerm a1) a2) (Cert.ReferenceIdeal.Read.val_main_v83 a0 a1 a2 a3 a4 a5 a6 a7 a8 a9 a10 a11 a12 a13 a14) a15 a17 (fun q => shapeCast _ a16 Cert.KernelIdeal.Gen.shapeCasts_S2_S1x2 (ix2 (0 : Fin 1) q)) r q) q = _
  refine Eq.trans (congrArg (fun z => GraphConv.softmaxEntry z q) (funext fun k => entry4 a0 a1 a2 a3 a4 a5 a6 a7 a8 a9 a10 a11 a12 a13 a14 a15 a16 a17 r k)) ?_
  unfold Cert.ReferenceIdeal.Read.val_main_v114 Cert.ReferenceIdeal.Read.val_main_v113 Cert.ReferenceIdeal.Read.val_main_v112 Cert.ReferenceIdeal.Read.val_main_v111 Cert.ReferenceIdeal.Read.val_main_v110 Cert.ReferenceIdeal.Read.val_main_v109 Cert.ReferenceIdeal.Read.val_main_v108 Cert.ReferenceIdeal.Read.val_main_v107 Cert.ReferenceIdeal.Read.val_main_v106 Cert.ReferenceIdeal.Read.val_main_v105 Cert.ReferenceIdeal.Read.val_main_v104 Cert.ReferenceIdeal.Read.val_main_cst_13 Cert.ReferenceIdeal.Read.val_main_cst_14 Cert.ReferenceIdeal.Read.val_main_cst_15
  exact (GraphConv.host_softmax (Cert.ReferenceIdeal.Read.val_main_v103 a0 a1 a2 a3 a4 a5 a6 a7 a8 a9 a10 a11 a12 a13 a14 a15 a16 a17) Cert.ReferenceIdeal.Gen.reducesTo_S100000x2_S100000_d1 (by decide) Cert.ReferenceIdeal.Gen.h_S_
    Cert.ReferenceIdeal.Gen.bcast_S_S100000 Cert.ReferenceIdeal.Gen.bcast_S100000_S100000x1_0 Cert.ReferenceIdeal.Gen.bcast_S100000x1_S100000x2_0_1 r q).symm

end Cert.Bridge

end
-- ==== Proof.KernelRun.lean ====
/-
  The kernel program's run with its result named. The program is five pipelined regions among stretches of host operations;
  the contents of every buffer at each boundary are the fold `W0 … W10` through the program. Every weakly fair execution
  terminates, without a fault, with the result buffer holding what the fold ends with there, `W10` at the result, and each
  argument array as launched.
-/
import proofs.«110816_j592705487394_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's ten segments, the last thread state read against the final state, the
    result at the fold's last contents and each argument walked back through the fold to the launch memory. -/
theorem run : θ_run defs (onTc (τ := τ) (main (F := F))) ⟨m, fun _ => 0, ρ⟩ (fun r => ∀ c : Dev nD,
      r.2.mem ((c.tc : Thread nD τ).loc main_v78) = W10 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v78 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c)⟩)

end Cert.KernelIdeal.Named

end
-- ==== Proof.Value.lean ====
/-
  The kernel program's result, read off its run: the output array of each region is the layer of what the region finds
  (`Region0` … `Region4`), what it finds is the aggregation of the previous region's output and the launch contents of
  the arguments (`Trace`), and each such layer is the reference's (`Bridge`). So region by region the kernel program's
  intermediate arrays are the reference's, and its result is the reference's result, as functions of the argument arrays.
-/
import proofs.«110816_j592705487394_1_alg».proof.Proof.Region0
import proofs.«110816_j592705487394_1_alg».proof.Proof.Region1
import proofs.«110816_j592705487394_1_alg».proof.Proof.Region2
import proofs.«110816_j592705487394_1_alg».proof.Proof.Region3
import proofs.«110816_j592705487394_1_alg».proof.Proof.Region4
import proofs.«110816_j592705487394_1_alg».proof.Proof.Trace
import proofs.«110816_j592705487394_1_alg».proof.Proof.Bridge
import proofs.«110816_j592705487394_1_alg».proof.Proof.KernelRun

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx Cert

variable (m : (ℓ : Loc nD τ sig) → Buf (Elt Ideal) ℓ) (ρ : Dev nD → PrngReg) (c : Dev nD)

/-- Region 0's output is the reference's layer 0. -/
theorem x1 : W2 m ρ c (Proc.devRef .tc main_v18) = Cert.ReferenceIdeal.Read.val_main_v23 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 5).trans ((Region0.final (V1 m ρ) c).trans ?_)
  show GraphConv.layer (M := 100000) (K := 6) (N := 20) (W1 m ρ c (Proc.devRef .tc main_v16)) (W1 m ρ c (Proc.devRef .tc main_arg0)) (W1 m ρ c (Proc.devRef .tc main_arg3)) (W1 m ρ c (Proc.devRef .tc main_arg5))
    (fun j => (W1 m ρ c (Proc.devRef .tc main_v17)) (ix2 (0 : Fin 1) j)) = _
  rw [Trace.e0_agg, Trace.e0_b, Trace.e0_x, Trace.e0_wr, Trace.e0_wo]
  exact Bridge.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- Region 1's output is the reference's layer 1. -/
theorem x2 : W4 m ρ c (Proc.devRef .tc main_v33) = Cert.ReferenceIdeal.Read.val_main_v43 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((Region1.final (V3 m ρ) c).trans ?_)
  show GraphConv.layer (M := 100000) (K := 20) (N := 15) (W3 m ρ c (Proc.devRef .tc main_v31)) (W3 m ρ c (Proc.devRef .tc main_v18)) (W3 m ρ c (Proc.devRef .tc main_arg6)) (W3 m ρ c (Proc.devRef .tc main_arg8))
    (fun j => (W3 m ρ c (Proc.devRef .tc main_v32)) (ix2 (0 : Fin 1) j)) = _
  rw [Trace.e1_agg, Trace.e1_b, Trace.e1_x, Trace.e1_wr, Trace.e1_wo, x1]
  exact Bridge.layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Region 2's output is the reference's layer 2. -/
theorem x3 : W6 m ρ c (Proc.devRef .tc main_v48) = Cert.ReferenceIdeal.Read.val_main_v63 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((Region2.final (V5 m ρ) c).trans ?_)
  show GraphConv.layer (M := 100000) (K := 15) (N := 10) (W5 m ρ c (Proc.devRef .tc main_v46)) (W5 m ρ c (Proc.devRef .tc main_v33)) (W5 m ρ c (Proc.devRef .tc main_arg9)) (W5 m ρ c (Proc.devRef .tc main_arg11))
    (fun j => (W5 m ρ c (Proc.devRef .tc main_v47)) (ix2 (0 : Fin 1) j)) = _
  rw [Trace.e2_agg, Trace.e2_b, Trace.e2_x, Trace.e2_wr, Trace.e2_wo, x2]
  exact Bridge.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- Region 3's output is the reference's layer 3. -/
theorem x4 : W8 m ρ c (Proc.devRef .tc main_v63) = Cert.ReferenceIdeal.Read.val_main_v83 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W8_arr m ρ c 5).trans ((Region3.final (V7 m ρ) c).trans ?_)
  show GraphConv.layer (M := 100000) (K := 10) (N := 5) (W7 m ρ c (Proc.devRef .tc main_v61)) (W7 m ρ c (Proc.devRef .tc main_v48)) (W7 m ρ c (Proc.devRef .tc main_arg12)) (W7 m ρ c (Proc.devRef .tc main_arg14))
    (fun j => (W7 m ρ c (Proc.devRef .tc main_v62)) (ix2 (0 : Fin 1) j)) = _
  rw [Trace.e3_agg, Trace.e3_b, Trace.e3_x, Trace.e3_wr, Trace.e3_wo, x3]
  exact Bridge.layer3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- Region 4's output, the program's result, is the reference's result. -/
theorem result : W10 m ρ c (Proc.devRef .tc main_v78) = Cert.ReferenceIdeal.Read.val_main_v114 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W10_arr m ρ c 5).trans ((Region4.final (V9 m ρ) c).trans ?_)
  show (fun i : S100000x2.Idx => GraphConv.softmaxEntry (fun j => GraphConv.entry (M := 100000) (K := 5) (N := 2)
      (W9 m ρ c (Proc.devRef .tc main_v76)) (W9 m ρ c (Proc.devRef .tc main_v63)) (W9 m ρ c (Proc.devRef .tc main_arg15)) (W9 m ρ c (Proc.devRef .tc main_arg17))
      (fun j => (W9 m ρ c (Proc.devRef .tc main_v77)) (ix2 (0 : Fin 1) j)) (i 0) j) (i 1)) = _
  rw [Trace.e4_agg, Trace.e4_b, Trace.e4_x, Trace.e4_wr, Trace.e4_wo, x4]
  exact Bridge.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- The kernel program's run with its result at the reference's function of the argument arrays. -/
theorem run : θ_run defs (onTc (τ := τ) (main (F := Ideal))) ⟨m, fun _ => 0, ρ⟩ (fun r => ∀ c : Dev nD,
      r.2.mem ((c.tc : Thread nD τ).loc main_v78) = Cert.ReferenceIdeal.Read.val_main_v114 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c).1.trans (result m ρ c), (h c).2⟩) (Named.run m ρ)

end Cert.KernelIdeal.Result

end
-- ==== Proof.lean ====
/-
  The certificate of a five-layer graph convolution network over 100000 nodes and 3200000 weighted edges followed by a
  row softmax: a kernel program that runs each layer's dense stage (two bf16 matrix products into f32, a bias, a rectifier
  and, last, the softmax) as a pipelined region of ten row blocks, the gather / scale / scatter-add aggregation staying on
  the host between the regions, against a reference that does everything on the host.

  On the extended reals the two programs compute one function. Each aggregation is the same sequence of host operations on
  both sides. Each dense stage is max (a·W_rel + x·W_root + b, 0) at every entry: a narrowing to bf16 is the identity, a
  product into a zero accumulator is the plain sum over the contracted index, and the kernel's (a·W_rel + x·W_root) + b
  is the reference's (a·W_rel + b) + x·W_root because addition of extended reals is commutative and associative — no
  finiteness of the inputs is used. The softmax is the same expression of a row on both sides.

  The three frames: the two kernel programs' are the generated ones, the reference's is its generated run with the result
  dropped. The idealization rewrote nothing, so `preserves` is trivial.
-/
import proofs.«110816_j592705487394_1_alg».proof.Defs
import proofs.«110816_j592705487394_1_alg».proof.Proof.Gen.Kernel
import proofs.«110816_j592705487394_1_alg».proof.Proof.Gen.Kernel.Skeleton
import proofs.«110816_j592705487394_1_alg».proof.Proof.Gen.Kernel.Launch
import proofs.«110816_j592705487394_1_alg».proof.Proof.Gen.Kernel.Points
import proofs.«110816_j592705487394_1_alg».proof.Proof.Gen.Kernel.Frame
import proofs.«110816_j592705487394_1_alg».proof.Proof.Gen.KernelIdeal
import proofs.«110816_j592705487394_1_alg».proof.Proof.Gen.KernelIdeal.Skeleton
import proofs.«110816_j592705487394_1_alg».proof.Proof.Gen.KernelIdeal.Launch
import proofs.«110816_j592705487394_1_alg».proof.Proof.Gen.KernelIdeal.Points
import proofs.«110816_j592705487394_1_alg».proof.Proof.Gen.KernelIdeal.Frame
import proofs.«110816_j592705487394_1_alg».proof.Proof.Gen.ReferenceIdeal
import proofs.«110816_j592705487394_1_alg».proof.Proof.Gen.Pre_finite_inputs
import proofs.«110816_j592705487394_1_alg».proof.Proof.Gen.ReferenceIdeal.Run
import proofs.«110816_j592705487394_1_alg».proof.Proof.Gen.ReferenceIdeal.Read
import proofs.«110816_j592705487394_1_alg».proof.Proof.Value
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the kernel program's argument arrays: the kernel program by its
    value run, the reference by its generated run read stage by stage, the arguments agreeing. -/
theorem algebraic : Cert.algebraic_KernelIdeal_ReferenceIdeal := by
  intro m ρ m' ρ' _ hagree
  refine ⟨fun c => Cert.ReferenceIdeal.Read.val_main_v114 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17⟩ := hagree c
  rw [Cert.ReferenceIdeal.Read.val_main_v114_eq, h0, h1, h2, h3, h4, h5, h6, h7, h8, h9, h10, h11, h12, h13, h14, h15, h16, h17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
